-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000x32 : Shape := ⟨2, ![100000, 32]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000x32 : S_.BroadcastsInDim S100000x32 (![] : Fin 0 → Fin S100000x32.rank)
  reducesTo_S100000x32_S_d0_1 : S100000x32.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg15 : FVec F S32 .f32) (main_arg16 : FVec F S32x10 .f32) (main_arg17 : FVec F S10 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x10 .f32 := Host.absf main_arg16
  let main_cst_28 : FVec F S_ .f32 := constant S_ .f32 0x7F800000#32
  let main_v75 : FVec F S32x10 .f32 := broadcastInDim S32x10 ![] bcast_S_S32x10 main_cst_28
  let main_v76 : IVec S32x10 1 := cmpf .olt main_v74 main_v75
  let main_c_29 : IVec S_ 1 := constantI S_ 1 1#1
  let main_v77 : IVec S_ 1 := (fun x v => Host.reduce IntOp.andi x v reducesTo_S32x10_S_d0_1 h_S_) main_v76 main_c_29
  let main_v78 : IVec S_ 1 := andi main_v73 main_v77
  let main_v79 : FVec F S10 .f32 := Host.absf main_arg17
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg12 : FVec F S64x32 .f32) (main_arg13 : FVec F S32 .f32) (main_arg14 : FVec F S64x32 .f32) (main_arg15 : FVec F S32 .f32) (main_arg16 : FVec F S32x10 .f32) (main_arg17 : FVec F S10 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x32 .f32 := Host.absf main_arg12
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_arg16 main_arg17 main_v63 main_v67

def fn_part2 {F : FTy → Type} [FloatOps F] (main_arg8 : FVec F S64x32 .f32) (main_arg9 : FVec F S32 .f32) (main_arg10 : FVec F S64x32 .f32) (main_arg11 : FVec F S32 .f32) (main_arg12 : FVec F S64x32 .f32) (main_arg13 : FVec F S32 .f32) (main_arg14 : FVec F S64x32 .f32) (main_arg15 : FVec F S32 .f32) (main_arg16 : FVec F S32x10 .f32) (main_arg17 : FVec F S10 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_v48 main_v49 main_v50

def fn_part1 {F : FTy → Type} [FloatOps F] (main_arg5 : FVec F S32 .f32) (main_arg6 : FVec F S64x32 .f32) (main_arg7 : FVec F S32 .f32) (main_arg8 : FVec F S64x32 .f32) (main_arg9 : FVec F S32 .f32) (main_arg10 : FVec F S64x32 .f32) (main_arg11 : FVec F S32 .f32) (main_arg12 : FVec F S64x32 .f32) (main_arg13 : FVec F S32 .f32) (main_arg14 : FVec F S64x32 .f32) (main_arg15 : FVec F S32 .f32) (main_arg16 : FVec F S32x10 .f32) (main_arg17 : FVec F S10 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : FVec F S1600000 .f32) (main_arg3 : FVec F S100000x32 .f32) (main_arg4 : FVec F S64x32 .f32) (main_arg5 : FVec F S32 .f32) (main_arg6 : FVec F S64x32 .f32) (main_arg7 : FVec F S32 .f32) (main_arg8 : FVec F S64x32 .f32) (main_arg9 : FVec F S32 .f32) (main_arg10 : FVec F S64x32 .f32) (main_arg11 : FVec F S32 .f32) (main_arg12 : FVec F S64x32 .f32) (main_arg13 : FVec F S32 .f32) (main_arg14 : FVec F S64x32 .f32) (main_arg15 : FVec F S32 .f32) (main_arg16 : FVec F S32x10 .f32) (main_arg17 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x32 .f32 := Host.absf main_arg3
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S100000x32 : Shape := ⟨2, ![100000, 32]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1600000 : Shape := ⟨2, ![1, 1600000]⟩
abbrev S64x96 : Shape := ⟨2, ![64, 96]⟩
abbrev S96 : Shape := ⟨1, ![96]⟩
abbrev S100000x96 : Shape := ⟨2, ![100000, 96]⟩
abbrev S20000x64 : Shape := ⟨2, ![20000, 64]⟩
abbrev S20000x96 : Shape := ⟨2, ![20000, 96]⟩
abbrev S_ : Shape := ⟨0, ![]⟩
abbrev S100000 : Shape := ⟨1, ![100000]⟩
abbrev S1600000x1 : Shape := ⟨2, ![1600000, 1]⟩
abbrev S1600000x96 : Shape := ⟨2, ![1600000, 96]⟩
abbrev S100000x1 : Shape := ⟨2, ![100000, 1]⟩
abbrev S1x96 : Shape := ⟨2, ![1, 96]⟩
abbrev S32x32 : Shape := ⟨2, ![32, 32]⟩
abbrev S1x32 : Shape := ⟨2, ![1, 32]⟩
abbrev S1x10 : Shape := ⟨2, ![1, 10]⟩
abbrev S100000x42 : Shape := ⟨2, ![100000, 42]⟩
abbrev S10000x96 : Shape := ⟨2, ![10000, 96]⟩
abbrev S10000x32 : Shape := ⟨2, ![10000, 32]⟩
abbrev S10000x42 : Shape := ⟨2, ![10000, 42]⟩
abbrev S10000x10 : Shape := ⟨2, ![10000, 10]⟩
abbrev S100000x10 : Shape := ⟨2, ![100000, 10]⟩

abbrev nBuf : Space → Nat
  | .hbm => 92
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S100000x32, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S32, .f32⟩
  | .hbm, ⟨10, _⟩ => ⟨S64x32, .f32⟩
  | .hbm, ⟨11, _⟩ => ⟨S32, .f32⟩
  | .hbm, ⟨12, _⟩ => ⟨S64x32, .f32⟩
  | .hbm, ⟨13, _⟩ => ⟨S32, .f32⟩
  | .hbm, ⟨14, _⟩ => ⟨S64x32, .f32⟩
  | .hbm, ⟨15, _⟩ => ⟨S32, .f32⟩
  | .hbm, ⟨16, _⟩ => ⟨S32x10, .f32⟩
  | .hbm, ⟨17, _⟩ => ⟨S10, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S64x96, .f32⟩
  | .hbm, ⟨23, _⟩ => ⟨S96, .f32⟩
  | .hbm, ⟨24, _⟩ => ⟨S100000x96, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000, .f32⟩
  | .hbm, ⟨52, _⟩ => ⟨S1600000, .f32⟩
  | .hbm, ⟨53, _⟩ => ⟨S100000x96, .bf16⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x96, .bf16⟩
  | .hbm, ⟨63, _⟩ => ⟨S1600000x96, .f32⟩
  | .hbm, ⟨64, _⟩ => ⟨S1600000x1, .f32⟩
  | .hbm, ⟨65, _⟩ => ⟨S1600000x96, .f32⟩
  | .hbm, ⟨66, _⟩ => ⟨S1600000x96, .f32⟩
  | .hbm, ⟨67, _⟩ => ⟨S_, .f32⟩
  | .hbm, ⟨68, _⟩ => ⟨S100000x96, .f32⟩
  | .hbm, ⟨69, _⟩ => ⟨S1600000x1, .i32⟩
  | .hbm, ⟨70, _⟩ => ⟨S100000x96, .f32⟩
  | .hbm, ⟨71, _⟩ => ⟨S100000, .f32⟩
  | .hbm, ⟨72, _⟩ => ⟨S100000x1, .f32⟩
  | .hbm, ⟨73, _⟩ => ⟨S100000x96, .f32⟩
  | .hbm, ⟨74, _⟩ => ⟨S100000x96, .f32⟩
  | .hbm, ⟨75, _⟩ => ⟨S100000x96, .f32⟩
  | .hbm, ⟨76, _⟩ => ⟨S1x96, .f32⟩
  | .hbm, ⟨77, _⟩ => ⟨S100000x96, .f32⟩
  | .hbm, ⟨78, _⟩ => ⟨S100000x96, .f32⟩
  | .hbm, ⟨79, _⟩ => ⟨S32x32, .f32⟩
  | .hbm, ⟨80, _⟩ => ⟨S32x32, .f32⟩
  | .hbm, ⟨81, _⟩ => ⟨S32x32, .f32⟩
  | .hbm, ⟨82, _⟩ => ⟨S32x32, .f32⟩
  | .hbm, ⟨83, _⟩ => ⟨S32x32, .f32⟩
  | .hbm, ⟨84, _⟩ => ⟨S32x32, .f32⟩
  | .hbm, ⟨85, _⟩ => ⟨S1x32, .f32⟩
  | .hbm, ⟨86, _⟩ => ⟨S1x32, .f32⟩
  | .hbm, ⟨87, _⟩ => ⟨S1x32, .f32⟩
  | .hbm, ⟨88, _⟩ => ⟨S1x10, .f32⟩
  | .hbm, ⟨89, _⟩ => ⟨S100000x42, .f32⟩
  | .hbm, ⟨90, _⟩ => ⟨S100000x32, .f32⟩
  | .hbm, ⟨91, _⟩ => ⟨S100000x10, .f32⟩
  | .local _ .vmem, ⟨0, _⟩ => ⟨S20000x64, .f32⟩
  | .local _ .vmem, ⟨1, _⟩ => ⟨S20000x64, .f32⟩
  | .local _ .vmem, ⟨2, _⟩ => ⟨S64x96, .f32⟩
  | .local _ .vmem, ⟨3, _⟩ => ⟨S20000x96, .f32⟩
  | .local _ .vmem, ⟨4, _⟩ => ⟨S20000x96, .f32⟩
  | .local _ .vmem, ⟨5, _⟩ => ⟨S10000x96, .f32⟩
  | .local _ .vmem, ⟨6, _⟩ => ⟨S10000x96, .f32⟩
  | .local _ .vmem, ⟨7, _⟩ => ⟨S10000x32, .f32⟩
  | .local _ .vmem, ⟨8, _⟩ => ⟨S10000x32, .f32⟩
  | .local _ .vmem, ⟨9, _⟩ => ⟨S32x32, .f32⟩
  | .local _ .vmem, ⟨10, _⟩ => ⟨S32x32, .f32⟩
  | .local _ .vmem, ⟨11, _⟩ => ⟨S1x32, .f32⟩
  | .local _ .vmem, ⟨12, _⟩ => ⟨S32x32, .f32⟩
  | .local _ .vmem, ⟨13, _⟩ => ⟨S32x32, .f32⟩
  | .local _ .vmem, ⟨14, _⟩ => ⟨S1x32, .f32⟩
  | .local _ .vmem, ⟨15, _⟩ => ⟨S32x32, .f32⟩
  | .local _ .vmem, ⟨16, _⟩ => ⟨S32x32, .f32⟩
  | .local _ .vmem, ⟨17, _⟩ => ⟨S1x32, .f32⟩
  | .local _ .vmem, ⟨18, _⟩ => ⟨S32x10, .f32⟩
  | .local _ .vmem, ⟨19, _⟩ => ⟨S1x10, .f32⟩
  | .local _ .vmem, ⟨20, _⟩ => ⟨S10000x42, .f32⟩
  | .local _ .vmem, ⟨21, _⟩ => ⟨S10000x42, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem13_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S32x10 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x10 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S10000x42 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S64x32_S64x32_S64x32_S64x96_d1 : Shape.Concatenates [S64x32, S64x32, S64x32] S64x96 1
  concatenates_S32_S32_S32_S96_d0 : Shape.Concatenates [S32, S32, S32] S96 0
  inb_S20000x64_S20000x64_0_0 : ∀ a, (![0, 0] : Fin 2 → Nat) a + S20000x64.size a ≤ S20000x64.size a
  h_S20000x64 : 0 < S20000x64.numel
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S20000x96_S20000x96_0_0 : ∀ a, (![0, 0] : Fin 2 → Nat) a + S20000x96.size a ≤ S20000x96.size a
  h_S20000x96 : 0 < S20000x96.numel
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bitsLt_bf16_f32 : FTy.bits .bf16 < FTy.bits .f32
  bcast_S1600000x1_S1600000x96_0_1 : S1600000x1.BroadcastsInDim S1600000x96 (![0, 1] : Fin 2 → Fin S1600000x96.rank)
  bcast_S_S100000x96 : S_.BroadcastsInDim S100000x96 (![] : Fin 0 → Fin S100000x96.rank)
  bcast_S100000_S100000x1_0 : S100000.BroadcastsInDim S100000x1 (![0] : Fin 1 → Fin S100000x1.rank)
  bcast_S100000x1_S100000x96_0_1 : S100000x1.BroadcastsInDim S100000x96 (![0, 1] : Fin 2 → Fin S100000x96.rank)
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  slices_S64x32_S32x32_0_0 : S64x32.Slices ![0, 0] S32x32
  slices_S64x32_S32x32_32_0 : S64x32.Slices ![32, 0] S32x32
  shapeCasts_S32_S1x32 : S32.ShapeCasts S1x32
  shapeCasts_S10_S1x10 : S10.ShapeCasts S1x10
  inb_S10000x32_S10000x32_0_0 : ∀ a, (![0, 0] : Fin 2 → Nat) a + S10000x32.size a ≤ S10000x32.size a
  h_S10000x32 : 0 < S10000x32.numel
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  slices_S10000x96_o0_0_S10000x32 : S10000x96.Slices ![0, 0] S10000x32
  slices_S10000x96_o0_32_S10000x32 : S10000x96.Slices ![0, 32] S10000x32
  slices_S10000x96_o0_64_S10000x32 : S10000x96.Slices ![0, 64] S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x42_S10000x32_0_0 : ∀ a, (![0, 0] : Fin 2 → Nat) a + S10000x32.size a ≤ S10000x42.size a
  inb_S10000x42_S10000x10_0_32 : ∀ a, (![0, 32] : Fin 2 → Nat) a + S10000x10.size a ≤ S10000x42.size a
  h_S10000x10 : 0 < S10000x10.numel
  slices_S100000x42_S100000x32_0_0 : S100000x42.Slices ![0, 0] S100000x32
  slices_S100000x42_S100000x10_0_32 : S100000x42.Slices ![0, 32] S100000x10
  dot_S20000x64_S64x96_S20000x96_1_0_0_1_n_n_wf : DotDims.WF S20000x64 S64x96 S20000x96 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x96_S1600000x1_S1600000x96_1_0_n_n_0_1_196_wf : GatherDims.WF S100000x96 S1600000x1 S1600000x96 [1] [0] [] [0] [] 1 ![1, 96]
  scatter_S100000x96_S1600000x1_S1600000x96_1_0_0_1_wf : ScatterDims.WF S100000x96 S1600000x1 S1600000x96 [1] [0] [0] 1
  dot_S10000x32_S32x32_S10000x32_1_0_0_1_n_n_wf : DotDims.WF S10000x32 S32x32 S10000x32 [1] [0] [0] [1] [] []
  dot_S10000x32_S32x10_S10000x10_1_0_0_1_n_n_wf : DotDims.WF S10000x32 S32x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x96.size a ≤ S100000x96.size a
  hwx0_2 : ∀ i : grid0.Coords, EltTy.bits .f32 = 32 ∨ (Rect.block (s := S100000x96) S20000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S100000x96.size a
  hwx1_0 : ∀ i : grid1.Coords, EltTy.bits .f32 = 32 ∨ (Rect.block (s := S100000x96) S10000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x32.size a ≤ S32x32.size a
  hwx1_6 : ∀ i : grid1.Coords, EltTy.bits .f32 = 32 ∨ (Rect.block (s := S32x32) S32x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x32.size a ≤ S32x32.size a
  hwx1_8 : ∀ i : grid1.Coords, EltTy.bits .f32 = 32 ∨ (Rect.block (s := S32x32) S32x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x32.size a ≤ S32x32.size a
  hwx1_9 : ∀ i : grid1.Coords, EltTy.bits .f32 = 32 ∨ (Rect.block (s := S32x32) S32x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S32x10.size a ≤ S32x10.size a
  hwx1_11 : ∀ i : grid1.Coords, EltTy.bits .f32 = 32 ∨ (Rect.block (s := S32x10) S32x10.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x10.size a ≤ S1x10.size a
  hwx1_12 : ∀ i : grid1.Coords, EltTy.bits .f32 = 32 ∨ (Rect.block (s := S1x10) S1x10.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S10000x42.size a ≤ S100000x42.size a
  hwx1_13 : ∀ i : grid1.Coords, EltTy.bits .f32 = 32 ∨ (Rect.block (s := S100000x42) S10000x42.size (cc1_transform_13 i) (hinb1_13 i)).WholeWords (EltTy.packing .f32)

variable [Facts₀]

def dot_S20000x64_S64x96_S20000x96_1_0_0_1_n_n : DotDims S20000x64 S64x96 S20000x96 where
  lhsContracting := [1]
  rhsContracting := [0]
  lhsNonContracting := [0]
  rhsNonContracting := [1]
  lhsBatch := []
  rhsBatch := []
  wf := dot_S20000x64_S64x96_S20000x96_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x96_S1600000x1_S1600000x96_1_0_n_n_0_1_196 : GatherDims S100000x96 S1600000x1 S1600000x96 where
  offsetDims := [1]
  collapsedSliceDims := [0]
  operandBatchingDims := []
  startIndicesBatchingDims := []
  startIndexMap := [0]
  indexVectorDim := 1
  sliceSizes := ![1, 96]
  wf := gather_S100000x96_S1600000x1_S1600000x96_1_0_n_n_0_1_196_wf
def scatter_S100000x96_S1600000x1_S1600000x96_1_0_0_1 : ScatterDims S100000x96 S1600000x1 S1600000x96 where
  updateWindowDims := [1]
  insertedWindowDims := [0]
  scatterDimsToOperandDims := [0]
  indexVectorDim := 1
  wf := scatter_S100000x96_S1600000x1_S1600000x96_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x10_S10000x10_1_0_0_1_n_n : DotDims S10000x32 S32x10 S10000x10 where
  lhsContracting := [1]
  rhsContracting := [0]
  lhsNonContracting := [0]
  rhsNonContracting := [1]
  lhsBatch := []
  rhsBatch := []
  wf := dot_S10000x32_S32x10_S10000x10_1_0_0_1_n_n_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S20000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S32x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v56) S32x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v57) S32x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v60) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg16) S32x10.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v61) S1x10.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v62) S10000x42.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000x32 : Shape := ⟨2, ![100000, 32]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩
abbrev S1x32 : Shape := ⟨2, ![1, 32]⟩
abbrev S100000x10 : Shape := ⟨2, ![100000, 10]⟩
abbrev S1x10 : Shape := ⟨2, ![1, 10]⟩

abbrev nBuf : Space → Nat
  | .hbm => 229
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S100000x32, .f32⟩
  | 4 => ⟨S64x32, .f32⟩
  | 5 => ⟨S32, .f32⟩
  | 6 => ⟨S64x32, .f32⟩
  | 7 => ⟨S32, .f32⟩
  | 8 => ⟨S64x32, .f32⟩
  | 9 => ⟨S32, .f32⟩
  | 10 => ⟨S64x32, .f32⟩
  | 11 => ⟨S32, .f32⟩
  | 12 => ⟨S64x32, .f32⟩
  | 13 => ⟨S32, .f32⟩
  | 14 => ⟨S64x32, .f32⟩
  | 15 => ⟨S32, .f32⟩
  | 16 => ⟨S32x10, .f32⟩
  | 17 => ⟨S10, .f32⟩
  | 18 => ⟨S1x1600000, .i32⟩
  | 19 => ⟨S1600000, .i32⟩
  | 20 => ⟨S1x1600000, .i32⟩
  | 21 => ⟨S1600000, .i32⟩
  | 22 => ⟨S100000x32, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x32, .f32⟩
  | 61 => ⟨S1600000x32, .f32⟩
  | 62 => ⟨S1600000x32, .f32⟩
  | 63 => ⟨S_, .f32⟩
  | 64 => ⟨S100000x32, .f32⟩
  | 65 => ⟨S1600000x1, .i32⟩
  | 66 => ⟨S100000x32, .f32⟩
  | 67 => ⟨S100000, .f32⟩
  | 68 => ⟨S100000x1, .f32⟩
  | 69 => ⟨S100000x32, .f32⟩
  | 70 => ⟨S100000x32, .f32⟩
  | 71 => ⟨S100000x32, .f32⟩
  | 72 => ⟨S1x32, .f32⟩
  | 73 => ⟨S100000x32, .f32⟩
  | 74 => ⟨S100000x32, .f32⟩
  | 75 => ⟨S100000x64, .f32⟩
  | 76 => ⟨S100000x32, .f32⟩
  | 77 => ⟨S1x32, .f32⟩
  | 78 => ⟨S100000x32, .f32⟩
  | 79 => ⟨S100000x32, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S_, .f32⟩
  | 86 => ⟨S100000x32, .f32⟩
  | 87 => ⟨S100000x32, .f32⟩
  | 88 => ⟨S100000x32, .f32⟩
  | 89 => ⟨S_, .f32⟩
  | 90 => ⟨S100000, .f32⟩
  | 91 => ⟨S1600000x1, .i32⟩
  | 92 => ⟨S100000, .f32⟩
  | 93 => ⟨S_, .f32⟩
  | 94 => ⟨S100000, .f32⟩
  | 95 => ⟨S100000, .f32⟩
  | 96 => ⟨S100000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000, .f32⟩
  | 116 => ⟨S1600000, .f32⟩
  | 117 => ⟨S1600000x1, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x32, .f32⟩
  | 127 => ⟨S1600000x32, .f32⟩
  | _ => ⟨S100000x64, .f32⟩

abbrev hbmTy0_1 (i : Nat) : BufTy := match i % 128 with
  | 0 => ⟨S1600000x32, .f32⟩
  | 1 => ⟨S_, .f32⟩
  | 2 => ⟨S100000x32, .f32⟩
  | 3 => ⟨S1600000x1, .i32⟩
  | 4 => ⟨S100000x32, .f32⟩
  | 5 => ⟨S100000, .f32⟩
  | 6 => ⟨S100000x1, .f32⟩
  | 7 => ⟨S100000x32, .f32⟩
  | 8 => ⟨S100000x32, .f32⟩
  | 9 => ⟨S100000x32, .f32⟩
  | 10 => ⟨S1x32, .f32⟩
  | 11 => ⟨S100000x32, .f32⟩
  | 12 => ⟨S100000x32, .f32⟩
  | 13 => ⟨S100000x64, .f32⟩
  | 14 => ⟨S100000x32, .f32⟩
  | 15 => ⟨S1x32, .f32⟩
  | 16 => ⟨S100000x32, .f32⟩
  | 17 => ⟨S100000x32, .f32⟩
  | 18 => ⟨S100000x32, .f32⟩
  | 19 => ⟨S100000x32, .f32⟩
  | 20 => ⟨S_, .f32⟩
  | 21 => ⟨S100000x32, .f32⟩
  | 22 => ⟨S100000x32, .f32⟩
  | 23 => ⟨S_, .f32⟩
  | 24 => ⟨S100000x32, .f32⟩
  | 25 => ⟨S100000x32, .f32⟩
  | 26 => ⟨S100000x32, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x32, .f32⟩
  | 65 => ⟨S1600000x32, .f32⟩
  | 66 => ⟨S1600000x32, .f32⟩
  | 67 => ⟨S_, .f32⟩
  | 68 => ⟨S100000x32, .f32⟩
  | 69 => ⟨S1600000x1, .i32⟩
  | 70 => ⟨S100000x32, .f32⟩
  | 71 => ⟨S100000, .f32⟩
  | 72 => ⟨S100000x1, .f32⟩
  | 73 => ⟨S100000x32, .f32⟩
  | 74 => ⟨S100000x32, .f32⟩
  | 75 => ⟨S100000x32, .f32⟩
  | 76 => ⟨S1x32, .f32⟩
  | 77 => ⟨S100000x32, .f32⟩
  | 78 => ⟨S100000x32, .f32⟩
  | 79 => ⟨S100000x32, .f32⟩
  | 80 => ⟨S100000x64, .f32⟩
  | 81 => ⟨S100000x32, .f32⟩
  | 82 => ⟨S1x32, .f32⟩
  | 83 => ⟨S100000x32, .f32⟩
  | 84 => ⟨S100000x32, .f32⟩
  | 85 => ⟨S100000x32, .f32⟩
  | 86 => ⟨S100000x32, .f32⟩
  | 87 => ⟨S_, .f32⟩
  | 88 => ⟨S100000x32, .f32⟩
  | 89 => ⟨S100000x32, .f32⟩
  | 90 => ⟨S100000x32, .f32⟩
  | 91 => ⟨S100000x32, .f32⟩
  | 92 => ⟨S100000x32, .f32⟩
  | 93 => ⟨S_, .f32⟩
  | 94 => ⟨S100000x32, .f32⟩
  | 95 => ⟨S100000x32, .f32⟩
  | 96 => ⟨S100000x32, .f32⟩
  | 97 => ⟨S100000x10, .f32⟩
  | 98 => ⟨S1x10, .f32⟩
  | 99 => ⟨S100000x10, .f32⟩
  | 100 => ⟨S100000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_11 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_13 : Ref sig .tc := ⟨.hbm, 107, rfl⟩
abbrev main_v74 : Ref sig .tc := ⟨.hbm, 108, rfl⟩
abbrev main_v75 : Ref sig .tc := ⟨.hbm, 109, rfl⟩
abbrev main_c_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_15 : Ref sig .tc := ⟨.hbm, 118, rfl⟩
abbrev main_v83 : Ref sig .tc := ⟨.hbm, 119, rfl⟩
abbrev main_v84 : Ref sig .tc := ⟨.hbm, 120, rfl⟩
abbrev main_c_16 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_18 : Ref sig .tc := ⟨.hbm, 148, rfl⟩
abbrev main_v110 : Ref sig .tc := ⟨.hbm, 149, rfl⟩
abbrev main_v111 : Ref sig .tc := ⟨.hbm, 150, rfl⟩
abbrev main_cst_19 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_20 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_21 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_22 : Ref sig .tc := ⟨.hbm, 163, rfl⟩
abbrev main_v121 : Ref sig .tc := ⟨.hbm, 164, rfl⟩
abbrev main_v122 : Ref sig .tc := ⟨.hbm, 165, rfl⟩
abbrev main_c_23 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_c_24 : Ref sig .tc := ⟨.hbm, 173, rfl⟩
abbrev main_v129 : Ref sig .tc := ⟨.hbm, 174, rfl⟩
abbrev main_v130 : Ref sig .tc := ⟨.hbm, 175, rfl⟩
abbrev main_c_25 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_c_26 : Ref sig .tc := ⟨.hbm, 184, rfl⟩
abbrev main_v138 : Ref sig .tc := ⟨.hbm, 185, rfl⟩
abbrev main_v139 : Ref sig .tc := ⟨.hbm, 186, rfl⟩
abbrev main_c_27 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_cst_28 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_cst_29 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_30 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x64_d1 : Shape.Concatenates [S100000x32, S100000x32] S100000x64 1
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x64_S64x32_S100000x32_1_0_0_1_n_n_wf : DotDims.WF S100000x64 S64x32 S100000x32 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x10_S100000x10_1_0_0_1_n_n_wf : DotDims.WF S100000x32 S32x10 S100000x10 [1] [0] [0] [1] [] []

variable [Facts₀]

def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf

class Facts : Prop extends Facts₀ where

variable [Facts]
-- ==== Proof.K.Region0.lean ====
/- Region 0 of @main: the projection kernel, a pipeline of three windows over a grid of five points. At each point the
   body reads one 20000×64 row block of the first operand (window 0), the whole 64×96 second operand (window 1: the same
   block at every point, so it is brought in once and stays) and stores their matrix product over the whole 20000×96 row
   block of the result (window 2). Everything here is stated at a parameter `V`, the TensorCore's buffer contents when
   the region is entered: each window's block at a point, what the body finds in the input buffers and what it leaves in
   the output buffer, the body's triple, the pipeline's proof data and the body obligation at every point. -/
import proofs.«109611_j74380243632619_2_alg».proof.Proof.Gen.Kernel.Launch
import proofs.«109611_j74380243632619_2_alg».proof.Proof.Gen.Kernel.Skeleton
import proofs.«109611_j74380243632619_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its row block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the whole second operand at every point, fetched there or not: its block
    index is the same at every point, so past the first point nothing is fetched and the buffer still holds what the
    first point's fetch put there, which is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one a whole block -/

abbrev r0_0 : Rect S20000x64 := Rect.unit (s := S20000x64) ![0, 0] S20000x64.size inb_S20000x64_S20000x64_0_0
abbrev r0_1 : Rect S64x96 := Rect.unit (s := S64x96) ![0, 0] S64x96.size inb_S64x96_S64x96_0_0
abbrev r0_2 : Rect S20000x96 := Rect.unit (s := S20000x96) ![0, 0] S20000x96.size inb_S20000x96_S20000x96_0_0

/-! ## What the body leaves in the output window's buffer -/

/-- Window 2's staging buffer after the body, from the input windows' blocks: the product of the row block and the
    second operand, stored over the whole block. (The body also reads the block before storing it; that value is not
    used.) -/
def out0_2 (x0 : Vec F S20000x64 .f32) (x1 : Vec F S64x96 .f32) : Vec F S20000x96 .f32 :=
  View.canon [⟨r0_2, k0_pay1 (View.ld x0 r0_0) (View.ld x1 r0_1)⟩]

/-- The one store is the whole block, so it covers it. -/
theorem cover0_2 (p0 : Vec F S20000x96 .f32) (y : S20000x96.Idx) :
    ∃ pc ∈ ([⟨r0_2, p0⟩] : List (View.Piece (Elt F) S20000x96 .f32)), y ∈ pc.1.set :=
  View.cover_of_tiled [⟨r0_2, p0⟩] S20000x96.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (i : grid0.Coords) (arg1 : Memref sig .tc .vmem S20000x64 .f32) (harg1 : arg1.IsWhole) (arg2 : Memref sig .tc .vmem S64x96 .f32) (harg2 : arg2.IsWhole) (arg3 : Memref sig .tc .vmem S20000x96 .f32) (harg3 : arg3.IsWhole)
    (x0 : Vec F S20000x64 .f32) (x1 : Vec F S64x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant keeps the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- Region 1 of @main: the fused kernel, a pipeline of fourteen windows over a grid of ten points. At each point the body
   reads one 10000×96 row block of its first operand (window 0), the matching 10000×32 row block `h` of its second operand
   (window 1) and eleven small operands (windows 2 … 12, of 32×32, 1×32, 32×10 and 1×10 entries: each the same block at every
   point, so brought in once), and stores two column bands of the 10000×42 row block of the result (window 13): columns
   0 … 31 hold `u / (u·u + 1)` for `u = z·h + (1 − z)·tanh(…)` with `z` the logistic of an affine form of the two blocks, and columns 32 … 41 hold that
   value times the 32×10 operand plus the 1×10 operand on every row. Everything here is stated at a parameter `V`, the
   TensorCore's buffer contents when the region is entered: each window's block at a point, what the body finds in the
   input buffers and what it leaves in the output buffer, the body's triple, the pipeline's proof data and the body
   obligation at every point. -/
import proofs.«109611_j74380243632619_2_alg».proof.Proof.Gen.Kernel.Launch
import proofs.«109611_j74380243632619_2_alg».proof.Proof.Gen.Kernel.Skeleton
import proofs.«109611_j74380243632619_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for any proof data
    whose array is `V`'s (`hA`) and whose body leaves the block in place (`hafter`). Windows 0 and 1 move along the rows
    and are fetched at every point; windows 2 … 12 have the same block index at every point, so past the first point
    nothing is fetched and the buffer still holds the first point's block, which is this point's. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load a whole block, the two stores the two column bands of the output block -/

abbrev r1_0 : Rect S10000x32 := Rect.unit (s := S10000x32) ![0, 0] S10000x32.size inb_S10000x32_S10000x32_0_0
abbrev r1_1 : Rect S10000x96 := Rect.unit (s := S10000x96) ![0, 0] S10000x96.size inb_S10000x96_S10000x96_0_0
abbrev r1_2 : Rect S32x32 := Rect.unit (s := S32x32) ![0, 0] S32x32.size inb_S32x32_S32x32_0_0
abbrev r1_3 : Rect S1x32 := Rect.unit (s := S1x32) ![0, 0] S1x32.size inb_S1x32_S1x32_0_0
abbrev r1_4 : Rect S32x10 := Rect.unit (s := S32x10) ![0, 0] S32x10.size inb_S32x10_S32x10_0_0
abbrev r1_5 : Rect S1x10 := Rect.unit (s := S1x10) ![0, 0] S1x10.size inb_S1x10_S1x10_0_0
abbrev r1_6 : Rect S10000x42 := Rect.unit (s := S10000x42) ![0, 0] S10000x32.size inb_S10000x42_S10000x32_0_0
abbrev r1_7 : Rect S10000x42 := Rect.unit (s := S10000x42) ![0, 32] S10000x10.size inb_S10000x42_S10000x10_0_32

/-! ## What the body leaves in the output window's buffer -/

/-- Window 13's staging buffer after the body, from the input windows' blocks: its two stores as pieces, the last one
    first — columns 32 … 41, then columns 0 … 31. The three values the first part of the body hands on are `z`, the
    logistic of an affine form of the two blocks; the block `h` times a second such logistic; and the product of the
    first operand's columns 64 … 95 with a 32×32 operand. (The body also reads each band before storing it; those values
    are not used.) -/
def out1_13 (x0 : Vec F S10000x96 .f32) (x1 : Vec F S10000x32 .f32) (x2 : Vec F S32x32 .f32) (x3 : Vec F S32x32 .f32) (x4 : Vec F S1x32 .f32) (x5 : Vec F S32x32 .f32) (x6 : Vec F S32x32 .f32) (x7 : Vec F S1x32 .f32) (x8 : Vec F S32x32 .f32) (x9 : Vec F S32x32 .f32) (x10 : Vec F S1x32 .f32) (x11 : Vec F S32x10 .f32) (x12 : Vec F S1x10 .f32) : Vec F S10000x42 .f32 :=
  View.canon [⟨r1_7, k1_pay2 (View.ld x1 r1_0) (k1_pay4 (View.ld x1 r1_0) (View.ld x0 r1_1) (View.ld x2 r1_2) (View.ld x3 r1_2) (View.ld x4 r1_3)) (k1_pay5 (View.ld x1 r1_0) (View.ld x0 r1_1) (View.ld x5 r1_2) (View.ld x6 r1_2) (View.ld x7 r1_3)) (k1_pay6 (View.ld x0 r1_1) (View.ld x8 r1_2)) (View.ld x9 r1_2) (View.ld x10 r1_3) (View.ld x11 r1_4) (View.ld x12 r1_5)⟩,
    ⟨r1_6, k1_pay1 (View.ld x1 r1_0) (k1_pay4 (View.ld x1 r1_0) (View.ld x0 r1_1) (View.ld x2 r1_2) (View.ld x3 r1_2) (View.ld x4 r1_3)) (k1_pay5 (View.ld x1 r1_0) (View.ld x0 r1_1) (View.ld x5 r1_2) (View.ld x6 r1_2) (View.ld x7 r1_3)) (k1_pay6 (View.ld x0 r1_1) (View.ld x8 r1_2)) (View.ld x9 r1_2) (View.ld x10 r1_3)⟩]

/-- The two bands are 10 and 32 columns wide: cut into blocks of 10000×2 they are 5 and 16 blocks that tile the
    10000×42 block (checked by evaluation), so the two stores cover it. -/
theorem cover1_13 (p0 : Vec F S10000x10 .f32) (p1 : Vec F S10000x32 .f32) (y : S10000x42.Idx) :
    ∃ pc ∈ ([⟨r1_7, p0⟩, ⟨r1_6, p1⟩] : List (View.Piece (Elt F) S10000x42 .f32)), y ∈ pc.1.set :=
  View.cover_of_tiledBy [⟨r1_7, p0⟩, ⟨r1_6, p1⟩] ![10000, 2] (by sl_kernel_rfl) y

/-! ## The body's triple -/

set_option maxHeartbeats 4000000 in
/-- The kernel body on whole staging memrefs, the inputs' at read contents `x0` … `x12` and the output's at anything,
    runs to the continuation holding the inputs' as they were and the output's at `out1_13` of the inputs'. -/
theorem sound_kernel1 (c : Dev nD) (E : Set ℕ) (i : grid1.Coords) (arg1 : Memref sig .tc .vmem S10000x96 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x10 .f32) (harg12 : arg12.IsWhole) (arg13 : Memref sig .tc .vmem S1x10 .f32) (harg13 : arg13.IsWhole) (arg14 : Memref sig .tc .vmem S10000x42 .f32) (harg14 : arg14.IsWhole)
    (x0 : Vec F S10000x96 .f32) (x1 : Vec F S10000x32 .f32) (x2 : Vec F S32x32 .f32) (x3 : Vec F S32x32 .f32) (x4 : Vec F S1x32 .f32) (x5 : Vec F S32x32 .f32) (x6 : Vec F S32x32 .f32) (x7 : Vec F S1x32 .f32) (x8 : Vec F S32x32 .f32) (x9 : Vec F S32x32 .f32) (x10 : Vec F S1x32 .f32) (x11 : Vec F S32x10 .f32) (x12 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 x0 x1 x2 x3 x4 x5 x6 x7 x8 x9 x10 x11 x12)) -∗ K ⟨⟩))
      ⊢ wp frame (wpE (defs₀ (F := F)) Variants.none c none) E (cc1__fuse_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__fuse_kernel_eq_skeleton]; unfold cc1__fuse_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover1_13 _ _)

/-! ## The pipeline's proof data -/

/-- The proof data of pipeline 1 on core `c`: the arrays as the region finds them (`V`); after the body at point `t`
    each input's buffer at its block and the output's at `out1_13` of the input blocks; the invariant keeps the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/- The run of @main: three stretches of host operations around the two kernel regions. The TensorCore's buffer contents at
   each of the six boundaries are a fold from the launch memory: `W0` the launch contents; `W1` after the first host
   stretch; `W2` after region 0, whose arrays are at what its pipeline leaves and every other buffer as entered; `W3`
   after the second host stretch; `W4` after region 1 likewise; `W5` after the last host stretch. Each region is a segment
   record over the thread state "every unscoped buffer at the boundary's contents, the generator register at some state,
   nothing owed", each host stretch a segment over the same state, and @main is the run of the five segments. So every
   weakly fair execution of @main terminates with every unscoped buffer at `W5` (`run_all`); and since no host operation
   writes an argument and a region only reads one through an input window, each argument's buffer walks back through
   the fold to its launch contents (`frame`). -/
import proofs.«109611_j74380243632619_2_alg».proof.Proof.K.Region0
import proofs.«109611_j74380243632619_2_alg».proof.Proof.K.Region1
import proofs.«109611_j74380243632619_2_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs folded
    over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs folded
    over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents @main returns with. -/
abbrev W5 : Dev nD → Valuation τ sig (Elt F) := fun c => StableHlo.after hostOps2 (W4 m ρ c)

/-! ### The arguments end as launched: no host operation writes one, and a region reads one only through an input
    window (whose array is never written back) or not at all, so the fold at an argument's buffer walks back to the
    launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 (W4 m ρ c) hostOps2_writes (by decide)
    _ = W3 m ρ c (Proc.devRef .tc main_arg0) := W4_of_ne m ρ c main_arg0 (by decide)
    _ = W2 m ρ c (Proc.devRef .tc main_arg0) := StableHlo.after_of_writes_sub hostOps1 (W2 m ρ c) hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 (W0 m ρ c) hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 (W4 m ρ c) hostOps2_writes (by decide)
    _ = W3 m ρ c (Proc.devRef .tc main_arg1) := W4_of_ne m ρ c main_arg1 (by decide)
    _ = W2 m ρ c (Proc.devRef .tc main_arg1) := StableHlo.after_of_writes_sub hostOps1 (W2 m ρ c) hostOps1_writes (by decide)
    _ = W1 m ρ c (Proc.devRef .tc main_arg1) := W2_of_ne m ρ c main_arg1 (by decide)
    _ = W0 m ρ c (Proc.devRef .tc main_arg1) := StableHlo.after_of_writes_sub hostOps0 (W0 m ρ c) hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 (W4 m ρ c) hostOps2_writes (by decide)
    _ = W3 m ρ c (Proc.devRef .tc main_arg2) := W4_of_ne m ρ c main_arg2 (by decide)
    _ = W2 m ρ c (Proc.devRef .tc main_arg2) := StableHlo.after_of_writes_sub hostOps1 (W2 m ρ c) hostOps1_writes (by decide)
    _ = W1 m ρ c (Proc.devRef .tc main_arg2) := W2_of_ne m ρ c main_arg2 (by decide)
    _ = W0 m ρ c (Proc.devRef .tc main_arg2) := StableHlo.after_of_writes_sub hostOps0 (W0 m ρ c) hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 (W4 m ρ c) hostOps2_writes (by decide)
    _ = W3 m ρ c (Proc.devRef .tc main_arg3) := (W4_arr m ρ c 1).trans (((dat1 (V3 m ρ) c).arrAt_in 1 rfl _).trans (A_eq1 (V3 m ρ) c 1))
    _ = W2 m ρ c (Proc.devRef .tc main_arg3) := StableHlo.after_of_writes_sub hostOps1 (W2 m ρ c) hostOps1_writes (by decide)
    _ = W1 m ρ c (Proc.devRef .tc main_arg3) := W2_of_ne m ρ c main_arg3 (by decide)
    _ = W0 m ρ c (Proc.devRef .tc main_arg3) := StableHlo.after_of_writes_sub hostOps0 (W0 m ρ c) hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 (W4 m ρ c) hostOps2_writes (by decide)
    _ = W3 m ρ c (Proc.devRef .tc main_arg4) := W4_of_ne m ρ c main_arg4 (by decide)
    _ = W2 m ρ c (Proc.devRef .tc main_arg4) := StableHlo.after_of_writes_sub hostOps1 (W2 m ρ c) hostOps1_writes (by decide)
    _ = W1 m ρ c (Proc.devRef .tc main_arg4) := W2_of_ne m ρ c main_arg4 (by decide)
    _ = W0 m ρ c (Proc.devRef .tc main_arg4) := StableHlo.after_of_writes_sub hostOps0 (W0 m ρ c) hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 (W4 m ρ c) hostOps2_writes (by decide)
    _ = W3 m ρ c (Proc.devRef .tc main_arg5) := W4_of_ne m ρ c main_arg5 (by decide)
    _ = W2 m ρ c (Proc.devRef .tc main_arg5) := StableHlo.after_of_writes_sub hostOps1 (W2 m ρ c) hostOps1_writes (by decide)
    _ = W1 m ρ c (Proc.devRef .tc main_arg5) := W2_of_ne m ρ c main_arg5 (by decide)
    _ = W0 m ρ c (Proc.devRef .tc main_arg5) := StableHlo.after_of_writes_sub hostOps0 (W0 m ρ c) hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 (W4 m ρ c) hostOps2_writes (by decide)
    _ = W3 m ρ c (Proc.devRef .tc main_arg6) := W4_of_ne m ρ c main_arg6 (by decide)
    _ = W2 m ρ c (Proc.devRef .tc main_arg6) := StableHlo.after_of_writes_sub hostOps1 (W2 m ρ c) hostOps1_writes (by decide)
    _ = W1 m ρ c (Proc.devRef .tc main_arg6) := W2_of_ne m ρ c main_arg6 (by decide)
    _ = W0 m ρ c (Proc.devRef .tc main_arg6) := StableHlo.after_of_writes_sub hostOps0 (W0 m ρ c) hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 (W4 m ρ c) hostOps2_writes (by decide)
    _ = W3 m ρ c (Proc.devRef .tc main_arg7) := W4_of_ne m ρ c main_arg7 (by decide)
    _ = W2 m ρ c (Proc.devRef .tc main_arg7) := StableHlo.after_of_writes_sub hostOps1 (W2 m ρ c) hostOps1_writes (by decide)
    _ = W1 m ρ c (Proc.devRef .tc main_arg7) := W2_of_ne m ρ c main_arg7 (by decide)
    _ = W0 m ρ c (Proc.devRef .tc main_arg7) := StableHlo.after_of_writes_sub hostOps0 (W0 m ρ c) hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 (W4 m ρ c) hostOps2_writes (by decide)
    _ = W3 m ρ c (Proc.devRef .tc main_arg8) := W4_of_ne m ρ c main_arg8 (by decide)
    _ = W2 m ρ c (Proc.devRef .tc main_arg8) := StableHlo.after_of_writes_sub hostOps1 (W2 m ρ c) hostOps1_writes (by decide)
    _ = W1 m ρ c (Proc.devRef .tc main_arg8) := W2_of_ne m ρ c main_arg8 (by decide)
    _ = W0 m ρ c (Proc.devRef .tc main_arg8) := StableHlo.after_of_writes_sub hostOps0 (W0 m ρ c) hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 (W4 m ρ c) hostOps2_writes (by decide)
    _ = W3 m ρ c (Proc.devRef .tc main_arg9) := W4_of_ne m ρ c main_arg9 (by decide)
    _ = W2 m ρ c (Proc.devRef .tc main_arg9) := StableHlo.after_of_writes_sub hostOps1 (W2 m ρ c) hostOps1_writes (by decide)
    _ = W1 m ρ c (Proc.devRef .tc main_arg9) := W2_of_ne m ρ c main_arg9 (by decide)
    _ = W0 m ρ c (Proc.devRef .tc main_arg9) := StableHlo.after_of_writes_sub hostOps0 (W0 m ρ c) hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 (W4 m ρ c) hostOps2_writes (by decide)
    _ = W3 m ρ c (Proc.devRef .tc main_arg10) := W4_of_ne m ρ c main_arg10 (by decide)
    _ = W2 m ρ c (Proc.devRef .tc main_arg10) := StableHlo.after_of_writes_sub hostOps1 (W2 m ρ c) hostOps1_writes (by decide)
    _ = W1 m ρ c (Proc.devRef .tc main_arg10) := W2_of_ne m ρ c main_arg10 (by decide)
    _ = W0 m ρ c (Proc.devRef .tc main_arg10) := StableHlo.after_of_writes_sub hostOps0 (W0 m ρ c) hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 (W4 m ρ c) hostOps2_writes (by decide)
    _ = W3 m ρ c (Proc.devRef .tc main_arg11) := W4_of_ne m ρ c main_arg11 (by decide)
    _ = W2 m ρ c (Proc.devRef .tc main_arg11) := StableHlo.after_of_writes_sub hostOps1 (W2 m ρ c) hostOps1_writes (by decide)
    _ = W1 m ρ c (Proc.devRef .tc main_arg11) := W2_of_ne m ρ c main_arg11 (by decide)
    _ = W0 m ρ c (Proc.devRef .tc main_arg11) := StableHlo.after_of_writes_sub hostOps0 (W0 m ρ c) hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 (W4 m ρ c) hostOps2_writes (by decide)
    _ = W3 m ρ c (Proc.devRef .tc main_arg12) := W4_of_ne m ρ c main_arg12 (by decide)
    _ = W2 m ρ c (Proc.devRef .tc main_arg12) := StableHlo.after_of_writes_sub hostOps1 (W2 m ρ c) hostOps1_writes (by decide)
    _ = W1 m ρ c (Proc.devRef .tc main_arg12) := W2_of_ne m ρ c main_arg12 (by decide)
    _ = W0 m ρ c (Proc.devRef .tc main_arg12) := StableHlo.after_of_writes_sub hostOps0 (W0 m ρ c) hostOps0_writes (by decide)
    _ = m ((c : Thread nD τ).loc main_arg12) := rfl
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_writes_sub hostOps2 (W4 m ρ c) hostOps2_writes (by decide)
    _ = W3 m ρ c (Proc.devRef .tc main_arg13) := W4_of_ne m ρ c main_arg13 (by decide)
    _ = W2 m ρ c (Proc.devRef .tc main_arg13) := StableHlo.after_of_writes_sub hostOps1 (W2 m ρ c) hostOps1_writes (by decide)
    _ = W1 m ρ c (Proc.devRef .tc main_arg13) := W2_of_ne m ρ c main_arg13 (by decide)
    _ = W0 m ρ c (Proc.devRef .tc main_arg13) := StableHlo.after_of_writes_sub hostOps0 (W0 m ρ c) hostOps0_writes (by decide)
    _ = m ((c : Thread nD τ).loc main_arg13) := rfl
theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_writes_sub hostOps2 (W4 m ρ c) hostOps2_writes (by decide)
    _ = W3 m ρ c (Proc.devRef .tc main_arg14) := W4_of_ne m ρ c main_arg14 (by decide)
    _ = W2 m ρ c (Proc.devRef .tc main_arg14) := StableHlo.after_of_writes_sub hostOps1 (W2 m ρ c) hostOps1_writes (by decide)
    _ = W1 m ρ c (Proc.devRef .tc main_arg14) := W2_of_ne m ρ c main_arg14 (by decide)
    _ = W0 m ρ c (Proc.devRef .tc main_arg14) := StableHlo.after_of_writes_sub hostOps0 (W0 m ρ c) hostOps0_writes (by decide)
    _ = m ((c : Thread nD τ).loc main_arg14) := rfl
theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_writes_sub hostOps2 (W4 m ρ c) hostOps2_writes (by decide)
    _ = W3 m ρ c (Proc.devRef .tc main_arg15) := W4_of_ne m ρ c main_arg15 (by decide)
    _ = W2 m ρ c (Proc.devRef .tc main_arg15) := StableHlo.after_of_writes_sub hostOps1 (W2 m ρ c) hostOps1_writes (by decide)
    _ = W1 m ρ c (Proc.devRef .tc main_arg15) := W2_of_ne m ρ c main_arg15 (by decide)
    _ = W0 m ρ c (Proc.devRef .tc main_arg15) := StableHlo.after_of_writes_sub hostOps0 (W0 m ρ c) hostOps0_writes (by decide)
    _ = m ((c : Thread nD τ).loc main_arg15) := rfl
theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_writes_sub hostOps2 (W4 m ρ c) hostOps2_writes (by decide)
    _ = W3 m ρ c (Proc.devRef .tc main_arg16) := (W4_arr m ρ c 11).trans (((dat1 (V3 m ρ) c).arrAt_in 11 rfl _).trans (A_eq1 (V3 m ρ) c 11))
    _ = W2 m ρ c (Proc.devRef .tc main_arg16) := StableHlo.after_of_writes_sub hostOps1 (W2 m ρ c) hostOps1_writes (by decide)
    _ = W1 m ρ c (Proc.devRef .tc main_arg16) := W2_of_ne m ρ c main_arg16 (by decide)
    _ = W0 m ρ c (Proc.devRef .tc main_arg16) := StableHlo.after_of_writes_sub hostOps0 (W0 m ρ c) hostOps0_writes (by decide)
    _ = m ((c : Thread nD τ).loc main_arg16) := rfl
theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := StableHlo.after_of_writes_sub hostOps2 (W4 m ρ c) hostOps2_writes (by decide)
    _ = W3 m ρ c (Proc.devRef .tc main_arg17) := W4_of_ne m ρ c main_arg17 (by decide)
    _ = W2 m ρ c (Proc.devRef .tc main_arg17) := StableHlo.after_of_writes_sub hostOps1 (W2 m ρ c) hostOps1_writes (by decide)
    _ = W1 m ρ c (Proc.devRef .tc main_arg17) := W2_of_ne m ρ c main_arg17 (by decide)
    _ = W0 m ρ c (Proc.devRef .tc main_arg17) := StableHlo.after_of_writes_sub hostOps0 (W0 m ρ c) hostOps0_writes (by decide)
    _ = m ((c : Thread nD τ).loc main_arg17) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents (a literal match on the pipeline's index). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W5`, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- applying a library lemma stated over the pinned configuration unifies with the printed one only when unification may
-- unfold plain definitions in a metavariable's type
set_option backward.isDefEq.respectTransparency.types false in
/-- Region 0 over the thread state: entered from every unscoped buffer at `W1`, left at `W2`. Its arrays are
    split out of the unscoped buffers on entry and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 over the thread state: entered from every unscoped buffer at `W3`, left at `W4`. Its arrays are
    split out of the unscoped buffers on entry and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: @main is the chain of its five items, the segments' run is the chain of their
    fragments, and the fragments are those items. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2 ] from rfl]
  rfl

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the last boundary's
    contents `W5`: the launch over the five segments, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- the last host stretch leaves the buffers beside (the register beside the dues); regroup
      show iprop(StableHlo.held (c : Thread nD τ) (Pipeline.ucRefs τ sig) (W5 m ρ c)
            ∗ (∃ r, prngReg c r) ∗ ∃ W, owes (c : Thread nD τ) (0 : CellTallies nD τ sig Unit) W)
          ⊢ iprop((StableHlo.held (c : Thread nD τ) (Pipeline.ucRefs τ sig) (W5 m ρ c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution of @main terminates, and every final state has each of the eighteen argument
    arrays as launched — `run_all`, each argument's buffer read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c)⟩)
    (run_all m ρ)

end Cert.Kernel.Hand

end
-- ==== Proof.KI.Region0.lean ====
/- Region 0 of @main: the projection kernel, a pipeline of three windows over a grid of five points. At each point the
   body reads one 20000×64 row block of the first operand (window 0), the whole 64×96 second operand (window 1: the same
   block at every point, so it is brought in once and stays) and stores their matrix product over the whole 20000×96 row
   block of the result (window 2). Everything here is stated at a parameter `V`, the TensorCore's buffer contents when
   the region is entered: each window's block at a point, what the body finds in the input buffers and what it leaves in
   the output buffer, the body's triple, the pipeline's proof data and the body obligation at every point. -/
import proofs.«109611_j74380243632619_2_alg».proof.Proof.Gen.KernelIdeal.Launch
import proofs.«109611_j74380243632619_2_alg».proof.Proof.Gen.KernelIdeal.Skeleton
import proofs.«109611_j74380243632619_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its row block at every point, for any proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the whole second operand at every point, fetched there or not: its block
    index is the same at every point, so past the first point nothing is fetched and the buffer still holds what the
    first point's fetch put there, which is this point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one a whole block -/

abbrev r0_0 : Rect S20000x64 := Rect.unit (s := S20000x64) ![0, 0] S20000x64.size inb_S20000x64_S20000x64_0_0
abbrev r0_1 : Rect S64x96 := Rect.unit (s := S64x96) ![0, 0] S64x96.size inb_S64x96_S64x96_0_0
abbrev r0_2 : Rect S20000x96 := Rect.unit (s := S20000x96) ![0, 0] S20000x96.size inb_S20000x96_S20000x96_0_0

/-! ## What the body leaves in the output window's buffer -/

/-- Window 2's staging buffer after the body, from the input windows' blocks: the product of the row block and the
    second operand, stored over the whole block. (The body also reads the block before storing it; that value is not
    used.) -/
def out0_2 (x0 : Vec F S20000x64 .f32) (x1 : Vec F S64x96 .f32) : Vec F S20000x96 .f32 :=
  View.canon [⟨r0_2, k0_pay1 (View.ld x0 r0_0) (View.ld x1 r0_1)⟩]

/-- The one store is the whole block, so it covers it. -/
theorem cover0_2 (p0 : Vec F S20000x96 .f32) (y : S20000x96.Idx) :
    ∃ pc ∈ ([⟨r0_2, p0⟩] : List (View.Piece (Elt F) S20000x96 .f32)), y ∈ pc.1.set :=
  View.cover_of_tiled [⟨r0_2, p0⟩] S20000x96.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (i : grid0.Coords) (arg1 : Memref sig .tc .vmem S20000x64 .f32) (harg1 : arg1.IsWhole) (arg2 : Memref sig .tc .vmem S64x96 .f32) (harg2 : arg2.IsWhole) (arg3 : Memref sig .tc .vmem S20000x96 .f32) (harg3 : arg3.IsWhole)
    (x0 : Vec F S20000x64 .f32) (x1 : Vec F S64x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant keeps the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- Region 1 of @main: the fused kernel, a pipeline of fourteen windows over a grid of ten points. At each point the body
   reads one 10000×96 row block of its first operand (window 0), the matching 10000×32 row block `h` of its second operand
   (window 1) and eleven small operands (windows 2 … 12, of 32×32, 1×32, 32×10 and 1×10 entries: each the same block at every
   point, so brought in once), and stores two column bands of the 10000×42 row block of the result (window 13): columns
   0 … 31 hold `u / (u·u + 1)` for `u = z·h + (1 − z)·tanh(…)` with `z` the logistic of an affine form of the two blocks, and columns 32 … 41 hold that
   value times the 32×10 operand plus the 1×10 operand on every row. Everything here is stated at a parameter `V`, the
   TensorCore's buffer contents when the region is entered: each window's block at a point, what the body finds in the
   input buffers and what it leaves in the output buffer, the body's triple, the pipeline's proof data and the body
   obligation at every point. -/
import proofs.«109611_j74380243632619_2_alg».proof.Proof.Gen.KernelIdeal.Launch
import proofs.«109611_j74380243632619_2_alg».proof.Proof.Gen.KernelIdeal.Skeleton
import proofs.«109611_j74380243632619_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for any proof data
    whose array is `V`'s (`hA`) and whose body leaves the block in place (`hafter`). Windows 0 and 1 move along the rows
    and are fetched at every point; windows 2 … 12 have the same block index at every point, so past the first point
    nothing is fetched and the buffer still holds the first point's block, which is this point's. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load a whole block, the two stores the two column bands of the output block -/

abbrev r1_0 : Rect S10000x32 := Rect.unit (s := S10000x32) ![0, 0] S10000x32.size inb_S10000x32_S10000x32_0_0
abbrev r1_1 : Rect S10000x96 := Rect.unit (s := S10000x96) ![0, 0] S10000x96.size inb_S10000x96_S10000x96_0_0
abbrev r1_2 : Rect S32x32 := Rect.unit (s := S32x32) ![0, 0] S32x32.size inb_S32x32_S32x32_0_0
abbrev r1_3 : Rect S1x32 := Rect.unit (s := S1x32) ![0, 0] S1x32.size inb_S1x32_S1x32_0_0
abbrev r1_4 : Rect S32x10 := Rect.unit (s := S32x10) ![0, 0] S32x10.size inb_S32x10_S32x10_0_0
abbrev r1_5 : Rect S1x10 := Rect.unit (s := S1x10) ![0, 0] S1x10.size inb_S1x10_S1x10_0_0
abbrev r1_6 : Rect S10000x42 := Rect.unit (s := S10000x42) ![0, 0] S10000x32.size inb_S10000x42_S10000x32_0_0
abbrev r1_7 : Rect S10000x42 := Rect.unit (s := S10000x42) ![0, 32] S10000x10.size inb_S10000x42_S10000x10_0_32

/-! ## What the body leaves in the output window's buffer -/

/-- Window 13's staging buffer after the body, from the input windows' blocks: its two stores as pieces, the last one
    first — columns 32 … 41, then columns 0 … 31. The three values the first part of the body hands on are `z`, the
    logistic of an affine form of the two blocks; the block `h` times a second such logistic; and the product of the
    first operand's columns 64 … 95 with a 32×32 operand. (The body also reads each band before storing it; those values
    are not used.) -/
def out1_13 (x0 : Vec F S10000x96 .f32) (x1 : Vec F S10000x32 .f32) (x2 : Vec F S32x32 .f32) (x3 : Vec F S32x32 .f32) (x4 : Vec F S1x32 .f32) (x5 : Vec F S32x32 .f32) (x6 : Vec F S32x32 .f32) (x7 : Vec F S1x32 .f32) (x8 : Vec F S32x32 .f32) (x9 : Vec F S32x32 .f32) (x10 : Vec F S1x32 .f32) (x11 : Vec F S32x10 .f32) (x12 : Vec F S1x10 .f32) : Vec F S10000x42 .f32 :=
  View.canon [⟨r1_7, k1_pay2 (View.ld x1 r1_0) (k1_pay4 (View.ld x1 r1_0) (View.ld x0 r1_1) (View.ld x2 r1_2) (View.ld x3 r1_2) (View.ld x4 r1_3)) (k1_pay5 (View.ld x1 r1_0) (View.ld x0 r1_1) (View.ld x5 r1_2) (View.ld x6 r1_2) (View.ld x7 r1_3)) (k1_pay6 (View.ld x0 r1_1) (View.ld x8 r1_2)) (View.ld x9 r1_2) (View.ld x10 r1_3) (View.ld x11 r1_4) (View.ld x12 r1_5)⟩,
    ⟨r1_6, k1_pay1 (View.ld x1 r1_0) (k1_pay4 (View.ld x1 r1_0) (View.ld x0 r1_1) (View.ld x2 r1_2) (View.ld x3 r1_2) (View.ld x4 r1_3)) (k1_pay5 (View.ld x1 r1_0) (View.ld x0 r1_1) (View.ld x5 r1_2) (View.ld x6 r1_2) (View.ld x7 r1_3)) (k1_pay6 (View.ld x0 r1_1) (View.ld x8 r1_2)) (View.ld x9 r1_2) (View.ld x10 r1_3)⟩]

/-- The two bands are 10 and 32 columns wide: cut into blocks of 10000×2 they are 5 and 16 blocks that tile the
    10000×42 block (checked by evaluation), so the two stores cover it. -/
theorem cover1_13 (p0 : Vec F S10000x10 .f32) (p1 : Vec F S10000x32 .f32) (y : S10000x42.Idx) :
    ∃ pc ∈ ([⟨r1_7, p0⟩, ⟨r1_6, p1⟩] : List (View.Piece (Elt F) S10000x42 .f32)), y ∈ pc.1.set :=
  View.cover_of_tiledBy [⟨r1_7, p0⟩, ⟨r1_6, p1⟩] ![10000, 2] (by sl_kernel_rfl) y

/-! ## The body's triple -/

set_option maxHeartbeats 4000000 in
/-- The kernel body on whole staging memrefs, the inputs' at read contents `x0` … `x12` and the output's at anything,
    runs to the continuation holding the inputs' as they were and the output's at `out1_13` of the inputs'. -/
theorem sound_kernel1 (c : Dev nD) (E : Set ℕ) (i : grid1.Coords) (arg1 : Memref sig .tc .vmem S10000x96 .f32) (harg1 : arg1.IsWhole) (arg2 : Memref sig .tc .vmem S10000x32 .f32) (harg2 : arg2.IsWhole) (arg3 : Memref sig .tc .vmem S32x32 .f32) (harg3 : arg3.IsWhole) (arg4 : Memref sig .tc .vmem S32x32 .f32) (harg4 : arg4.IsWhole) (arg5 : Memref sig .tc .vmem S1x32 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S1x32 .f32) (harg8 : arg8.IsWhole) (arg9 : Memref sig .tc .vmem S32x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S32x10 .f32) (harg12 : arg12.IsWhole) (arg13 : Memref sig .tc .vmem S1x10 .f32) (harg13 : arg13.IsWhole) (arg14 : Memref sig .tc .vmem S10000x42 .f32) (harg14 : arg14.IsWhole)
    (x0 : Vec F S10000x96 .f32) (x1 : Vec F S10000x32 .f32) (x2 : Vec F S32x32 .f32) (x3 : Vec F S32x32 .f32) (x4 : Vec F S1x32 .f32) (x5 : Vec F S32x32 .f32) (x6 : Vec F S32x32 .f32) (x7 : Vec F S1x32 .f32) (x8 : Vec F S32x32 .f32) (x9 : Vec F S32x32 .f32) (x10 : Vec F S1x32 .f32) (x11 : Vec F S32x10 .f32) (x12 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 x0 x1 x2 x3 x4 x5 x6 x7 x8 x9 x10 x11 x12)) -∗ K ⟨⟩))
      ⊢ wp frame (wpE (defs₀ (F := F)) Variants.none c none) E (cc1__fuse_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__fuse_kernel_eq_skeleton]; unfold cc1__fuse_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  try dsimp only
  exact View.read_writes_eq_canon _ _ _ (cover1_13 _ _)

/-! ## The pipeline's proof data -/

/-- The proof data of pipeline 1 on core `c`: the arrays as the region finds them (`V`); after the body at point `t`
    each input's buffer at its block and the output's at `out1_13` of the input blocks; the invariant keeps the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/- The run of @main: three stretches of host operations around the two kernel regions. The TensorCore's buffer contents at
   each of the six boundaries are a fold from the launch memory: `W0` the launch contents; `W1` after the first host
   stretch; `W2` after region 0, whose arrays are at what its pipeline leaves and every other buffer as entered; `W3`
   after the second host stretch; `W4` after region 1 likewise; `W5` after the last host stretch. Each region is a segment
   record over the thread state "every unscoped buffer at the boundary's contents, the generator register at some state,
   nothing owed", each host stretch a segment over the same state, and @main is the run of the five segments. So every
   weakly fair execution of @main terminates with every unscoped buffer at `W5` (`run_all`); and since no host operation
   writes an argument and a region only reads one through an input window, each argument's buffer walks back through
   the fold to its launch contents (`frame`). -/
import proofs.«109611_j74380243632619_2_alg».proof.Proof.KI.Region0
import proofs.«109611_j74380243632619_2_alg».proof.Proof.KI.Region1
import proofs.«109611_j74380243632619_2_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs folded
    over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs folded
    over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the contents @main returns with. -/
abbrev W5 : Dev nD → Valuation τ sig (Elt F) := fun c => StableHlo.after hostOps2 (W4 m ρ c)

/-! ### The arguments end as launched: no host operation writes one, and a region reads one only through an input
    window (whose array is never written back) or not at all, so the fold at an argument's buffer walks back to the
    launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 (W4 m ρ c) hostOps2_writes (by decide)
    _ = W3 m ρ c (Proc.devRef .tc main_arg0) := W4_of_ne m ρ c main_arg0 (by decide)
    _ = W2 m ρ c (Proc.devRef .tc main_arg0) := StableHlo.after_of_writes_sub hostOps1 (W2 m ρ c) hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 (W0 m ρ c) hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 (W4 m ρ c) hostOps2_writes (by decide)
    _ = W3 m ρ c (Proc.devRef .tc main_arg1) := W4_of_ne m ρ c main_arg1 (by decide)
    _ = W2 m ρ c (Proc.devRef .tc main_arg1) := StableHlo.after_of_writes_sub hostOps1 (W2 m ρ c) hostOps1_writes (by decide)
    _ = W1 m ρ c (Proc.devRef .tc main_arg1) := W2_of_ne m ρ c main_arg1 (by decide)
    _ = W0 m ρ c (Proc.devRef .tc main_arg1) := StableHlo.after_of_writes_sub hostOps0 (W0 m ρ c) hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 (W4 m ρ c) hostOps2_writes (by decide)
    _ = W3 m ρ c (Proc.devRef .tc main_arg2) := W4_of_ne m ρ c main_arg2 (by decide)
    _ = W2 m ρ c (Proc.devRef .tc main_arg2) := StableHlo.after_of_writes_sub hostOps1 (W2 m ρ c) hostOps1_writes (by decide)
    _ = W1 m ρ c (Proc.devRef .tc main_arg2) := W2_of_ne m ρ c main_arg2 (by decide)
    _ = W0 m ρ c (Proc.devRef .tc main_arg2) := StableHlo.after_of_writes_sub hostOps0 (W0 m ρ c) hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 (W4 m ρ c) hostOps2_writes (by decide)
    _ = W3 m ρ c (Proc.devRef .tc main_arg3) := (W4_arr m ρ c 1).trans (((dat1 (V3 m ρ) c).arrAt_in 1 rfl _).trans (A_eq1 (V3 m ρ) c 1))
    _ = W2 m ρ c (Proc.devRef .tc main_arg3) := StableHlo.after_of_writes_sub hostOps1 (W2 m ρ c) hostOps1_writes (by decide)
    _ = W1 m ρ c (Proc.devRef .tc main_arg3) := W2_of_ne m ρ c main_arg3 (by decide)
    _ = W0 m ρ c (Proc.devRef .tc main_arg3) := StableHlo.after_of_writes_sub hostOps0 (W0 m ρ c) hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 (W4 m ρ c) hostOps2_writes (by decide)
    _ = W3 m ρ c (Proc.devRef .tc main_arg4) := W4_of_ne m ρ c main_arg4 (by decide)
    _ = W2 m ρ c (Proc.devRef .tc main_arg4) := StableHlo.after_of_writes_sub hostOps1 (W2 m ρ c) hostOps1_writes (by decide)
    _ = W1 m ρ c (Proc.devRef .tc main_arg4) := W2_of_ne m ρ c main_arg4 (by decide)
    _ = W0 m ρ c (Proc.devRef .tc main_arg4) := StableHlo.after_of_writes_sub hostOps0 (W0 m ρ c) hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 (W4 m ρ c) hostOps2_writes (by decide)
    _ = W3 m ρ c (Proc.devRef .tc main_arg5) := W4_of_ne m ρ c main_arg5 (by decide)
    _ = W2 m ρ c (Proc.devRef .tc main_arg5) := StableHlo.after_of_writes_sub hostOps1 (W2 m ρ c) hostOps1_writes (by decide)
    _ = W1 m ρ c (Proc.devRef .tc main_arg5) := W2_of_ne m ρ c main_arg5 (by decide)
    _ = W0 m ρ c (Proc.devRef .tc main_arg5) := StableHlo.after_of_writes_sub hostOps0 (W0 m ρ c) hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 (W4 m ρ c) hostOps2_writes (by decide)
    _ = W3 m ρ c (Proc.devRef .tc main_arg6) := W4_of_ne m ρ c main_arg6 (by decide)
    _ = W2 m ρ c (Proc.devRef .tc main_arg6) := StableHlo.after_of_writes_sub hostOps1 (W2 m ρ c) hostOps1_writes (by decide)
    _ = W1 m ρ c (Proc.devRef .tc main_arg6) := W2_of_ne m ρ c main_arg6 (by decide)
    _ = W0 m ρ c (Proc.devRef .tc main_arg6) := StableHlo.after_of_writes_sub hostOps0 (W0 m ρ c) hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 (W4 m ρ c) hostOps2_writes (by decide)
    _ = W3 m ρ c (Proc.devRef .tc main_arg7) := W4_of_ne m ρ c main_arg7 (by decide)
    _ = W2 m ρ c (Proc.devRef .tc main_arg7) := StableHlo.after_of_writes_sub hostOps1 (W2 m ρ c) hostOps1_writes (by decide)
    _ = W1 m ρ c (Proc.devRef .tc main_arg7) := W2_of_ne m ρ c main_arg7 (by decide)
    _ = W0 m ρ c (Proc.devRef .tc main_arg7) := StableHlo.after_of_writes_sub hostOps0 (W0 m ρ c) hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 (W4 m ρ c) hostOps2_writes (by decide)
    _ = W3 m ρ c (Proc.devRef .tc main_arg8) := W4_of_ne m ρ c main_arg8 (by decide)
    _ = W2 m ρ c (Proc.devRef .tc main_arg8) := StableHlo.after_of_writes_sub hostOps1 (W2 m ρ c) hostOps1_writes (by decide)
    _ = W1 m ρ c (Proc.devRef .tc main_arg8) := W2_of_ne m ρ c main_arg8 (by decide)
    _ = W0 m ρ c (Proc.devRef .tc main_arg8) := StableHlo.after_of_writes_sub hostOps0 (W0 m ρ c) hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 (W4 m ρ c) hostOps2_writes (by decide)
    _ = W3 m ρ c (Proc.devRef .tc main_arg9) := W4_of_ne m ρ c main_arg9 (by decide)
    _ = W2 m ρ c (Proc.devRef .tc main_arg9) := StableHlo.after_of_writes_sub hostOps1 (W2 m ρ c) hostOps1_writes (by decide)
    _ = W1 m ρ c (Proc.devRef .tc main_arg9) := W2_of_ne m ρ c main_arg9 (by decide)
    _ = W0 m ρ c (Proc.devRef .tc main_arg9) := StableHlo.after_of_writes_sub hostOps0 (W0 m ρ c) hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 (W4 m ρ c) hostOps2_writes (by decide)
    _ = W3 m ρ c (Proc.devRef .tc main_arg10) := W4_of_ne m ρ c main_arg10 (by decide)
    _ = W2 m ρ c (Proc.devRef .tc main_arg10) := StableHlo.after_of_writes_sub hostOps1 (W2 m ρ c) hostOps1_writes (by decide)
    _ = W1 m ρ c (Proc.devRef .tc main_arg10) := W2_of_ne m ρ c main_arg10 (by decide)
    _ = W0 m ρ c (Proc.devRef .tc main_arg10) := StableHlo.after_of_writes_sub hostOps0 (W0 m ρ c) hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 (W4 m ρ c) hostOps2_writes (by decide)
    _ = W3 m ρ c (Proc.devRef .tc main_arg11) := W4_of_ne m ρ c main_arg11 (by decide)
    _ = W2 m ρ c (Proc.devRef .tc main_arg11) := StableHlo.after_of_writes_sub hostOps1 (W2 m ρ c) hostOps1_writes (by decide)
    _ = W1 m ρ c (Proc.devRef .tc main_arg11) := W2_of_ne m ρ c main_arg11 (by decide)
    _ = W0 m ρ c (Proc.devRef .tc main_arg11) := StableHlo.after_of_writes_sub hostOps0 (W0 m ρ c) hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 (W4 m ρ c) hostOps2_writes (by decide)
    _ = W3 m ρ c (Proc.devRef .tc main_arg12) := W4_of_ne m ρ c main_arg12 (by decide)
    _ = W2 m ρ c (Proc.devRef .tc main_arg12) := StableHlo.after_of_writes_sub hostOps1 (W2 m ρ c) hostOps1_writes (by decide)
    _ = W1 m ρ c (Proc.devRef .tc main_arg12) := W2_of_ne m ρ c main_arg12 (by decide)
    _ = W0 m ρ c (Proc.devRef .tc main_arg12) := StableHlo.after_of_writes_sub hostOps0 (W0 m ρ c) hostOps0_writes (by decide)
    _ = m ((c : Thread nD τ).loc main_arg12) := rfl
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_writes_sub hostOps2 (W4 m ρ c) hostOps2_writes (by decide)
    _ = W3 m ρ c (Proc.devRef .tc main_arg13) := W4_of_ne m ρ c main_arg13 (by decide)
    _ = W2 m ρ c (Proc.devRef .tc main_arg13) := StableHlo.after_of_writes_sub hostOps1 (W2 m ρ c) hostOps1_writes (by decide)
    _ = W1 m ρ c (Proc.devRef .tc main_arg13) := W2_of_ne m ρ c main_arg13 (by decide)
    _ = W0 m ρ c (Proc.devRef .tc main_arg13) := StableHlo.after_of_writes_sub hostOps0 (W0 m ρ c) hostOps0_writes (by decide)
    _ = m ((c : Thread nD τ).loc main_arg13) := rfl
theorem W5_main_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_writes_sub hostOps2 (W4 m ρ c) hostOps2_writes (by decide)
    _ = W3 m ρ c (Proc.devRef .tc main_arg14) := W4_of_ne m ρ c main_arg14 (by decide)
    _ = W2 m ρ c (Proc.devRef .tc main_arg14) := StableHlo.after_of_writes_sub hostOps1 (W2 m ρ c) hostOps1_writes (by decide)
    _ = W1 m ρ c (Proc.devRef .tc main_arg14) := W2_of_ne m ρ c main_arg14 (by decide)
    _ = W0 m ρ c (Proc.devRef .tc main_arg14) := StableHlo.after_of_writes_sub hostOps0 (W0 m ρ c) hostOps0_writes (by decide)
    _ = m ((c : Thread nD τ).loc main_arg14) := rfl
theorem W5_main_arg15 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_writes_sub hostOps2 (W4 m ρ c) hostOps2_writes (by decide)
    _ = W3 m ρ c (Proc.devRef .tc main_arg15) := W4_of_ne m ρ c main_arg15 (by decide)
    _ = W2 m ρ c (Proc.devRef .tc main_arg15) := StableHlo.after_of_writes_sub hostOps1 (W2 m ρ c) hostOps1_writes (by decide)
    _ = W1 m ρ c (Proc.devRef .tc main_arg15) := W2_of_ne m ρ c main_arg15 (by decide)
    _ = W0 m ρ c (Proc.devRef .tc main_arg15) := StableHlo.after_of_writes_sub hostOps0 (W0 m ρ c) hostOps0_writes (by decide)
    _ = m ((c : Thread nD τ).loc main_arg15) := rfl
theorem W5_main_arg16 (c : Dev nD) : W5 m ρ c (Proc.devRef .tc main_arg16) = m ((c : Thread nD τ).loc main_arg16) :=
  calc W5 m ρ c (Proc.devRef .tc main_arg16)
    _ = W4 m ρ c (Proc.devRef .tc main_arg16) := StableHlo.after_of_writes_sub hostOps2 (W4 m ρ c) hostOps2_writes (by decide)
    _ = W3 m ρ c (Proc.devRef .tc main_arg16) := (W4_arr m ρ c 11).trans (((dat1 (V3 m ρ) c).arrAt_in 11 rfl _).trans (A_eq1 (V3 m ρ) c 11))
    _ = W2 m ρ c (Proc.devRef .tc main_arg16) := StableHlo.after_of_writes_sub hostOps1 (W2 m ρ c) hostOps1_writes (by decide)
    _ = W1 m ρ c (Proc.devRef .tc main_arg16) := W2_of_ne m ρ c main_arg16 (by decide)
    _ = W0 m ρ c (Proc.devRef .tc main_arg16) := StableHlo.after_of_writes_sub hostOps0 (W0 m ρ c) hostOps0_writes (by decide)
    _ = m ((c : Thread nD τ).loc main_arg16) := rfl
theorem W5_main_arg17 (c : Dev nD) : W5 m ρ c (Proc.devRef .tc main_arg17) = m ((c : Thread nD τ).loc main_arg17) :=
  calc W5 m ρ c (Proc.devRef .tc main_arg17)
    _ = W4 m ρ c (Proc.devRef .tc main_arg17) := StableHlo.after_of_writes_sub hostOps2 (W4 m ρ c) hostOps2_writes (by decide)
    _ = W3 m ρ c (Proc.devRef .tc main_arg17) := W4_of_ne m ρ c main_arg17 (by decide)
    _ = W2 m ρ c (Proc.devRef .tc main_arg17) := StableHlo.after_of_writes_sub hostOps1 (W2 m ρ c) hostOps1_writes (by decide)
    _ = W1 m ρ c (Proc.devRef .tc main_arg17) := W2_of_ne m ρ c main_arg17 (by decide)
    _ = W0 m ρ c (Proc.devRef .tc main_arg17) := StableHlo.after_of_writes_sub hostOps0 (W0 m ρ c) hostOps0_writes (by decide)
    _ = m ((c : Thread nD τ).loc main_arg17) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents (a literal match on the pipeline's index). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W5`, the generator
    register at some state. -/
abbrev Tₙ (c : Dev nD) : sProp 𝕄 := iprop(StableHlo.held (c : Thread nD τ) (Pipeline.ucRefs τ sig) (W5 m ρ c) ∗ ∃ r, prngReg c r)

/-! ## The regions as segments -/

-- applying a library lemma stated over the pinned configuration unifies with the printed one only when unification may
-- unfold plain definitions in a metavariable's type
set_option backward.isDefEq.respectTransparency.types false in
/-- Region 0 over the thread state: entered from every unscoped buffer at `W1`, left at `W2`. Its arrays are
    split out of the unscoped buffers on entry and put back at the exit contents; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 over the thread state: entered from every unscoped buffer at `W3`, left at `W4`. Its arrays are
    split out of the unscoped buffers on entry and put back at the exit contents; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: @main is the chain of its five items, the segments' run is the chain of their
    fragments, and the fragments are those items. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2 ] from rfl]
  rfl

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the last boundary's
    contents `W5`: the launch over the five segments, the last thread state read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- the last host stretch leaves the buffers beside (the register beside the dues); regroup
      show iprop(StableHlo.held (c : Thread nD τ) (Pipeline.ucRefs τ sig) (W5 m ρ c)
            ∗ (∃ r, prngReg c r) ∗ ∃ W, owes (c : Thread nD τ) (0 : CellTallies nD τ sig Unit) W)
          ⊢ iprop((StableHlo.held (c : Thread nD τ) (Pipeline.ucRefs τ sig) (W5 m ρ c) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution of @main terminates, and every final state has each of the eighteen argument
    arrays as launched — `run_all`, each argument's buffer read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c)⟩)
    (run_all m ρ)

end Cert.KernelIdeal.Hand

end
-- ==== Proof.KV.Concat.lean ====
/-
  The program lays the three gates' convolution weights side by side, `[64, 96] = [Wz | Wr | Wh]`, and their biases
  end to end, `[96] = [bz, br, bh]`, so that one matrix product and one aggregation serve all three gates.  Column
  `32·g + j` of the joined weights is column `j` of gate `g`'s, and likewise for the biases.
-/
import proofs.«109611_j74380243632619_2_alg».proof.Proof.Gen.KernelIdeal
import Idealize.ShloMosaic.Lib.Pipeline.Value
import Idealize.ShloMosaic.Lib.ValueIdx

noncomputable section

namespace Cert.KernelIdeal.KValue

open Idealize.ShloMosaic Idealize.ShloMosaic.ValueIdx Cert.KernelIdeal Cert.KernelIdeal.Facts₀

variable {α : Type}

/-- The three weight matrices side by side. -/
def joinW (Wz Wr Wh : S64x32.Idx → α) : S64x96.Idx → α :=
  concatenate S64x96 1 [⟨S64x32, Wz⟩, ⟨S64x32, Wr⟩, ⟨S64x32, Wh⟩] concatenates_S64x32_S64x32_S64x32_S64x96_d1

/-- The three bias vectors end to end. -/
def joinB (bz br bh : S32.Idx → α) : S96.Idx → α :=
  concatenate S96 0 [⟨S32, bz⟩, ⟨S32, br⟩, ⟨S32, bh⟩] concatenates_S32_S32_S32_S96_d0

variable (Wz Wr Wh : S64x32.Idx → α) (bz br bh : S32.Idx → α)

theorem joinW_z (k : Fin 64) (j : Fin 32) : joinW Wz Wr Wh (ix2 k ⟨j.val, by omega⟩) = Wz (ix2 k j) := by
  unfold joinW
  refine concatenate_apply_piece 1 [⟨S64x32, Wz⟩, ⟨S64x32, Wr⟩, ⟨S64x32, Wh⟩] concatenates_S64x32_S64x32_S64x32_S64x96_d1 _ 0 (by simp) S64x32 Wz rfl rfl 0 rfl (ix2 k j) ?_ ?_
  · intro b hb
    match b, hb with
    | ⟨0, _⟩, _ => rfl
    | ⟨1, _⟩, hb => exact absurd rfl hb
  · show 0 + j.val = j.val
    omega

theorem joinW_r (k : Fin 64) (j : Fin 32) : joinW Wz Wr Wh (ix2 k ⟨32 + j.val, by omega⟩) = Wr (ix2 k j) := by
  unfold joinW
  refine concatenate_apply_piece 1 [⟨S64x32, Wz⟩, ⟨S64x32, Wr⟩, ⟨S64x32, Wh⟩] concatenates_S64x32_S64x32_S64x32_S64x96_d1 _ 1 (by simp) S64x32 Wr rfl rfl 32 rfl (ix2 k j) ?_ ?_
  · intro b hb
    match b, hb with
    | ⟨0, _⟩, _ => rfl
    | ⟨1, _⟩, hb => exact absurd rfl hb
  · rfl

theorem joinW_h (k : Fin 64) (j : Fin 32) : joinW Wz Wr Wh (ix2 k ⟨64 + j.val, by omega⟩) = Wh (ix2 k j) := by
  unfold joinW
  refine concatenate_apply_piece 1 [⟨S64x32, Wz⟩, ⟨S64x32, Wr⟩, ⟨S64x32, Wh⟩] concatenates_S64x32_S64x32_S64x32_S64x96_d1 _ 2 (by simp) S64x32 Wh rfl rfl 64 rfl (ix2 k j) ?_ ?_
  · intro b hb
    match b, hb with
    | ⟨0, _⟩, _ => rfl
    | ⟨1, _⟩, hb => exact absurd rfl hb
  · rfl

theorem joinB_z (j : Fin 32) : joinB bz br bh (ix1 ⟨j.val, by omega⟩) = bz (ix1 j) := by
  unfold joinB
  refine concatenate_apply_piece 0 [⟨S32, bz⟩, ⟨S32, br⟩, ⟨S32, bh⟩] concatenates_S32_S32_S32_S96_d0 _ 0 (by simp) S32 bz rfl rfl 0 rfl (ix1 j) ?_ ?_
  · intro b hb
    match b, hb with
    | ⟨0, _⟩, hb => exact absurd rfl hb
  · show 0 + j.val = j.val
    omega

theorem joinB_r (j : Fin 32) : joinB bz br bh (ix1 ⟨32 + j.val, by omega⟩) = br (ix1 j) := by
  unfold joinB
  refine concatenate_apply_piece 0 [⟨S32, bz⟩, ⟨S32, br⟩, ⟨S32, bh⟩] concatenates_S32_S32_S32_S96_d0 _ 1 (by simp) S32 br rfl rfl 32 rfl (ix1 j) ?_ ?_
  · intro b hb
    match b, hb with
    | ⟨0, _⟩, hb => exact absurd rfl hb
  · rfl

theorem joinB_h (j : Fin 32) : joinB bz br bh (ix1 ⟨64 + j.val, by omega⟩) = bh (ix1 j) := by
  unfold joinB
  refine concatenate_apply_piece 0 [⟨S32, bz⟩, ⟨S32, br⟩, ⟨S32, bh⟩] concatenates_S32_S32_S32_S96_d0 _ 2 (by simp) S32 bh rfl rfl 64 rfl (ix1 j) ?_ ?_
  · intro b hb
    match b, hb with
    | ⟨0, _⟩, hb => exact absurd rfl hb
  · rfl

end Cert.KernelIdeal.KValue

end
-- ==== Proof.Spec.lean ====
/-
  The mathematics both programs compute: one step of a gated graph-convolutional recurrent cell
  (three graph convolutions feeding the update gate, the reset gate and the candidate state), the
  Cauchy activation `u / (u² + 1)` of the new state, and a linear read-out.

  Everything is written over the extended reals, index by index, with arrays as functions of their
  coordinates.  What the graph contributes is the same on both sides and is carried as data
  (`Graph`): per edge its normalised weight, the node whose row it gathers and the node it is added
  into (read as a signed integer, so that an out-of-range target contributes nowhere), and per node
  the weight of its self loop.
-/
import Idealize.ShloMosaic.PureOps.Ideal
import Mathlib.Algebra.BigOperators.Fin

noncomputable section

open scoped BigOperators

namespace Cert.Tgcn

open Idealize.ShloMosaic

/-- The single-precision word of `1.0`, kept as a word: both programs write the same word wherever the
    number one appears next to a gate, so it is never evaluated there. -/
abbrev one : EReal := Ideal.ofBits .f32 0x3F800000#32

/-- What the graph contributes. -/
structure Graph where
  /-- the normalised weight `d(row)^(-1/2) · w · d(col)^(-1/2)` of an edge -/
  norm : Fin 1600000 → EReal
  /-- the self-loop weight `d(n)^(-1/2) · d(n)^(-1/2)` of a node -/
  self : Fin 100000 → EReal
  /-- the node whose projected row an edge gathers -/
  src : Fin 1600000 → Fin 100000
  /-- the node an edge's message is added into, as a signed integer -/
  dst : Fin 1600000 → ℤ

/-- The arrays of the cell, as functions of their coordinates. -/
structure Params where
  x : Fin 100000 → Fin 64 → EReal
  h : Fin 100000 → Fin 32 → EReal
  Wz : Fin 64 → Fin 32 → EReal
  bz : Fin 32 → EReal
  Wr : Fin 64 → Fin 32 → EReal
  br : Fin 32 → EReal
  Wh : Fin 64 → Fin 32 → EReal
  bh : Fin 32 → EReal
  LzW : Fin 64 → Fin 32 → EReal
  Lzb : Fin 32 → EReal
  LrW : Fin 64 → Fin 32 → EReal
  Lrb : Fin 32 → EReal
  LhW : Fin 64 → Fin 32 → EReal
  Lhb : Fin 32 → EReal
  linW : Fin 32 → Fin 10 → EReal
  linb : Fin 10 → EReal

/-- The first half `k ↦ k` and the second half `k ↦ 32 + k` of the 64 rows of a gate's weight matrix. -/
abbrev lo (k : Fin 32) : Fin 64 := ⟨k.val, by omega⟩
abbrev hi (k : Fin 32) : Fin 64 := ⟨32 + k.val, by omega⟩

variable (G : Graph)

/-- The feature projection `x · W` at node `n`, channel `j`. -/
def proj (x : Fin 100000 → Fin 64 → EReal) (W : Fin 64 → Fin 32 → EReal) (n : Fin 100000) (j : Fin 32) : EReal :=
  ∑ k : Fin 64, x n k * W k j

/-- One graph convolution of projected features `xw`: the messages of the edges arriving at `n`, each
    the gathered row scaled by the edge's weight, then the self loop, then the bias. -/
def conv (xw : Fin 100000 → Fin 32 → EReal) (b : Fin 32 → EReal) (n : Fin 100000) (j : Fin 32) : EReal :=
  ((∑ e ∈ Finset.univ.filter (fun e : Fin 1600000 => G.dst e = (n.val : ℤ)), xw (G.src e) j * G.norm e)
    + G.self n * xw n j) + b j

/-- A gate's affine map on the concatenation `[c, u]`: the first 32 rows of its weight matrix meet `c`, the
    last 32 meet `u`. -/
def lin (c u : Fin 100000 → Fin 32 → EReal) (LW : Fin 64 → Fin 32 → EReal) (Lb : Fin 32 → EReal)
    (n : Fin 100000) (j : Fin 32) : EReal :=
  ((∑ k : Fin 32, c n k * LW (lo k) j) + (∑ k : Fin 32, u n k * LW (hi k) j)) + Lb j

variable (P : Params)

/-- The update gate. -/
def Z (n : Fin 100000) (j : Fin 32) : EReal :=
  Ideal.logistic (lin (conv G (proj P.x P.Wz) P.bz) P.h P.LzW P.Lzb n j)

/-- The reset gate. -/
def R (n : Fin 100000) (j : Fin 32) : EReal :=
  Ideal.logistic (lin (conv G (proj P.x P.Wr) P.br) P.h P.LrW P.Lrb n j)

/-- The candidate state. -/
def Ht (n : Fin 100000) (j : Fin 32) : EReal :=
  Ideal.tanh (lin (conv G (proj P.x P.Wh) P.bh) (fun n k => P.h n k * R G P n k) P.LhW P.Lhb n j)

/-- The new state `Z · h + (1 − Z) · H̃`. -/
def hnew (n : Fin 100000) (j : Fin 32) : EReal :=
  Z G P n j * P.h n j + (one - Z G P n j) * Ht G P n j

/-- Its Cauchy activation `u / (u · u + 1)`: the second result. -/
def hact (n : Fin 100000) (j : Fin 32) : EReal :=
  Ideal.div (hnew G P n j) (hnew G P n j * hnew G P n j + one)

/-- The read-out `hact · lin_W + lin_b`: the first result. -/
def yhat (n : Fin 100000) (c : Fin 10) : EReal :=
  (∑ k : Fin 32, hact G P n k * P.linW k c) + P.linb c

end Cert.Tgcn

end
-- ==== Proof.Graph.lean ====
/-
  What the graph contributes, as the programs compute it from the edge list `ei : [2, E]` (row 0 the
  source nodes, row 1 the target nodes) and the edge weights `ew : [E]`:

    deg(n)  = (the sum of the weights of the edges arriving at n) + 1      (the self loop has weight 1)
    dis(n)  = deg(n)^(-1/2)
    norm(e) = dis(row e) · ew(e) · dis(col e)

  with `row e` and `col e` read the way an array index is read (a negative word counts from the end,
  and a gather clamps it into range), while the segment sums read the target word as a signed integer.
  The operations are spelt once here; both programs spell them the same way.
-/
import proofs.«109611_j74380243632619_2_alg».proof.Proof.Gen.KernelIdeal
import proofs.«109611_j74380243632619_2_alg».proof.Proof.Spec
import Idealize.ShloMosaic.PureOps.Ideal
import Idealize.ShloMosaic.Lib.ValueIdx

noncomputable section

namespace Cert.Tgcn

open Idealize.ShloMosaic Idealize.ShloMosaic.ValueIdx Cert.KernelIdeal Cert.KernelIdeal.Facts₀

/-- The edge list and the edge weights, as the arrays they are. -/
abbrev EdgeList : Type := IVec S2x1600000 32
abbrev EdgeWeights : Type := FVec Ideal S1600000 .f32
abbrev EdgeWords : Type := IVec S1600000 32
abbrev EdgeColumn : Type := IVec S1600000x1 32
abbrev NodeVec : Type := FVec Ideal S100000 .f32

/-- Row 0 of the edge list: the source node of each edge, as words. -/
def rowW (ei : EdgeList) : EdgeWords :=
  shapeCast _ (extractStridedSlice S1x1600000 ![0, 0] ei slices_S2x1600000_S1x1600000_0_0) shapeCasts_S1x1600000_S1600000

/-- Row 1 of the edge list: the target node of each edge, as words. -/
def colW (ei : EdgeList) : EdgeWords :=
  shapeCast _ (extractStridedSlice S1x1600000 ![1, 0] ei slices_S2x1600000_S1x1600000_1_0) shapeCasts_S1x1600000_S1600000

/-- Index words as a column `[E, 1]`. -/
def column (v : EdgeWords) : EdgeColumn :=
  broadcastInDim S1600000x1 ![0] bcast_S1600000_S1600000x1_0 v

/-- Index words read the way an array index is read: a negative word counts from the end. -/
def wrap (v : EdgeWords) : EdgeColumn :=
  column (select (cmpi .slt v (broadcastInDim S1600000 ![] bcast_S_S1600000 (constantI S_ 32 0#32)))
    (addi v (broadcastInDim S1600000 ![] bcast_S_S1600000 (constantI S_ 32 100000#32))) v)

/-- `deg^(-1/2)`, the degree being the segment sum of the weights over the target nodes plus the self loop's 1. -/
def dis (ei : EdgeList) (ew : EdgeWeights) : NodeVec :=
  Host.rsqrt (F := Ideal) (addf (Host.scatterAdd (F := Ideal) scatter_S100000_S1600000x1_S1600000_n_0_0_1
      (broadcastInDim S100000 ![] bcast_S_S100000 (constant (F := Ideal) S_ .f32 0x00000000#32)) (column (colW ei)) ew)
    (broadcastInDim S100000 ![] bcast_S_S100000 (constant (F := Ideal) S_ .f32 0x3F800000#32)))

/-- The normalised weight of each edge, `dis(row) · ew · dis(col)`. -/
def normV (ei : EdgeList) (ew : EdgeWeights) : EdgeWeights :=
  mulf (mulf (Host.gather gather_S100000_S1600000x1_S1600000_n_0_n_n_0_1_1 (dis ei ew) (wrap (rowW ei))) ew)
    (Host.gather gather_S100000_S1600000x1_S1600000_n_0_n_n_0_1_1 (dis ei ew) (wrap (colW ei)))

/-- The graph's data, read off those arrays: the gathered row is the wrapped source word read signed and
    clamped into range; the target of a message is the target word read signed. -/
def graphOf (ei : EdgeList) (ew : EdgeWeights) : Graph where
  norm e := normV ei ew (ix1 e)
  self n := dis ei ew (ix1 n) * dis ei ew (ix1 n)
  src e := ⟨min (wrap (rowW ei) (ix2 e 0)).toInt.toNat (100000 - 1), by omega⟩
  dst e := (column (colW ei) (ix2 e 0)).toInt

end Cert.Tgcn

end
-- ==== Proof.KV.Plumb.lean ====
/- How the buffers the two kernels read and write sit in the run of @main, at the ideal reading of the floats: the contents
   of each such buffer at a boundary of the fold `W0 … W5`, as a function of the argument arrays as launched.

   The first host stretch splits the edge list into its two rows of words and lays the three gates' weights side by side
   and their biases end to end; region 0 then leaves its result in one buffer and nothing else changed. The middle
   stretch, besides the aggregation, cuts each of three 64×32 weight matrices into its upper and lower 32×32 half and turns each
   of four bias vectors into a one-row matrix; region 1 leaves its result in one buffer; the last stretch cuts that result into its
   first 32 and its last 10 columns. A buffer a stretch or a region does not write keeps what it held, which is how an
   argument array, or a value of the first stretch, is still there when a later item reads it. -/
import proofs.«109611_j74380243632619_2_alg».proof.Proof.KI.Run
import proofs.«109611_j74380243632619_2_alg».proof.Proof.KV.Concat
import proofs.«109611_j74380243632619_2_alg».proof.Proof.Graph
import Idealize.ShloMosaic.Lib.StableHlo.Run

noncomputable section

namespace Cert.KernelIdeal.KValue

open Idealize.ShloMosaic Idealize.ShloMosaic.TcCoe
open Cert.KernelIdeal Cert.KernelIdeal.Gen Cert.KernelIdeal.Hand Cert.KernelIdeal.Facts₀ Cert.Tgcn

variable (m : (ℓ : Loc nD τ sig) → Buf (Elt Ideal) ℓ) (ρ : Dev nD → PrngReg) (c : Dev nD)

/-- An argument array as launched. -/
abbrev Arg (r : Ref sig .tc) : Buf (Elt Ideal) ((c.tc : Thread nD τ).loc r) := m ((c.tc : Thread nD τ).loc r)

/-! ## What is kept: a reference no operation of a stretch writes, and that is no array of a region's windows -/

/-- Through the first stretch. -/
theorem kept1 {r : Ref sig .tc} (h0 : r ∉ hostOps0_W) : Hand.W1 m ρ c (Proc.devRef .tc r) = Arg m c r :=
  StableHlo.after_of_writes_sub hostOps0 (Hand.W0 m ρ c) hostOps0_writes h0
/-- Through region 0 as well. -/
theorem kept2 {r : Ref sig .tc} (h0 : r ∉ hostOps0_W) (h : ∀ w, Pipeline.arrRef spec0 w ≠ r) :
    Hand.W2 m ρ c (Proc.devRef .tc r) = Arg m c r :=
  (W2_of_ne m ρ c r h).trans (kept1 m ρ c h0)
/-- Through the middle stretch as well. -/
theorem kept3 {r : Ref sig .tc} (h0 : r ∉ hostOps0_W) (h : ∀ w, Pipeline.arrRef spec0 w ≠ r) (h1 : r ∉ hostOps1_W) :
    Hand.W3 m ρ c (Proc.devRef .tc r) = Arg m c r :=
  (StableHlo.after_of_writes_sub hostOps1 (Hand.W2 m ρ c) hostOps1_writes h1).trans (kept2 m ρ c h0 h)

/-! ## The first host stretch, from any contents `W`: the edge list's two rows, the joined weights and biases -/

theorem after0_v1 (W : Valuation τ sig (Elt Ideal)) :
    (StableHlo.after hostOps0 W (Proc.devRef .tc main_v1) : IVec S1600000 32) = rowW (W (Proc.devRef .tc main_arg1)) := by
  dsimp only [hostOps0]; after_results; rfl
theorem after0_v3 (W : Valuation τ sig (Elt Ideal)) :
    (StableHlo.after hostOps0 W (Proc.devRef .tc main_v3) : IVec S1600000 32) = colW (W (Proc.devRef .tc main_arg1)) := by
  dsimp only [hostOps0]; after_results; rfl
theorem after0_v4 (W : Valuation τ sig (Elt Ideal)) :
    (StableHlo.after hostOps0 W (Proc.devRef .tc main_v4) : S64x96.Idx → EReal)
      = joinW (W (Proc.devRef .tc main_arg4)) (W (Proc.devRef .tc main_arg6)) (W (Proc.devRef .tc main_arg8)) := by
  dsimp only [hostOps0]; after_results; rfl
theorem after0_v5 (W : Valuation τ sig (Elt Ideal)) :
    (StableHlo.after hostOps0 W (Proc.devRef .tc main_v5) : S96.Idx → EReal)
      = joinB (W (Proc.devRef .tc main_arg5)) (W (Proc.devRef .tc main_arg7)) (W (Proc.devRef .tc main_arg9)) := by
  dsimp only [hostOps0]; after_results; rfl

/-- At region 0's entry: the source words, -/
theorem W1_v1 : (Hand.V1 m ρ c main_v1 : IVec S1600000 32) = rowW (Arg m c main_arg1) := after0_v1 (Hand.W0 m ρ c)
/-- the target words, -/
theorem W1_v3 : (Hand.V1 m ρ c main_v3 : IVec S1600000 32) = colW (Arg m c main_arg1) := after0_v3 (Hand.W0 m ρ c)
/-- the joined weights (region 0's second operand), -/
theorem W1_v4 : (Hand.V1 m ρ c main_v4 : S64x96.Idx → EReal) = joinW (Arg m c main_arg4) (Arg m c main_arg6) (Arg m c main_arg8) :=
  after0_v4 (Hand.W0 m ρ c)
/-- the joined biases, -/
theorem W1_v5 : (Hand.V1 m ρ c main_v5 : S96.Idx → EReal) = joinB (Arg m c main_arg5) (Arg m c main_arg7) (Arg m c main_arg9) :=
  after0_v5 (Hand.W0 m ρ c)
/-- and region 0's first operand, an argument array, untouched. -/
theorem W1_arg0 : Hand.V1 m ρ c main_arg0 = Arg m c main_arg0 := kept1 m ρ c (by decide)

/-! ## Across region 0: its result buffer at what the pipeline leaves, every other buffer as entered -/

theorem W2_v6 : Hand.V2 m ρ c main_v6 = (dat0 (Hand.V1 m ρ) c).arrAt 2 cfg0.N := W2_arr m ρ c 2
theorem W2_v1 : (Hand.V2 m ρ c main_v1 : IVec S1600000 32) = rowW (Arg m c main_arg1) :=
  (W2_of_ne m ρ c main_v1 (by decide)).trans (W1_v1 m ρ c)
theorem W2_v3 : (Hand.V2 m ρ c main_v3 : IVec S1600000 32) = colW (Arg m c main_arg1) :=
  (W2_of_ne m ρ c main_v3 (by decide)).trans (W1_v3 m ρ c)
theorem W2_v5 : (Hand.V2 m ρ c main_v5 : S96.Idx → EReal) = joinB (Arg m c main_arg5) (Arg m c main_arg7) (Arg m c main_arg9) :=
  (W2_of_ne m ρ c main_v5 (by decide)).trans (W1_v5 m ρ c)
theorem W2_arg2 : Hand.V2 m ρ c main_arg2 = Arg m c main_arg2 := kept2 m ρ c (by decide) (by decide)

/-! ## The middle host stretch, from any contents `W`: the upper and lower halves of three weight matrices, four bias vectors as rows -/

theorem after1_v52 (W : Valuation τ sig (Elt Ideal)) :
    (StableHlo.after hostOps1 W (Proc.devRef .tc main_v52) : S32x32.Idx → EReal)
      = extractStridedSlice S32x32 ![0, 0] (W (Proc.devRef .tc main_arg10)) Gen.slices_S64x32_S32x32_0_0 := by
  dsimp only [hostOps1]; after_results_simp
theorem after1_v53 (W : Valuation τ sig (Elt Ideal)) :
    (StableHlo.after hostOps1 W (Proc.devRef .tc main_v53) : S32x32.Idx → EReal)
      = extractStridedSlice S32x32 ![32, 0] (W (Proc.devRef .tc main_arg10)) Gen.slices_S64x32_S32x32_32_0 := by
  dsimp only [hostOps1]; after_results_simp
theorem after1_v54 (W : Valuation τ sig (Elt Ideal)) :
    (StableHlo.after hostOps1 W (Proc.devRef .tc main_v54) : S32x32.Idx → EReal)
      = extractStridedSlice S32x32 ![0, 0] (W (Proc.devRef .tc main_arg12)) Gen.slices_S64x32_S32x32_0_0 := by
  dsimp only [hostOps1]; after_results_simp
theorem after1_v55 (W : Valuation τ sig (Elt Ideal)) :
    (StableHlo.after hostOps1 W (Proc.devRef .tc main_v55) : S32x32.Idx → EReal)
      = extractStridedSlice S32x32 ![32, 0] (W (Proc.devRef .tc main_arg12)) Gen.slices_S64x32_S32x32_32_0 := by
  dsimp only [hostOps1]; after_results_simp
theorem after1_v56 (W : Valuation τ sig (Elt Ideal)) :
    (StableHlo.after hostOps1 W (Proc.devRef .tc main_v56) : S32x32.Idx → EReal)
      = extractStridedSlice S32x32 ![0, 0] (W (Proc.devRef .tc main_arg14)) Gen.slices_S64x32_S32x32_0_0 := by
  dsimp only [hostOps1]; after_results_simp
theorem after1_v57 (W : Valuation τ sig (Elt Ideal)) :
    (StableHlo.after hostOps1 W (Proc.devRef .tc main_v57) : S32x32.Idx → EReal)
      = extractStridedSlice S32x32 ![32, 0] (W (Proc.devRef .tc main_arg14)) Gen.slices_S64x32_S32x32_32_0 := by
  dsimp only [hostOps1]; after_results_simp
theorem after1_v58 (W : Valuation τ sig (Elt Ideal)) :
    (StableHlo.after hostOps1 W (Proc.devRef .tc main_v58) : S1x32.Idx → EReal)
      = shapeCast S1x32 (W (Proc.devRef .tc main_arg11)) Gen.shapeCasts_S32_S1x32 := by
  dsimp only [hostOps1]; after_results_simp; rfl
theorem after1_v59 (W : Valuation τ sig (Elt Ideal)) :
    (StableHlo.after hostOps1 W (Proc.devRef .tc main_v59) : S1x32.Idx → EReal)
      = shapeCast S1x32 (W (Proc.devRef .tc main_arg13)) Gen.shapeCasts_S32_S1x32 := by
  dsimp only [hostOps1]; after_results_simp; rfl
theorem after1_v60 (W : Valuation τ sig (Elt Ideal)) :
    (StableHlo.after hostOps1 W (Proc.devRef .tc main_v60) : S1x32.Idx → EReal)
      = shapeCast S1x32 (W (Proc.devRef .tc main_arg15)) Gen.shapeCasts_S32_S1x32 := by
  dsimp only [hostOps1]; after_results_simp; rfl
theorem after1_v61 (W : Valuation τ sig (Elt Ideal)) :
    (StableHlo.after hostOps1 W (Proc.devRef .tc main_v61) : S1x10.Idx → EReal)
      = shapeCast S1x10 (W (Proc.devRef .tc main_arg17)) Gen.shapeCasts_S10_S1x10 := by
  dsimp only [hostOps1]; after_results_simp; rfl

/-! At region 1's entry: its small operands, each one operation of an argument array, and the two arguments it reads
    directly. -/

theorem W3_v52 : (Hand.V3 m ρ c main_v52 : S32x32.Idx → EReal)
    = extractStridedSlice S32x32 ![0, 0] (Arg m c main_arg10) Gen.slices_S64x32_S32x32_0_0 := by
  have h := after1_v52 (Hand.W2 m ρ c)
  rw [kept2 m ρ c (r := main_arg10) (by decide) (by decide)] at h
  exact h
theorem W3_v53 : (Hand.V3 m ρ c main_v53 : S32x32.Idx → EReal)
    = extractStridedSlice S32x32 ![32, 0] (Arg m c main_arg10) Gen.slices_S64x32_S32x32_32_0 := by
  have h := after1_v53 (Hand.W2 m ρ c)
  rw [kept2 m ρ c (r := main_arg10) (by decide) (by decide)] at h
  exact h
theorem W3_v54 : (Hand.V3 m ρ c main_v54 : S32x32.Idx → EReal)
    = extractStridedSlice S32x32 ![0, 0] (Arg m c main_arg12) Gen.slices_S64x32_S32x32_0_0 := by
  have h := after1_v54 (Hand.W2 m ρ c)
  rw [kept2 m ρ c (r := main_arg12) (by decide) (by decide)] at h
  exact h
theorem W3_v55 : (Hand.V3 m ρ c main_v55 : S32x32.Idx → EReal)
    = extractStridedSlice S32x32 ![32, 0] (Arg m c main_arg12) Gen.slices_S64x32_S32x32_32_0 := by
  have h := after1_v55 (Hand.W2 m ρ c)
  rw [kept2 m ρ c (r := main_arg12) (by decide) (by decide)] at h
  exact h
theorem W3_v56 : (Hand.V3 m ρ c main_v56 : S32x32.Idx → EReal)
    = extractStridedSlice S32x32 ![0, 0] (Arg m c main_arg14) Gen.slices_S64x32_S32x32_0_0 := by
  have h := after1_v56 (Hand.W2 m ρ c)
  rw [kept2 m ρ c (r := main_arg14) (by decide) (by decide)] at h
  exact h
theorem W3_v57 : (Hand.V3 m ρ c main_v57 : S32x32.Idx → EReal)
    = extractStridedSlice S32x32 ![32, 0] (Arg m c main_arg14) Gen.slices_S64x32_S32x32_32_0 := by
  have h := after1_v57 (Hand.W2 m ρ c)
  rw [kept2 m ρ c (r := main_arg14) (by decide) (by decide)] at h
  exact h
theorem W3_v58 : (Hand.V3 m ρ c main_v58 : S1x32.Idx → EReal) = shapeCast S1x32 (Arg m c main_arg11) Gen.shapeCasts_S32_S1x32 := by
  have h := after1_v58 (Hand.W2 m ρ c)
  rw [kept2 m ρ c (r := main_arg11) (by decide) (by decide)] at h
  exact h
theorem W3_v59 : (Hand.V3 m ρ c main_v59 : S1x32.Idx → EReal) = shapeCast S1x32 (Arg m c main_arg13) Gen.shapeCasts_S32_S1x32 := by
  have h := after1_v59 (Hand.W2 m ρ c)
  rw [kept2 m ρ c (r := main_arg13) (by decide) (by decide)] at h
  exact h
theorem W3_v60 : (Hand.V3 m ρ c main_v60 : S1x32.Idx → EReal) = shapeCast S1x32 (Arg m c main_arg15) Gen.shapeCasts_S32_S1x32 := by
  have h := after1_v60 (Hand.W2 m ρ c)
  rw [kept2 m ρ c (r := main_arg15) (by decide) (by decide)] at h
  exact h
theorem W3_v61 : (Hand.V3 m ρ c main_v61 : S1x10.Idx → EReal) = shapeCast S1x10 (Arg m c main_arg17) Gen.shapeCasts_S10_S1x10 := by
  have h := after1_v61 (Hand.W2 m ρ c)
  rw [kept2 m ρ c (r := main_arg17) (by decide) (by decide)] at h
  exact h
theorem W3_arg3 : Hand.V3 m ρ c main_arg3 = Arg m c main_arg3 := kept3 m ρ c (by decide) (by decide) (by decide)
theorem W3_arg16 : Hand.V3 m ρ c main_arg16 = Arg m c main_arg16 := kept3 m ρ c (by decide) (by decide) (by decide)

/-! ## Across region 1, and the last host stretch: the result's first 32 and last 10 columns -/

theorem W4_v62 : Hand.V4 m ρ c main_v62 = (dat1 (Hand.V3 m ρ) c).arrAt 13 cfg1.N := W4_arr m ρ c 13

theorem after2_v63 (W : Valuation τ sig (Elt Ideal)) :
    (StableHlo.after hostOps2 W (Proc.devRef .tc main_v63) : S100000x32.Idx → EReal)
      = extractStridedSlice S100000x32 ![0, 0] (W (Proc.devRef .tc main_v62)) Gen.slices_S100000x42_S100000x32_0_0 := by
  dsimp only [hostOps2]; after_results
theorem after2_v64 (W : Valuation τ sig (Elt Ideal)) :
    (StableHlo.after hostOps2 W (Proc.devRef .tc main_v64) : S100000x10.Idx → EReal)
      = extractStridedSlice S100000x10 ![0, 32] (W (Proc.devRef .tc main_v62)) Gen.slices_S100000x42_S100000x10_0_32 := by
  dsimp only [hostOps2]; after_results

theorem W5_v63 : (Hand.W5 m ρ c (Proc.devRef .tc main_v63) : S100000x32.Idx → EReal)
    = extractStridedSlice S100000x32 ![0, 0] (Hand.V4 m ρ c main_v62) Gen.slices_S100000x42_S100000x32_0_0 :=
  after2_v63 (Hand.W4 m ρ c)
theorem W5_v64 : (Hand.W5 m ρ c (Proc.devRef .tc main_v64) : S100000x10.Idx → EReal)
    = extractStridedSlice S100000x10 ![0, 32] (Hand.V4 m ρ c main_v62) Gen.slices_S100000x42_S100000x10_0_32 :=
  after2_v64 (Hand.W4 m ρ c)

end Cert.KernelIdeal.KValue

end
-- ==== Proof.LibRowGatherScatter.lean ====
/-
  Reading, at an index, the two indexed operations a segment sum is built from: the row gather `x[col]` (an operand
  `[N, C]` or `[N]` read at a column `[E, 1]` of start indices) and the accumulating row scatter
  `segment_sum(msgs, row)` (updates `[E, C]` added into an operand `[N, C]` at a column `[E, 1]` of row indices).
  The gather clamps its start index into `[0, N − 1]`; the scatter reads it signed and drops a row that is out of range.
  Every statement is for arbitrary dimension numbers whose lists are the ones those two operations carry.
-/
import Idealize.ShloMosaic.Lib.ValueIdx
import Idealize.ShloMosaic.PureOps.Ideal.Laws

noncomputable section

open scoped BigOperators

namespace Idealize.ShloMosaic.RowGatherScatter

open Idealize.ShloMosaic Idealize.ShloMosaic.ValueIdx

/-! ## The row gather at an index -/

section Gather
variable {α : Type}

/-- THE ROW GATHER READ AT `(e, c)`: gathering whole rows of an `[N, C]` operand at a column `[E, 1]` of start
    indices gives, at row `e` and column `c`, the operand's element in column `c` of the row named by start index
    `e`, that index read as a signed integer and clamped into `[0, N − 1]`. -/
theorem gather_rows_apply {N E C w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: collapsed, not batching, named by the start index map
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[1], [0], [], [], [0], 1, ![1, C], wf⟩ :
        GatherDims ⟨2, ![N, C]⟩ ⟨2, ![E, 1]⟩ ⟨2, ![E, C]⟩) (ix2 e c) ⟨p, hp⟩ = ix2 e 0 := by
      intro p hp
      obtain rfl : p = 0 := by omega
      funext b; refine Fin.ext ?_
      match b with
      | ⟨0, _⟩ => rfl
      | ⟨1, _⟩ => rfl
    rw [hsi]
    rfl
  | ⟨1, _⟩ =>
    -- the column axis: an offset axis, its start 0, its offset the result's column
    show GatherDims.start _ (ix2 e c) idx 1 + GatherDims.batchCoord _ (ix2 e c) 1 + GatherDims.offCoord _ (ix2 e c) 1 = c.val
    rw [GatherDims.batchCoord_eq_zero _ _ _ List.not_mem_nil]
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (show (1 : Fin 2) ∉ [(0 : Fin 2)] by decide)]
    rw [hs]
    simp only [Nat.add_zero, Nat.zero_add]
    rfl

/-- THE VECTOR GATHER READ AT `e`: gathering elements of an `[N]` operand at a column `[E, 1]` of start indices gives,
    at `e`, the operand's element at start index `e`, read as a signed integer and clamped into `[0, N − 1]`. -/
theorem gather_vec_apply {N E w : Nat} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[], [0], [], [], [0], 1, ![1], wf⟩ :
        GatherDims ⟨1, ![N]⟩ ⟨2, ![E, 1]⟩ ⟨1, ![E]⟩) (ix1 e) ⟨p, hp⟩ = ix2 e 0 := by
      intro p hp
      obtain rfl : p = 0 := by omega
      funext b; refine Fin.ext ?_
      match b with
      | ⟨0, _⟩ => rfl
      | ⟨1, _⟩ => rfl
    rw [hsi]
    rfl

end Gather

/-! ## The accumulating row scatter at an index -/

section Scatter

/-- The row scatter's dimension numbers — updates `[E, C]` whose column axis is the window, the operand's row axis
    inserted and named by the one scatter index component — with their conditions an arbitrary proof. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update's scatter index, read signed. -/
theorem rows_start0 (idx : IVec ⟨2, ![E, 1]⟩ w) (e : Fin E) (c : Fin C) :
    (rowsDims N E C wf).start (ix2 e c) idx 0 = (idx (ix2 e 0)).toInt := by
  unfold ScatterDims.start
  rw [dif_pos (List.mem_singleton.mpr rfl)]
  have hsi : ∀ (p : Nat) (hp : p < 1), (rowsDims N E C wf).siIdx (ix2 e c) ⟨p, hp⟩ = ix2 e 0 := by
    intro p hp
    obtain rfl : p = 0 := by omega
    funext b; refine Fin.ext ?_
    match b with
    | ⟨0, _⟩ => rfl
    | ⟨1, _⟩ => rfl
  rw [hsi]

/-- On the column axis the window starts at 0. -/
theorem rows_start1 (idx : IVec ⟨2, ![E, 1]⟩ w) (e : Fin E) (c : Fin C) :
    (rowsDims N E C wf).start (ix2 e c) idx 1 = 0 := by
  unfold ScatterDims.start; rw [dif_neg (show (1 : Fin 2) ∉ [(0 : Fin 2)] by decide)]

/-- The row axis is inserted: no window coordinate. -/
theorem rows_window0 (e : Fin E) (c : Fin C) : (rowsDims N E C wf).window (ix2 e c) 0 = 0 := by
  unfold ScatterDims.window
  have h0 : (0 : Fin 2) ∉ (List.finRange 2).filter (· ∉ [(0 : Fin 2)]) := by decide
  exact dif_neg h0

/-- The column axis's window coordinate is the update's column. -/
theorem rows_window1 (e : Fin E) (c : Fin C) : (rowsDims N E C wf).window (ix2 e c) 1 = c.val := rfl

/-- WHERE AN UPDATE LANDS, for those dimension numbers: update `(e, c)` lands on operand element `(n, c')` exactly when
    the columns agree and the update's scatter index, read signed, is `n`. -/
theorem rows_resultIdx (idx : IVec ⟨2, ![E, 1]⟩ w) (e : Fin E) (c c' : Fin C) (n : Fin N) :
    (rowsDims N E C wf).resultIdx? (ix2 e c) idx = some (ix2 n c') ↔
      (c = c' ∧ (idx (ix2 e 0)).toInt = (n.val : ℤ)) := by
  unfold ScatterDims.resultIdx?
  constructor
  · intro h
    split at h
    · rename_i hall
      have hf := Option.some.inj h
      have h0 : ((rowsDims N E C wf).start (ix2 e c) idx 0 + ((rowsDims N E C wf).window (ix2 e c) 0 : ℕ)).toNat = n.val :=
        congrArg Fin.val (congrFun hf 0)
      have h1 : ((rowsDims N E C wf).start (ix2 e c) idx 1 + ((rowsDims N E C wf).window (ix2 e c) 1 : ℕ)).toNat = c'.val :=
        congrArg Fin.val (congrFun hf 1)
      have hr0 := (hall 0).1
      rw [rows_start0, rows_window0] at h0 hr0
      rw [rows_start1, rows_window1] at h1
      exact ⟨Fin.ext (by omega), by omega⟩
    · cases h
  · rintro ⟨rfl, hq⟩
    have hall : ∀ a, 0 ≤ (rowsDims N E C wf).start (ix2 e c) idx a + ((rowsDims N E C wf).window (ix2 e c) a : ℕ) ∧
        (rowsDims N E C wf).start (ix2 e c) idx a + ((rowsDims N E C wf).window (ix2 e c) a : ℕ) <
          ((⟨2, ![N, C]⟩ : Shape).size a : ℕ) := by
      intro a
      match a with
      | ⟨0, _⟩ =>
        show 0 ≤ (rowsDims N E C wf).start (ix2 e c) idx 0 + ((rowsDims N E C wf).window (ix2 e c) 0 : ℕ) ∧
          (rowsDims N E C wf).start (ix2 e c) idx 0 + ((rowsDims N E C wf).window (ix2 e c) 0 : ℕ) < (N : ℤ)
        rw [rows_start0, rows_window0, hq]
        have := n.isLt
        constructor <;> omega
      | ⟨1, _⟩ =>
        show 0 ≤ (rowsDims N E C wf).start (ix2 e c) idx 1 + ((rowsDims N E C wf).window (ix2 e c) 1 : ℕ) ∧
          (rowsDims N E C wf).start (ix2 e c) idx 1 + ((rowsDims N E C wf).window (ix2 e c) 1 : ℕ) < (C : ℤ)
        rw [rows_start1, rows_window1]
        have := c.isLt
        constructor <;> omega
    rw [dif_pos hall]
    congr 1
    funext a
    refine Fin.ext ?_
    match a with
    | ⟨0, _⟩ =>
      show ((rowsDims N E C wf).start (ix2 e c) idx 0 + ((rowsDims N E C wf).window (ix2 e c) 0 : ℕ)).toNat = n.val
      rw [rows_start0, rows_window0, hq]
      omega
    | ⟨1, _⟩ =>
      show ((rowsDims N E C wf).start (ix2 e c) idx 1 + ((rowsDims N E C wf).window (ix2 e c) 1 : ℕ)).toNat = c.val
      rw [rows_start1, rows_window1]
      omega

omit wf in
/-- WHERE AN UPDATE LANDS in the accumulating row scatter: update `(e, c)` lands on operand element `(n, c')` exactly
    when the columns agree and the update's scatter index, read as a signed integer and NOT clamped, is `n`; an update
    whose index is negative or at least `N` lands nowhere. -/
theorem scatter_rows_resultIdx (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c c' : Fin C) (n : Fin N) :
    d.resultIdx? (ix2 e c) idx = some (ix2 n c') ↔ (c = c' ∧ (idx (ix2 e 0)).toInt = (n.val : ℤ)) := by
  obtain ⟨uw, iw, sd, iv, wf'⟩ := d
  simp only at h1 h2 h3 h4
  subst h1 h2 h3 h4
  exact rows_resultIdx wf' idx e c c' n

omit wf in
/-- THE ACCUMULATING ROW SCATTER READ AT `(n, c)`, over the extended reals: the operand's element plus the sum of
    column `c` of the update rows whose scatter index, read signed, is `n` — the segment sum of the updates over the
    rows sent to `n`. Rows with an out-of-range index contribute to no element. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c) =
      x (ix2 n c) + ∑ e ∈ Finset.univ.filter (fun e : Fin E => (idx (ix2 e 0)).toInt = (n.val : ℤ)), upd (ix2 e c) := by
  show Ideal.hostScatterAdd d x idx upd (ix2 n c) = _
  unfold Ideal.hostScatterAdd
  congr 1
  rw [Finset.sum_filter, sum_idx2, Finset.sum_filter]
  refine Finset.sum_congr rfl fun a _ => ?_
  have key : ∀ b : Fin C, (if d.resultIdx? (ix2 a b) idx = some (ix2 n c) then upd (ix2 a b) else 0) =
      if b = c then (if (idx (ix2 a 0)).toInt = (n.val : ℤ) then upd (ix2 a c) else 0) else 0 := by
    intro b
    by_cases hb : b = c
    · subst hb
      by_cases hq : (idx (ix2 a 0)).toInt = (n.val : ℤ)
      · rw [if_pos ((scatter_rows_resultIdx d h1 h2 h3 h4 idx a b b n).mpr ⟨rfl, hq⟩), if_pos rfl, if_pos hq]
      · rw [if_neg (fun h => hq ((scatter_rows_resultIdx d h1 h2 h3 h4 idx a b b n).mp h).2), if_pos rfl, if_neg hq]
    · rw [if_neg (fun h => hb ((scatter_rows_resultIdx d h1 h2 h3 h4 idx a b c n).mp h).1), if_neg hb]
  rw [Finset.sum_congr rfl (fun b _ => key b), Finset.sum_ite_eq' Finset.univ c, if_pos (Finset.mem_univ c)]

end Scatter

end Idealize.ShloMosaic.RowGatherScatter

end
-- ==== Proof.LibColumnBroadcast.lean ====
/-
  A vector laid along a column and repeated over the columns.

  `broadcast_in_dim` applied twice, [n] -> [n, 1] (the vector becomes a column) and [n, 1] -> [n, c] (the column is
  repeated c times): entry (k, q) of the result is entry k of the vector, whatever the column q.  This is how
  `v[:, None] * M` scales the rows of a matrix M by a vector v.
-/
import Idealize.ShloMosaic.Lib.Pipeline.Value
import Idealize.ShloMosaic.Lib.ValueIdx

namespace Cert.Lib

open Idealize.ShloMosaic Idealize.ShloMosaic.ValueIdx

/-- Entry (k, q) of a length-n vector broadcast to a column [n, 1] and then to [n, c] is the vector's entry k.
    Holds for every n and c (for n = 1 the only index is 0 on both sides). -/
theorem broadcastInDim_column_apply {α : Type} {n c : ℕ} (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2))
    (k : Fin n) (q : Fin c) :
    broadcastInDim ⟨2, ![n, c]⟩ ![0, 1] h2 (broadcastInDim ⟨2, ![n, 1]⟩ ![0] h1 v) (ix2 k q) = v (ix1 k) := by
  refine (broadcastInDim_apply _ h2 _ (ix2 k q) (ix2 k (0 : Fin 1)) fun a => ?_).trans
    (broadcastInDim_apply _ h1 v (ix2 k (0 : Fin 1)) (ix1 k) fun a => ?_)
  · match a with
    | ⟨0, _⟩ =>
      show k.val = if n = 1 then 0 else k.val
      split
      · have := k.isLt; omega
      · rfl
    | ⟨1, _⟩ =>
      show (0 : ℕ) = if (1 : ℕ) = 1 then 0 else q.val
      rw [if_pos rfl]
  · match a with
    | ⟨0, _⟩ =>
      show k.val = if n = 1 then 0 else k.val
      split
      · have := k.isLt; omega
      · rfl

end Cert.Lib
-- ==== Proof.KV.Host1.lean ====
/-
  Between its two kernels the program aggregates over the graph on the host: from the projected features
  `xw : [N, 96]` (the three gates' projections side by side) it forms, for all 96 columns at once,

      conv(n, q) = (Σ over the edges e arriving at n of  xw(row e, q) · norm(e))  +  dis(n)·dis(n) · xw(n, q)  +  b(q).

  The gathered rows pass through a narrower float format and back, which is the identity on extended reals.
  This module names that chain as one function of `xw` and reads it at an index.
-/
import proofs.«109611_j74380243632619_2_alg».proof.Proof.Graph
import proofs.«109611_j74380243632619_2_alg».proof.Proof.LibRowGatherScatter
import proofs.«109611_j74380243632619_2_alg».proof.Proof.LibColumnBroadcast
import Idealize.ShloMosaic.Lib.Pipeline.Value
import Idealize.ShloMosaic.Lib.ValueIdx
import Idealize.ShloMosaic.PureOps.Ideal.Laws

noncomputable section

open scoped BigOperators

namespace Cert.KernelIdeal.KValue

open Idealize.ShloMosaic Idealize.ShloMosaic.ValueIdx Cert.KernelIdeal Cert.KernelIdeal.Facts₀ Cert.Tgcn

/-- The messages of all edges, for all 96 columns: the gathered rows of `xw` scaled by the edges' weights. -/
def messages (xw : FVec Ideal S100000x96 .f32) (ei : EdgeList) (ew : EdgeWeights) : FVec Ideal S1600000x96 .f32 :=
  mulf (extf .f32 (Host.gather gather_S100000x96_S1600000x1_S1600000x96_1_0_n_n_0_1_196 (truncf .bf16 xw bitsLt_bf16_f32) (wrap (rowW ei))) bitsLt_bf16_f32)
    (broadcastInDim S1600000x96 ![0, 1] bcast_S1600000x1_S1600000x96_0_1 (broadcastInDim S1600000x1 ![0] bcast_S1600000_S1600000x1_0 (normV ei ew)))

/-- The aggregation with self loops and bias, for all 96 columns. -/
def convAll (xw : FVec Ideal S100000x96 .f32) (ei : EdgeList) (ew : EdgeWeights) (ball : FVec Ideal S96 .f32) :
    FVec Ideal S100000x96 .f32 :=
  addf (addf (Host.scatterAdd (F := Ideal) scatter_S100000x96_S1600000x1_S1600000x96_1_0_0_1
        (broadcastInDim S100000x96 ![] bcast_S_S100000x96 (constant (F := Ideal) S_ .f32 0x00000000#32))
        (column (colW ei)) (messages xw ei ew))
      (mulf (broadcastInDim S100000x96 ![0, 1] bcast_S100000x1_S100000x96_0_1
        (broadcastInDim S100000x1 ![0] bcast_S100000_S100000x1_0 (mulf (dis ei ew) (dis ei ew)))) xw))
    (broadcastInDim S100000x96 ![0, 1] bcast_S1x96_S100000x96_0_1 (broadcastInDim S1x96 ![1] bcast_S96_S1x96_1 ball))

/-- One edge's message at a column: the gathered row's entry times the edge's weight. -/
theorem messages_apply (xw : FVec Ideal S100000x96 .f32) (ei : EdgeList) (ew : EdgeWeights) (e : Fin 1600000) (q : Fin 96) :
    messages xw ei ew (ix2 e q) = xw (ix2 ((graphOf ei ew).src e) q) * (graphOf ei ew).norm e := by
  unfold messages
  rw [mulf_apply, extf_apply]
  refine congrArg₂ (· * ·) ?_ ?_
  · exact (RowGatherScatter.gather_rows_apply (by norm_num) gather_S100000x96_S1600000x1_S1600000x96_1_0_n_n_0_1_196
      rfl rfl rfl rfl rfl rfl rfl (truncf .bf16 xw bitsLt_bf16_f32) (wrap (rowW ei)) e q).trans rfl
  · exact Cert.Lib.broadcastInDim_column_apply (normV ei ew) bcast_S1600000_S1600000x1_0 bcast_S1600000x1_S1600000x96_0_1 e q

/-- A bias vector broadcast along the rows reads, at (n, q), its entry q. -/
theorem bias_apply (ball : FVec Ideal S96 .f32) (n : Fin 100000) (q : Fin 96) :
    broadcastInDim S100000x96 ![0, 1] bcast_S1x96_S100000x96_0_1 (broadcastInDim S1x96 ![1] bcast_S96_S1x96_1 ball) (ix2 n q)
      = ball (ix1 q) := by
  refine (broadcastInDim_apply _ bcast_S1x96_S100000x96_0_1 _ (ix2 n q) (ix2 (0 : Fin 1) q) fun a => ?_).trans
    (broadcastInDim_apply _ bcast_S96_S1x96_1 ball (ix2 (0 : Fin 1) q) (ix1 q) fun a => ?_)
  · match a with
    | ⟨0, _⟩ => rfl
    | ⟨1, _⟩ => rfl
  · match a with
    | ⟨0, _⟩ => rfl

/-- The self-loop weight of the graph's data is `dis(n) · dis(n)`. -/
theorem graphOf_self (ei : EdgeList) (ew : EdgeWeights) (n : Fin 100000) :
    (graphOf ei ew).self n = dis ei ew (ix1 n) * dis ei ew (ix1 n) := by
  simp only [graphOf]

/-- The target of an edge's message in the graph's data is the target word read signed. -/
theorem graphOf_dst (ei : EdgeList) (ew : EdgeWeights) (e : Fin 1600000) :
    (graphOf ei ew).dst e = (column (colW ei) (ix2 e 0)).toInt := by
  simp only [graphOf]

/-- THE AGGREGATION READ AT (n, q). -/
theorem convAll_apply (xw : FVec Ideal S100000x96 .f32) (ei : EdgeList) (ew : EdgeWeights) (ball : FVec Ideal S96 .f32)
    (n : Fin 100000) (q : Fin 96) :
    convAll xw ei ew ball (ix2 n q) =
      ((∑ e ∈ Finset.univ.filter (fun e : Fin 1600000 => (graphOf ei ew).dst e = (n.val : ℤ)),
          xw (ix2 ((graphOf ei ew).src e) q) * (graphOf ei ew).norm e)
        + (graphOf ei ew).self n * xw (ix2 n q)) + ball (ix1 q) := by
  unfold convAll
  rw [addf_apply, addf_apply, mulf_apply, bias_apply]
  refine congrArg₂ (· + ·) (congrArg₂ (· + ·) ?_ ?_) rfl
  · refine (RowGatherScatter.scatterAdd_rows_apply scatter_S100000x96_S1600000x1_S1600000x96_1_0_0_1 rfl rfl rfl rfl
      _ (column (colW ei)) (messages xw ei ew) n q).trans ?_
    have hz : (broadcastInDim S100000x96 ![] bcast_S_S100000x96 (constant (F := Ideal) S_ .f32 0x00000000#32)) (ix2 n q)
        = (0 : EReal) := (rfl : _ = Ideal.ofBits .f32 0x00000000#32).trans Ideal.ofBits_zero_f32
    -- the edges arriving at `n`: the same set, the target word spelt through the graph's data
    have hf : Finset.univ.filter (fun e : Fin 1600000 => (column (colW ei) (ix2 e 0)).toInt = (n.val : ℤ))
        = Finset.univ.filter (fun e : Fin 1600000 => (graphOf ei ew).dst e = (n.val : ℤ)) :=
      Finset.filter_congr fun e _ => by rw [graphOf_dst]
    rw [hz, zero_add, hf]
    exact Finset.sum_congr (Eq.refl _) fun e _ => messages_apply xw ei ew e q
  · refine congrArg₂ (· * ·) ?_ rfl
    refine (Cert.Lib.broadcastInDim_column_apply (mulf (dis ei ew) (dis ei ew)) bcast_S100000_S100000x1_0 bcast_S100000x1_S100000x96_0_1 n q).trans ?_
    exact (mulf_apply (dis ei ew) (dis ei ew) (ix1 n)).trans (graphOf_self ei ew n).symm

end Cert.KernelIdeal.KValue

end
-- ==== Proof.KV.Agg.lean ====
/-
  The host stretch between the two kernels, read as one function.  The source and target words of the edges were cut
  out of the edge list before the first kernel; the stretch takes them as they stand, so the aggregation is spelt here
  over those two word arrays, and is the aggregation over the edge list when they are its two rows.
-/
import proofs.«109611_j74380243632619_2_alg».proof.Proof.KI.Run
import proofs.«109611_j74380243632619_2_alg».proof.Proof.KV.Host1
import Idealize.ShloMosaic.Lib.StableHlo.Run

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.Tgcn

/-- `deg^(-1/2)` from the target words. -/
def disW (cw : EdgeWords) (ew : EdgeWeights) : NodeVec :=
  Host.rsqrt (F := Ideal) (addf (Host.scatterAdd (F := Ideal) scatter_S100000_S1600000x1_S1600000_n_0_0_1
      (broadcastInDim S100000 ![] bcast_S_S100000 (constant (F := Ideal) S_ .f32 0x00000000#32)) (column cw) ew)
    (broadcastInDim S100000 ![] bcast_S_S100000 (constant (F := Ideal) S_ .f32 0x3F800000#32)))

/-- The edges' normalised weights from the source and target words. -/
def normW (rw cw : EdgeWords) (ew : EdgeWeights) : EdgeWeights :=
  mulf (mulf (Host.gather gather_S100000_S1600000x1_S1600000_n_0_n_n_0_1_1 (disW cw ew) (wrap rw)) ew)
    (Host.gather gather_S100000_S1600000x1_S1600000_n_0_n_n_0_1_1 (disW cw ew) (wrap cw))

/-- The aggregation with self loops and bias from the source and target words. -/
def convAllW (xw : FVec Ideal S100000x96 .f32) (rw cw : EdgeWords) (ew : EdgeWeights) (ball : FVec Ideal S96 .f32) :
    FVec Ideal S100000x96 .f32 :=
  addf (addf (Host.scatterAdd (F := Ideal) scatter_S100000x96_S1600000x1_S1600000x96_1_0_0_1
        (broadcastInDim S100000x96 ![] bcast_S_S100000x96 (constant (F := Ideal) S_ .f32 0x00000000#32))
        (column cw)
        (mulf (extf .f32 (Host.gather gather_S100000x96_S1600000x1_S1600000x96_1_0_n_n_0_1_196 (truncf .bf16 xw bitsLt_bf16_f32) (wrap rw)) bitsLt_bf16_f32)
          (broadcastInDim S1600000x96 ![0, 1] bcast_S1600000x1_S1600000x96_0_1 (broadcastInDim S1600000x1 ![0] bcast_S1600000_S1600000x1_0 (normW rw cw ew)))))
      (mulf (broadcastInDim S100000x96 ![0, 1] bcast_S100000x1_S100000x96_0_1
        (broadcastInDim S100000x1 ![0] bcast_S100000_S100000x1_0 (mulf (disW cw ew) (disW cw ew)))) xw))
    (broadcastInDim S100000x96 ![0, 1] bcast_S1x96_S100000x96_0_1 (broadcastInDim S1x96 ![1] bcast_S96_S1x96_1 ball))

/-- With the two rows of the edge list as the words it is the aggregation over the edge list. -/
theorem convAllW_eq (xw : FVec Ideal S100000x96 .f32) (ei : EdgeList) (ew : EdgeWeights) (ball : FVec Ideal S96 .f32) :
    convAllW xw (rowW ei) (colW ei) ew ball = convAll xw ei ew ball := rfl

/-- The host stretch between the kernels leaves in the aggregated array the aggregation of what it finds in the
    projected array, the word arrays, the edge weights and the joined bias. -/
theorem hostOps1_v51 (W : Valuation τ sig (Elt Ideal)) :
    (StableHlo.after hostOps1 W (Proc.devRef .tc main_v51) : S100000x96.Idx → EReal)
      = convAllW (W (Proc.devRef .tc main_v6)) (W (Proc.devRef .tc main_v1)) (W (Proc.devRef .tc main_v3))
          (W (Proc.devRef .tc main_arg2)) (W (Proc.devRef .tc main_v5)) := by
  dsimp only [hostOps1]
  after_results_simp
  rfl

end Cert.KernelIdeal.KValue

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«109611_j74380243632619_2_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.KV.Layout.lean ====
/-
  The cell's body read at an entry: its layout operations and its matrix products.

  The body cuts the [10000,96] block of convolution rows into three groups of 32 columns, multiplies
  [10000,32] arrays by 32×32 (and one 32×10) matrices into zero accumulators, and adds a bias row
  broadcast over the 10000 rows. Each of these, read at entry (p, j), is one entry of its operand or a sum
  over the 32 contracted positions:
    • columns o .. o+31 of the block at (p, k) are the block at (p, o + k);
    • a [1,b] row broadcast to [10000,b] is, at (p, j), the row at j;
    • a product into the zero accumulator is, at (p, j), the sum over k of lhs (p, k) * rhs (k, j).
-/
import Idealize.ShloMosaic.Lib.ValueLayout
import proofs.«109611_j74380243632619_2_alg».proof.Proof.Gen.KernelIdeal.Skeleton
import proofs.«109611_j74380243632619_2_alg».proof.Proof.LibPlainMatmul

noncomputable section

open scoped BigOperators

namespace Cert.KernelIdeal.KValue

open Idealize.ShloMosaic Idealize.ShloMosaic.ValueIdx
open Cert.KernelIdeal Cert.KernelIdeal.Gen

/-- The dimension numbers of the body's 32×32 products are the plain ones: contract the left operand's columns
    with the right operand's rows. -/
theorem dot32_eq_plain : dot_S10000x32_S32x32_S10000x32_1_0_0_1_n_n = DotDims.plain 10000 32 32 := rfl

/-- Likewise for the read-out's 32×10 product. -/
theorem dot10_eq_plain : dot_S10000x32_S32x10_S10000x10_1_0_0_1_n_n = DotDims.plain 10000 32 10 := rfl

/-- Columns `o .. o+31` of the block, read at (p, k), are the block at (p, c) with c = o + k. -/
theorem cols_apply (o : Nat) (X : FVec Ideal S10000x96 .f32) (h : S10000x96.Slices ![0, o] S10000x32)
    (p : Fin 10000) (k : Fin 32) (c : Fin 96) (hc : c.val = o + k.val) :
    extractStridedSlice S10000x32 ![0, o] X h (ix2 p k) = X (ix2 p c) :=
  slice2_axis1_apply o X h p k c hc

/-- A 32-entry bias row broadcast over the 10000 rows is, at (p, j), its entry j. -/
theorem bias32_apply (b : FVec Ideal S1x32 .f32) (h : S1x32.Broadcasts S10000x32) (p : Fin 10000) (j : Fin 32) :
    broadcastTo S10000x32 b h (ix2 p j) = b (ix2 0 j) :=
  broadcastTo_1b_ab_apply b h p j

/-- A 10-entry bias row broadcast over the 10000 rows is, at (p, c), its entry c. -/
theorem bias10_apply (b : FVec Ideal S1x10 .f32) (h : S1x10.Broadcasts S10000x10) (p : Fin 10000) (c : Fin 10) :
    broadcastTo S10000x10 b h (ix2 p c) = b (ix2 0 c) :=
  broadcastTo_1b_ab_apply b h p c

/-- A [10000,32] array times a 32×32 matrix into the zero accumulator: at (p, j) the sum over k of
    lhs (p, k) * rhs (k, j). -/
theorem mm32_apply (X : FVec Ideal S10000x32 .f32) (A : FVec Ideal S32x32 .f32) (p : Fin 10000) (j : Fin 32) :
    matmul dot_S10000x32_S32x32_S10000x32_1_0_0_1_n_n none X A (constant (F := Ideal) S10000x32 .f32 0x00000000#32) (ix2 p j)
      = ∑ k : Fin 32, X (ix2 p k) * A (ix2 k j) :=
  PlainMatmul.plain_matmul_zero_apply 10000 32 32 none X A p j

/-- A [10000,32] array times the 32×10 read-out matrix into the zero accumulator: at (p, c) the sum over k of
    lhs (p, k) * rhs (k, c). -/
theorem mm10_apply (X : FVec Ideal S10000x32 .f32) (A : FVec Ideal S32x10 .f32) (p : Fin 10000) (c : Fin 10) :
    matmul dot_S10000x32_S32x10_S10000x10_1_0_0_1_n_n none X A (constant (F := Ideal) S10000x10 .f32 0x00000000#32) (ix2 p c)
      = ∑ k : Fin 32, X (ix2 p k) * A (ix2 k c) :=
  PlainMatmul.plain_matmul_zero_apply 10000 32 10 none X A p c

end Cert.KernelIdeal.KValue

end
-- ==== Proof.KV.Gates.lean ====
/-
  The gates of the cell's body at an entry.

  With c the block of convolution rows and h the state, both read at row p:
    • the update gate is logistic ((∑ k, c (p, k) * Wt (k, j)) + (∑ k, h (p, k) * Wb (k, j)) + bias j);
    • the reset gate is the same over columns 32 .. 63 of the block and its own matrices, and the body keeps
      h (p, j) times it;
    • the candidate's convolution part is ∑ k, c (p, 64 + k) * Wt (k, j).
-/
import proofs.«109611_j74380243632619_2_alg».proof.Proof.KV.Layout

noncomputable section

open scoped BigOperators

namespace Cert.KernelIdeal.KValue

open Idealize.ShloMosaic Idealize.ShloMosaic.ValueIdx
open Cert.KernelIdeal Cert.KernelIdeal.Gen

/-- A gate's affine part: two products into zero accumulators, added, plus the bias row broadcast over the rows.
    At (p, j) it is the two sums over the contracted positions plus the bias at j. -/
theorem affine_apply (h32 : S32x32.ShapeCasts S32x32) (h1 : S1x32.ShapeCasts S1x32) (hb : S1x32.Broadcasts S10000x32)
    (X U : FVec Ideal S10000x32 .f32) (A B : Vec Ideal S32x32 .f32) (b : Vec Ideal S1x32 .f32)
    (p : Fin 10000) (j : Fin 32) :
    addf (addf (matmul dot_S10000x32_S32x32_S10000x32_1_0_0_1_n_n none X (shapeCast S32x32 A h32 : FVec Ideal S32x32 .f32)
                  (constant (F := Ideal) S10000x32 .f32 0x00000000#32))
               (matmul dot_S10000x32_S32x32_S10000x32_1_0_0_1_n_n none U (shapeCast S32x32 B h32 : FVec Ideal S32x32 .f32)
                  (constant (F := Ideal) S10000x32 .f32 0x00000000#32)))
         (broadcastTo S10000x32 (shapeCast S1x32 b h1 : FVec Ideal S1x32 .f32) hb) (ix2 p j)
      = ((∑ k : Fin 32, X (ix2 p k) * A (ix2 k j)) + (∑ k : Fin 32, U (ix2 p k) * B (ix2 k j))) + b (ix2 0 j) := by
  rw [shapeCast_self, shapeCast_self, shapeCast_self, addf_apply, addf_apply, mm32_apply, mm32_apply, bias32_apply]

variable (v0 : Vec Ideal S10000x32 .f32) (v1 : Vec Ideal S10000x96 .f32)

/-- Columns `o .. o+31` of the loaded block (through its shape cast to the same shape), at (p, k). -/
theorem block_cols_apply (o : Nat) (h : S10000x96.Slices ![0, o] S10000x32) (p : Fin 10000) (k : Fin 32) (c : Fin 96)
    (hc : c.val = o + k.val) :
    extractStridedSlice S10000x32 ![0, o] (k1_pay3 (F := Ideal) v1) h (ix2 p k) = v1 (ix2 p c) :=
  (cols_apply o (k1_pay3 (F := Ideal) v1) h p k c hc).trans (congrFun (shapeCast_self v1 _) (ix2 p c))

/-- The update gate at (p, j). -/
theorem pay4_apply (v6 v9 : Vec Ideal S32x32 .f32) (v13 : Vec Ideal S1x32 .f32) (p : Fin 10000) (j : Fin 32) :
    k1_pay4 (F := Ideal) v0 v1 v6 v9 v13 (ix2 p j)
      = Ideal.logistic (((∑ k : Fin 32, v1 (ix2 p ⟨k.val, by omega⟩) * v6 (ix2 k j))
          + (∑ k : Fin 32, v0 (ix2 p k) * v9 (ix2 k j))) + v13 (ix2 0 j)) := by
  unfold k1_pay4
  refine (congrArg Ideal.logistic (affine_apply _ _ _ _ v0 v6 v9 v13 p j)).trans ?_
  refine congrArg (fun s => Ideal.logistic ((s + (∑ k : Fin 32, v0 (ix2 p k) * v9 (ix2 k j))) + v13 (ix2 0 j))) ?_
  exact Finset.sum_congr rfl fun k _ =>
    congrArg (· * v6 (ix2 k j)) (block_cols_apply v1 0 _ p k ⟨k.val, by omega⟩ (Nat.zero_add _).symm)

/-- The state times the reset gate at (p, j). -/
theorem pay5_apply (v18 v21 : Vec Ideal S32x32 .f32) (v25 : Vec Ideal S1x32 .f32) (p : Fin 10000) (j : Fin 32) :
    k1_pay5 (F := Ideal) v0 v1 v18 v21 v25 (ix2 p j)
      = v0 (ix2 p j) * Ideal.logistic (((∑ k : Fin 32, v1 (ix2 p ⟨32 + k.val, by omega⟩) * v18 (ix2 k j))
          + (∑ k : Fin 32, v0 (ix2 p k) * v21 (ix2 k j))) + v25 (ix2 0 j)) := by
  unfold k1_pay5
  refine (congrArg (fun x => v0 (ix2 p j) * Ideal.logistic x) (affine_apply _ _ _ _ v0 v18 v21 v25 p j)).trans ?_
  refine congrArg (fun s => v0 (ix2 p j) * Ideal.logistic ((s + (∑ k : Fin 32, v0 (ix2 p k) * v21 (ix2 k j))) + v25 (ix2 0 j))) ?_
  exact Finset.sum_congr rfl fun k _ =>
    congrArg (· * v18 (ix2 k j)) (block_cols_apply v1 32 _ p k ⟨32 + k.val, by omega⟩ rfl)

/-- The convolution part of the candidate's affine map at (p, j). -/
theorem pay6_apply (v31 : Vec Ideal S32x32 .f32) (p : Fin 10000) (j : Fin 32) :
    k1_pay6 (F := Ideal) v1 v31 (ix2 p j) = ∑ k : Fin 32, v1 (ix2 p ⟨64 + k.val, by omega⟩) * v31 (ix2 k j) := by
  unfold k1_pay6
  rw [shapeCast_self]
  refine (mm32_apply _ v31 p j).trans ?_
  exact Finset.sum_congr rfl fun k _ =>
    congrArg (· * v31 (ix2 k j)) (block_cols_apply v1 64 _ p k ⟨64 + k.val, by omega⟩ rfl)

end Cert.KernelIdeal.KValue

end
-- ==== Proof.SpecRow.lean ====
/-
  The cell at ONE node: everything after the graph convolutions is a function of that node's three
  convolution rows and its state row alone.  The whole-array specification is this function at every node.
-/
import proofs.«109611_j74380243632619_2_alg».proof.Proof.Spec

noncomputable section

open scoped BigOperators

namespace Cert.Tgcn

open Idealize.ShloMosaic

/-- A gate's affine map on one node's rows `c` and `u`, its weight matrix given as the half that meets `c`
    (`top`) and the half that meets `u` (`bot`). -/
def rlin (c u : Fin 32 → EReal) (top bot : Fin 32 → Fin 32 → EReal) (Lb : Fin 32 → EReal) (j : Fin 32) : EReal :=
  ((∑ k : Fin 32, c k * top k j) + (∑ k : Fin 32, u k * bot k j)) + Lb j

/-- The gates' weights, each matrix as its two halves, and the read-out's. -/
structure Weights where
  zt : Fin 32 → Fin 32 → EReal
  zb : Fin 32 → Fin 32 → EReal
  zbias : Fin 32 → EReal
  rt : Fin 32 → Fin 32 → EReal
  rb : Fin 32 → Fin 32 → EReal
  rbias : Fin 32 → EReal
  ht : Fin 32 → Fin 32 → EReal
  hb : Fin 32 → Fin 32 → EReal
  hbias : Fin 32 → EReal
  linW : Fin 32 → Fin 10 → EReal
  linb : Fin 10 → EReal

/-- One node's data: its convolution rows for the three gates and its state row. -/
structure Row where
  cz : Fin 32 → EReal
  cr : Fin 32 → EReal
  ch : Fin 32 → EReal
  hh : Fin 32 → EReal

variable (w : Weights) (r : Row)

def rowZ (j : Fin 32) : EReal := Ideal.logistic (rlin r.cz r.hh w.zt w.zb w.zbias j)
def rowR (j : Fin 32) : EReal := Ideal.logistic (rlin r.cr r.hh w.rt w.rb w.rbias j)
def rowHt (j : Fin 32) : EReal := Ideal.tanh (rlin r.ch (fun k => r.hh k * rowR w r k) w.ht w.hb w.hbias j)
def rowHnew (j : Fin 32) : EReal := rowZ w r j * r.hh j + (one - rowZ w r j) * rowHt w r j
def rowHact (j : Fin 32) : EReal := Ideal.div (rowHnew w r j) (rowHnew w r j * rowHnew w r j + one)
def rowYhat (c : Fin 10) : EReal := (∑ k : Fin 32, rowHact w r k * w.linW k c) + w.linb c

/-- The weights of the whole-array specification, halved. -/
def weightsOf (P : Params) : Weights where
  zt k j := P.LzW (lo k) j
  zb k j := P.LzW (hi k) j
  zbias := P.Lzb
  rt k j := P.LrW (lo k) j
  rb k j := P.LrW (hi k) j
  rbias := P.Lrb
  ht k j := P.LhW (lo k) j
  hb k j := P.LhW (hi k) j
  hbias := P.Lhb
  linW := P.linW
  linb := P.linb

/-- Node `n`'s rows in the whole-array specification. -/
def rowOf (G : Graph) (P : Params) (n : Fin 100000) : Row where
  cz := conv G (proj P.x P.Wz) P.bz n
  cr := conv G (proj P.x P.Wr) P.br n
  ch := conv G (proj P.x P.Wh) P.bh n
  hh := P.h n

/-- The whole-array specification is the one-node cell at every node. -/
theorem hact_eq_row (G : Graph) (P : Params) (n : Fin 100000) (j : Fin 32) :
    hact G P n j = rowHact (weightsOf P) (rowOf G P n) j := rfl

theorem yhat_eq_row (G : Graph) (P : Params) (n : Fin 100000) (c : Fin 10) :
    yhat G P n c = rowYhat (weightsOf P) (rowOf G P n) c := rfl

end Cert.Tgcn

end
-- ==== Proof.KV.Pay1.lean ====
/-
  The two values the cell's body stores, at an entry, are the one-node cell of the specification.

  Row p of what the body stores at columns 0 .. 31 is the activated new state of the node whose three convolution rows
  are the three 32-column groups of row p of the loaded block and whose state row is row p of the loaded state; row p of
  what it stores at columns 32 .. 41 is that node's read-out. The gates' matrices and biases are the body's other loads.
-/
import proofs.«109611_j74380243632619_2_alg».proof.Proof.KV.Gates
import proofs.«109611_j74380243632619_2_alg».proof.Proof.SpecRow

noncomputable section

open scoped BigOperators

namespace Cert.KernelIdeal.KValue

open Idealize.ShloMosaic Idealize.ShloMosaic.ValueIdx
open Cert.KernelIdeal Cert.KernelIdeal.Gen

/-- A product with a 32×32 matrix that went through a shape cast to its own shape, at (p, j). -/
theorem mm32_cast_apply (h32 : S32x32.ShapeCasts S32x32) (X : FVec Ideal S10000x32 .f32) (A : Vec Ideal S32x32 .f32)
    (p : Fin 10000) (j : Fin 32) :
    matmul dot_S10000x32_S32x32_S10000x32_1_0_0_1_n_n none X (shapeCast S32x32 A h32 : FVec Ideal S32x32 .f32)
        (constant (F := Ideal) S10000x32 .f32 0x00000000#32) (ix2 p j)
      = ∑ k : Fin 32, X (ix2 p k) * A (ix2 k j) := by
  rw [shapeCast_self]; exact mm32_apply X A p j

/-- A 32-entry bias row, through a shape cast to its own shape, broadcast over the rows, at (p, j). -/
theorem bias32_cast_apply (h1 : S1x32.ShapeCasts S1x32) (hb : S1x32.Broadcasts S10000x32) (b : Vec Ideal S1x32 .f32)
    (p : Fin 10000) (j : Fin 32) :
    broadcastTo S10000x32 (shapeCast S1x32 b h1 : FVec Ideal S1x32 .f32) hb (ix2 p j) = b (ix2 0 j) := by
  rw [shapeCast_self]; exact bias32_apply b hb p j

/-- A 10-entry bias row, through a shape cast to its own shape, broadcast over the rows, at (p, c). -/
theorem bias10_cast_apply (h1 : S1x10.ShapeCasts S1x10) (hb : S1x10.Broadcasts S10000x10) (b : Vec Ideal S1x10 .f32)
    (p : Fin 10000) (c : Fin 10) :
    broadcastTo S10000x10 (shapeCast S1x10 b h1 : FVec Ideal S1x10 .f32) hb (ix2 p c) = b (ix2 0 c) := by
  rw [shapeCast_self]; exact bias10_apply b hb p c

/-- The new state from the update gate z, the state h and the candidate's affine value a, and its activation:
    n = z * h + (1 - z) * tanh a, stored as n / (n * n + 1); the 1 is the word the body broadcasts. -/
def act (z h a : EReal) : EReal :=
  Ideal.div (z * h + (Cert.Tgcn.one - z) * Ideal.tanh a)
    ((z * h + (Cert.Tgcn.one - z) * Ideal.tanh a) * (z * h + (Cert.Tgcn.one - z) * Ideal.tanh a) + Cert.Tgcn.one)

/-- The value stored at columns 0 .. 31, over any update gate Z, gated state HR and convolution part C. -/
theorem pay1_form (v0 : Vec Ideal S10000x32 .f32) (Z HR C : FVec Ideal S10000x32 .f32) (v34 : Vec Ideal S32x32 .f32)
    (v38 : Vec Ideal S1x32 .f32) (p : Fin 10000) (j : Fin 32) :
    k1_pay1 (F := Ideal) v0 Z HR C v34 v38 (ix2 p j)
      = act (Z (ix2 p j)) (v0 (ix2 p j))
          ((C (ix2 p j) + ∑ k : Fin 32, HR (ix2 p k) * v34 (ix2 k j)) + v38 (ix2 0 j)) := by
  unfold k1_pay1
  exact congrArg₂ (fun m b : EReal => act (Z (ix2 p j)) (v0 (ix2 p j)) ((C (ix2 p j) + m) + b))
    (mm32_cast_apply _ HR v34 p j) (bias32_cast_apply _ _ v38 p j)

/-- The value stored at columns 32 .. 41: the stored state times the read-out matrix plus the read-out bias. -/
theorem pay2_form (v0 : Vec Ideal S10000x32 .f32) (Z HR C : FVec Ideal S10000x32 .f32) (v34 : Vec Ideal S32x32 .f32)
    (v38 : Vec Ideal S1x32 .f32) (v52 : Vec Ideal S32x10 .f32) (v54 : Vec Ideal S1x10 .f32) (p : Fin 10000) (c : Fin 10) :
    k1_pay2 (F := Ideal) v0 Z HR C v34 v38 v52 v54 (ix2 p c)
      = (∑ k : Fin 32, k1_pay1 (F := Ideal) v0 Z HR C v34 v38 (ix2 p k) * v52 (ix2 k c)) + v54 (ix2 0 c) := by
  unfold k1_pay2
  exact congrArg₂ (fun m b : EReal => m + b)
    (mm10_apply (k1_pay1 (F := Ideal) v0 Z HR C v34 v38) v52 p c) (bias10_cast_apply _ _ v54 p c)

variable (v0 : Vec Ideal S10000x32 .f32) (v1 : Vec Ideal S10000x96 .f32) (v6 v9 : Vec Ideal S32x32 .f32)
  (v13 : Vec Ideal S1x32 .f32) (v18 v21 : Vec Ideal S32x32 .f32) (v25 : Vec Ideal S1x32 .f32)
  (v31 v34 : Vec Ideal S32x32 .f32) (v38 : Vec Ideal S1x32 .f32) (v52 : Vec Ideal S32x10 .f32) (v54 : Vec Ideal S1x10 .f32)

/-- the gates' weights as the body's loads give them -/
def wts : Cert.Tgcn.Weights :=
  { zt := fun k j => v6 (ix2 k j), zb := fun k j => v9 (ix2 k j), zbias := fun j => v13 (ix2 0 j),
    rt := fun k j => v18 (ix2 k j), rb := fun k j => v21 (ix2 k j), rbias := fun j => v25 (ix2 0 j),
    ht := fun k j => v31 (ix2 k j), hb := fun k j => v34 (ix2 k j), hbias := fun j => v38 (ix2 0 j),
    linW := fun k c => v52 (ix2 k c), linb := fun c => v54 (ix2 0 c) }

/-- row p of the block: the three 32-column groups of the [10000,96] load and the state row -/
def row (p : Fin 10000) : Cert.Tgcn.Row :=
  { cz := fun k => v1 (ix2 p ⟨k.val, by omega⟩), cr := fun k => v1 (ix2 p ⟨32 + k.val, by omega⟩),
    ch := fun k => v1 (ix2 p ⟨64 + k.val, by omega⟩), hh := fun k => v0 (ix2 p k) }

/-- What the body stores at columns 0 .. 31, at (p, j), is the activated new state of the node of row p. -/
theorem pay1_apply (p : Fin 10000) (j : Fin 32) :
    k1_pay1 (F := Ideal) v0 (k1_pay4 v0 v1 v6 v9 v13) (k1_pay5 v0 v1 v18 v21 v25) (k1_pay6 v1 v31) v34 v38 (ix2 p j)
      = Cert.Tgcn.rowHact (wts v6 v9 v13 v18 v21 v25 v31 v34 v38 v52 v54) (row v0 v1 p) j := by
  refine (pay1_form v0 _ _ _ v34 v38 p j).trans ?_
  rw [pay4_apply, pay6_apply]
  simp only [pay5_apply]
  rfl

/-- What the body stores at columns 32 .. 41, at (p, c), is the read-out of the node of row p. -/
theorem pay2_apply (p : Fin 10000) (c : Fin 10) :
    k1_pay2 (F := Ideal) v0 (k1_pay4 v0 v1 v6 v9 v13) (k1_pay5 v0 v1 v18 v21 v25) (k1_pay6 v1 v31) v34 v38 v52 v54 (ix2 p c)
      = Cert.Tgcn.rowYhat (wts v6 v9 v13 v18 v21 v25 v31 v34 v38 v52 v54) (row v0 v1 p) c := by
  refine (pay2_form v0 _ _ _ v34 v38 v52 v54 p c).trans ?_
  simp only [pay1_apply v0 v1 v6 v9 v13 v18 v21 v25 v31 v34 v38 v52 v54]
  rfl

end Cert.KernelIdeal.KValue

end
-- ==== Proof.Params.lean ====
/-
  The cell's arrays as the functions of coordinates the specification is written over.
-/
import proofs.«109611_j74380243632619_2_alg».proof.Proof.Graph

noncomputable section

namespace Cert.Tgcn

open Idealize.ShloMosaic Idealize.ShloMosaic.ValueIdx

/-- A matrix as a function of its row and its column. -/
def fun2 {a b : ℕ} {φ : FTy} (v : FVec Ideal (⟨2, ![a, b]⟩ : Shape) φ) : Fin a → Fin b → EReal :=
  fun p q => v (ix2 p q)

/-- A vector as a function of its position. -/
def fun1 {a : ℕ} {φ : FTy} (v : FVec Ideal (⟨1, ![a]⟩ : Shape) φ) : Fin a → EReal :=
  fun p => v (ix1 p)

/-- A function of a row and a column as a matrix. -/
def mat {a b : ℕ} (f : Fin a → Fin b → EReal) : (⟨2, ![a, b]⟩ : Shape).Idx → EReal :=
  fun j => f (j 0) (j 1)

theorem mat_ix2 {a b : ℕ} (f : Fin a → Fin b → EReal) (p : Fin a) (q : Fin b) : mat f (ix2 p q) = f p q := rfl

/-- The sixteen float arrays of the cell, in the order the programs take them (the node features, the state, then
    per gate the convolution's weight and bias, then per gate the affine map's weight and bias, then the read-out's). -/
def paramsOf
    (x : FVec Ideal (⟨2, ![100000, 64]⟩ : Shape) .f32) (h : FVec Ideal (⟨2, ![100000, 32]⟩ : Shape) .f32)
    (Wz : FVec Ideal (⟨2, ![64, 32]⟩ : Shape) .f32) (bz : FVec Ideal (⟨1, ![32]⟩ : Shape) .f32)
    (Wr : FVec Ideal (⟨2, ![64, 32]⟩ : Shape) .f32) (br : FVec Ideal (⟨1, ![32]⟩ : Shape) .f32)
    (Wh : FVec Ideal (⟨2, ![64, 32]⟩ : Shape) .f32) (bh : FVec Ideal (⟨1, ![32]⟩ : Shape) .f32)
    (LzW : FVec Ideal (⟨2, ![64, 32]⟩ : Shape) .f32) (Lzb : FVec Ideal (⟨1, ![32]⟩ : Shape) .f32)
    (LrW : FVec Ideal (⟨2, ![64, 32]⟩ : Shape) .f32) (Lrb : FVec Ideal (⟨1, ![32]⟩ : Shape) .f32)
    (LhW : FVec Ideal (⟨2, ![64, 32]⟩ : Shape) .f32) (Lhb : FVec Ideal (⟨1, ![32]⟩ : Shape) .f32)
    (linW : FVec Ideal (⟨2, ![32, 10]⟩ : Shape) .f32) (linb : FVec Ideal (⟨1, ![10]⟩ : Shape) .f32) : Params where
  x := fun2 x
  h := fun2 h
  Wz := fun2 Wz
  bz := fun1 bz
  Wr := fun2 Wr
  br := fun1 br
  Wh := fun2 Wh
  bh := fun1 bh
  LzW := fun2 LzW
  Lzb := fun1 Lzb
  LrW := fun2 LrW
  Lrb := fun1 Lrb
  LhW := fun2 LhW
  Lhb := fun1 Lhb
  linW := fun2 linW
  linb := fun1 linb

/-- The word of `1.0` is the number one. -/
theorem one_eq : one = 1 := by
  have h1 : ((0x3F800000#32 : BitVec 32).extractLsb' (8 + 23) 1 == 1#1) = false := by decide
  have h2 : ((0x3F800000#32 : BitVec 32).extractLsb' 23 8).toNat = 127 := by decide
  have h3 : ((0x3F800000#32 : BitVec 32).extractLsb' 0 23).toNat = 0 := by decide
  show Ideal.ieee 8 23 (0x3F800000#32 : BitVec 32) = 1
  unfold Ideal.ieee
  simp only [h1, h2, h3]
  norm_num

end Cert.Tgcn

end
-- ==== Proof.KV.Cols.lean ====
/-
  How the program's joined arrays meet the specification, column by column.

  The projected features for all three gates are `x · [Wz | Wr | Wh]`, so column `32·g + j` of them is gate
  `g`'s projection at `j`; the host aggregation acts on every column alike, so column `32·g + j` of the
  aggregated array is gate `g`'s graph convolution at `j`; and the gates' weight matrices, which the program
  cuts into their first and last 32 rows, are the halves the specification names.
-/
import proofs.«109611_j74380243632619_2_alg».proof.Proof.KV.Host1
import proofs.«109611_j74380243632619_2_alg».proof.Proof.KV.Concat
import proofs.«109611_j74380243632619_2_alg».proof.Proof.KV.Pay1
import proofs.«109611_j74380243632619_2_alg».proof.Proof.Params
import proofs.«109611_j74380243632619_2_alg».proof.Proof.SpecRow
import Idealize.ShloMosaic.Lib.ValueLayout

noncomputable section

open scoped BigOperators

namespace Cert.KernelIdeal.KValue

open Idealize.ShloMosaic Idealize.ShloMosaic.ValueIdx Cert.KernelIdeal Cert.KernelIdeal.Facts₀ Cert.Tgcn

/-- The projected features for all three gates: the matrix product `x · Wall`, entry by entry. -/
def xwAll (x : FVec Ideal S100000x64 .f32) (Wall : FVec Ideal S64x96 .f32) : FVec Ideal S100000x96 .f32 :=
  fun i => ∑ k : Fin 64, x (ix2 (i 0) k) * Wall (ix2 k (i 1))

variable (x : FVec Ideal S100000x64 .f32) (Wz Wr Wh : FVec Ideal S64x32 .f32) (bz br bh : FVec Ideal S32 .f32)
  (ei : EdgeList) (ew : EdgeWeights)

/-- Columns 0 … 31 of the joined projection are the update gate's. -/
theorem xwAll_z (n : Fin 100000) (j : Fin 32) :
    xwAll x (joinW Wz Wr Wh) (ix2 n ⟨j.val, by omega⟩) = proj (fun2 x) (fun2 Wz) n j :=
  Finset.sum_congr rfl fun k _ => congrArg (x (ix2 n k) * ·) (joinW_z Wz Wr Wh k j)

/-- Columns 32 … 63 are the reset gate's. -/
theorem xwAll_r (n : Fin 100000) (j : Fin 32) :
    xwAll x (joinW Wz Wr Wh) (ix2 n ⟨32 + j.val, by omega⟩) = proj (fun2 x) (fun2 Wr) n j :=
  Finset.sum_congr rfl fun k _ => congrArg (x (ix2 n k) * ·) (joinW_r Wz Wr Wh k j)

/-- Columns 64 … 95 are the candidate's. -/
theorem xwAll_h (n : Fin 100000) (j : Fin 32) :
    xwAll x (joinW Wz Wr Wh) (ix2 n ⟨64 + j.val, by omega⟩) = proj (fun2 x) (fun2 Wh) n j :=
  Finset.sum_congr rfl fun k _ => congrArg (x (ix2 n k) * ·) (joinW_h Wz Wr Wh k j)

/-- The aggregation acts column by column: on a group of columns `q j` where the projected array is `pw` and the
    bias is `pb`, it is the graph convolution of `pw` with bias `pb`. -/
theorem conv_col (xw : FVec Ideal S100000x96 .f32) (ball : FVec Ideal S96 .f32)
    (pw : Fin 100000 → Fin 32 → EReal) (pb : Fin 32 → EReal) (q : Fin 32 → Fin 96)
    (hxw : ∀ n j, xw (ix2 n (q j)) = pw n j) (hb : ∀ j, ball (ix1 (q j)) = pb j) (n : Fin 100000) (j : Fin 32) :
    convAll xw ei ew ball (ix2 n (q j)) = conv (graphOf ei ew) pw pb n j := by
  refine (convAll_apply xw ei ew ball n (q j)).trans ?_
  unfold conv
  refine congrArg₂ (· + ·) (congrArg₂ (· + ·) (Finset.sum_congr rfl fun e _ => ?_) ?_) (hb j)
  · exact congrArg (· * (graphOf ei ew).norm e) (hxw ((graphOf ei ew).src e) j)
  · exact congrArg ((graphOf ei ew).self n * ·) (hxw n j)

/-- The aggregated array of the program, `conv_all`. -/
abbrev convJoined : FVec Ideal S100000x96 .f32 :=
  convAll (xwAll x (joinW Wz Wr Wh)) ei ew (joinB bz br bh)

theorem convJoined_z (n : Fin 100000) (j : Fin 32) :
    convJoined x Wz Wr Wh bz br bh ei ew (ix2 n ⟨j.val, by omega⟩) = conv (graphOf ei ew) (proj (fun2 x) (fun2 Wz)) (fun1 bz) n j :=
  conv_col ei ew _ _ _ _ (fun j => ⟨j.val, by omega⟩) (xwAll_z x Wz Wr Wh) (joinB_z bz br bh) n j

theorem convJoined_r (n : Fin 100000) (j : Fin 32) :
    convJoined x Wz Wr Wh bz br bh ei ew (ix2 n ⟨32 + j.val, by omega⟩) = conv (graphOf ei ew) (proj (fun2 x) (fun2 Wr)) (fun1 br) n j :=
  conv_col ei ew _ _ _ _ (fun j => ⟨32 + j.val, by omega⟩) (xwAll_r x Wz Wr Wh) (joinB_r bz br bh) n j

theorem convJoined_h (n : Fin 100000) (j : Fin 32) :
    convJoined x Wz Wr Wh bz br bh ei ew (ix2 n ⟨64 + j.val, by omega⟩) = conv (graphOf ei ew) (proj (fun2 x) (fun2 Wh)) (fun1 bh) n j :=
  conv_col ei ew _ _ _ _ (fun j => ⟨64 + j.val, by omega⟩) (xwAll_h x Wz Wr Wh) (joinB_h bz br bh) n j

/-! ## The gates' weights -/

/-- The first 32 rows of a gate's weight matrix. -/
theorem top_apply (L : FVec Ideal S64x32 .f32) (k j : Fin 32) :
    extractStridedSlice S32x32 ![0, 0] L slices_S64x32_S32x32_0_0 (ix2 k j) = fun2 L (lo k) j :=
  slice2_axis0_apply 0 L slices_S64x32_S32x32_0_0 k j (lo k) (Nat.zero_add _).symm

/-- The last 32 rows of a gate's weight matrix. -/
theorem bot_apply (L : FVec Ideal S64x32 .f32) (k j : Fin 32) :
    extractStridedSlice S32x32 ![32, 0] L slices_S64x32_S32x32_32_0 (ix2 k j) = fun2 L (hi k) j :=
  slice2_axis0_apply 32 L slices_S64x32_S32x32_32_0 k j (hi k) rfl

/-- A gate's bias laid as a row. -/
theorem biasrow_apply (b : FVec Ideal S32 .f32) (j : Fin 32) :
    shapeCast S1x32 b shapeCasts_S32_S1x32 (ix2 0 j) = fun1 b j :=
  shapeCast_a_1a_apply b shapeCasts_S32_S1x32 0 j

/-- The read-out's bias laid as a row. -/
theorem biasrow10_apply (b : FVec Ideal S10 .f32) (c : Fin 10) :
    shapeCast S1x10 b shapeCasts_S10_S1x10 (ix2 0 c) = fun1 b c :=
  shapeCast_a_1a_apply b shapeCasts_S10_S1x10 0 c

/-- The weights the second kernel is handed — each gate's matrix cut into its first and last 32 rows, each bias laid as
    a row — are the halves the specification names. -/
theorem wts_eq (hA : FVec Ideal S100000x32 .f32) (LzW LrW LhW : FVec Ideal S64x32 .f32) (Lzb Lrb Lhb : FVec Ideal S32 .f32)
    (linW : FVec Ideal S32x10 .f32) (linb : FVec Ideal S10 .f32) :
    wts (extractStridedSlice S32x32 ![0, 0] LzW slices_S64x32_S32x32_0_0) (extractStridedSlice S32x32 ![32, 0] LzW slices_S64x32_S32x32_32_0)
        (shapeCast S1x32 Lzb shapeCasts_S32_S1x32)
        (extractStridedSlice S32x32 ![0, 0] LrW slices_S64x32_S32x32_0_0) (extractStridedSlice S32x32 ![32, 0] LrW slices_S64x32_S32x32_32_0)
        (shapeCast S1x32 Lrb shapeCasts_S32_S1x32)
        (extractStridedSlice S32x32 ![0, 0] LhW slices_S64x32_S32x32_0_0) (extractStridedSlice S32x32 ![32, 0] LhW slices_S64x32_S32x32_32_0)
        (shapeCast S1x32 Lhb shapeCasts_S32_S1x32)
        linW (shapeCast S1x10 linb shapeCasts_S10_S1x10)
      = weightsOf (paramsOf x hA Wz bz Wr br Wh bh LzW Lzb LrW Lrb LhW Lhb linW linb) := by
  unfold wts weightsOf paramsOf
  simp only [top_apply, bot_apply, biasrow_apply, biasrow10_apply]
  rfl

end Cert.KernelIdeal.KValue

end
-- ==== Proof.KV.Blocks0.lean ====
/-
  The projection's result array after its pipeline is the matrix product of its two operand arrays.

  The pipeline runs over five points. Point t reads rows 20000 t .. 20000 t + 19999 of the [100000,64] operand and the whole
  [64,96] operand, and writes back rows 20000 t .. 20000 t + 19999 of the [100000,96] result: their product. Entry (p, q) of
  what point t writes back is the sum over k of block (p, k) times operand (k, q), which is entry (20000 t + p, q) of the
  product of the whole arrays. The five row blocks tile the result (row r lies in block r / 20000), so the result array
  ends holding the product everywhere.
-/
import proofs.«109611_j74380243632619_2_alg».proof.Proof.KI.Region0
import proofs.«109611_j74380243632619_2_alg».proof.Proof.LibPlainMatmul
import Idealize.ShloMosaic.Lib.Pipeline.Value
import Idealize.ShloMosaic.Lib.ValueLayout

noncomputable section

open scoped BigOperators

namespace Cert.KernelIdeal.KValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The zero offsets of a whole-block access, as the constant function. -/
theorem offsets_zero : (![0, 0] : Fin 2 → Nat) = fun _ => 0 := funext fun a => by fin_cases a <;> rfl

/-- A [20000,64] block times the [64,96] operand into the zero accumulator: at (p, q) the sum over k of
    lhs (p, k) * rhs (k, q). -/
theorem mm64_apply (X : FVec Ideal S20000x64 .f32) (A : FVec Ideal S64x96 .f32) (p : Fin 20000) (q : Fin 96) :
    matmul dot_S20000x64_S64x96_S20000x96_1_0_0_1_n_n none X A (constant (F := Ideal) S20000x96 .f32 0x00000000#32) (ix2 p q)
      = ∑ k : Fin 64, X (ix2 p k) * A (ix2 k q) :=
  PlainMatmul.plain_matmul_zero_apply 20000 64 96 none X A p q

/-- The body's stored value at an entry of the block. -/
theorem pay0_apply (v0 : Vec Ideal S20000x64 .f32) (v1 : Vec Ideal S64x96 .f32) (y : S20000x96.Idx) :
    k0_pay1 (F := Ideal) v0 v1 y = ∑ k : Fin 64, v0 (ix2 (y 0) k) * v1 (ix2 k (y 1)) := by
  obtain ⟨p, q, rfl⟩ : ∃ (p : Fin 20000) (q : Fin 96), y = ix2 p q := ⟨y 0, y 1, eq_ix2 y⟩
  unfold k0_pay1
  rw [shapeCast_self]
  exact mm64_apply v0 v1 p q

/-- The windows' block indices over the grid: the first operand and the result move by one row block per point, the
    second operand stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- the TensorCore's buffer contents when the region is entered
variable (V : (c : Dev nD) → (b : Ref sig .tc) → Buf (Elt Ideal) ((c : Thread nD τ).loc b))

/-- The first operand's block at point t, at x, is the operand at row 20000 t + x 0, column x 1. -/
theorem iblk0_0_apply (c : Dev nD) (t : Fin cfg0.N) (x : S20000x64.Idx) (i : S100000x64.Idx)
    (h0 : (i 0).val = t.val * 20000 + (x 0).val) (h1 : (i 1).val = (x 1).val) :
    (iblk0 V c 0 t : Vec Ideal S20000x64 .f32) x = (V c main_arg0 : S100000x64.Idx → EReal) i := by
  obtain ⟨e0, e1, -, -, -, -⟩ := idx_facts0 t
  unfold iblk0
  show V c main_arg0 (((cfg0.win 0).blk t).view.emb x) = V c main_arg0 i
  refine congrArg (V c main_arg0) (funext fun a => Fin.ext ?_)
  match a with
  | ⟨0, _⟩ => show win0_0.index t (0 : Fin 2) * 20000 + 1 * (x 0).val = (i 0).val; omega
  | ⟨1, _⟩ => show win0_0.index t (1 : Fin 2) * 64 + 1 * (x 1).val = (i 1).val; omega

/-- The second operand's block at any point is the operand. -/
theorem iblk0_1_apply (c : Dev nD) (t : Fin cfg0.N) (x : S64x96.Idx) (i : S64x96.Idx)
    (h0 : (i 0).val = (x 0).val) (h1 : (i 1).val = (x 1).val) :
    (iblk0 V c 1 t : Vec Ideal S64x96 .f32) x = (V c main_v4 : S64x96.Idx → EReal) i := by
  obtain ⟨-, -, e2, e3, -, -⟩ := idx_facts0 t
  unfold iblk0
  show V c main_v4 (((cfg0.win 1).blk t).view.emb x) = V c main_v4 i
  refine congrArg (V c main_v4) (funext fun a => Fin.ext ?_)
  match a with
  | ⟨0, _⟩ => show win0_1.index t (0 : Fin 2) * 64 + 1 * (x 0).val = (i 0).val; omega
  | ⟨1, _⟩ => show win0_1.index t (1 : Fin 2) * 96 + 1 * (x 1).val = (i 1).val; omega

/-- The product of the two operand arrays, entry by entry. -/
def prod0 (a : S100000x64.Idx → EReal) (b : S64x96.Idx → EReal) : S100000x96.Idx → EReal :=
  fun i => ∑ k : Fin 64, a (ix2 (i 0) k) * b (ix2 k (i 1))

/-- The product at an entry. -/
theorem prod0_apply (a : S100000x64.Idx → EReal) (b : S64x96.Idx → EReal) (i : S100000x96.Idx) :
    prod0 a b i = ∑ k : Fin 64, a (ix2 (i 0) k) * b (ix2 k (i 1)) := rfl

/-- What point t writes back is block t of the product of the operand arrays as the region finds them. -/
theorem flushed0_eq (c : Dev nD) (t : Fin cfg0.N) :
    (dat0 V c).flushed 2 t = ((cfg0.win 2).blk t).view.read (Elt Ideal) (prod0 (V c main_arg0) (V c main_v4)) := by
  show (cfg0.win 2).cut (grid0.coords t) ((dat0 V c).after 2 t) = _
  rw [after0_2]
  unfold out0_2
  rw [View.canon_unit_zero offsets_zero]
  simp only [View.ld_unit_zero (S := S20000x64) offsets_zero, View.ld_unit_zero (S := S64x96) offsets_zero]
  obtain ⟨-, -, -, -, e4, e5⟩ := idx_facts0 t
  funext y
  show k0_pay1 (F := Ideal) (iblk0 V c 0 t) (iblk0 V c 1 t) y
    = prod0 (V c main_arg0) (V c main_v4) (((cfg0.win 2).blk t).view.emb y)
  refine (pay0_apply _ _ y).trans ?_
  refine Finset.sum_congr rfl fun k _ => ?_
  refine congrArg₂ (· * ·) (iblk0_0_apply V c t _ _ ?_ rfl) (iblk0_1_apply V c t _ _ rfl ?_)
  · show win0_2.index t (0 : Fin 2) * 20000 + 1 * (y 0).val = t.val * 20000 + (y 0).val
    omega
  · show win0_2.index t (1 : Fin 2) * 96 + 1 * (y 1).val = (y 1).val
    omega

/-- An entry of the result array is in point t's block iff each coordinate is in the block's range on its axis. -/
theorem mem_blk0 (t : Fin cfg0.N) (i : S100000x96.Idx) :
    i ∈ ((cfg0.win 2).blk t).view.set ↔ ∀ a : Fin 2, win0_2.index t a * S20000x96.size a ≤ (i a).val
      ∧ (i a).val < win0_2.index t a * S20000x96.size a + S20000x96.size a := by
  show i ∈ ((View.whole main_v6).slice (win0_2.rect t)).set ↔ _
  rw [View.set_slice_whole, Rect.mem_set_unit]
  exact Iff.rfl

/-- Every entry of the result array is in some point's block: row r is in block r / 20000. -/
theorem cover0 (i : S100000x96.Idx) :
    ∃ t : Fin cfg0.N, (cfg0.win 2).flush t = true ∧ i ∈ ((cfg0.win 2).blk t).view.set := by
  have hi0 : (i 0).val < 100000 := (i 0).isLt
  have hi1 : (i 1).val < 96 := (i 1).isLt
  have hN : grid0.N = 5 := N_0
  let t : Fin cfg0.N := ⟨(i 0).val / 20000, by show (i 0).val / 20000 < grid0.N; omega⟩
  obtain ⟨-, -, -, -, e4, e5⟩ := idx_facts0 t
  have ht : t.val = (i 0).val / 20000 := rfl
  refine ⟨t, flush0_2 t, ?_⟩
  rw [mem_blk0]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 96 ≤ (i 1).val ∧ (i 1).val < win0_2.index t (1 : Fin 2) * 96 + 96; omega

/-- The result array after the pipeline: the product of the operand arrays as the region finds them. -/
theorem final0 (c : Dev nD) : (dat0 V c).arrAt 2 cfg0.N = prod0 (V c main_arg0) (V c main_v4) :=
  (dat0 V c).arrAt_eq_of_cover 2 (prod0 (V c main_arg0) (V c main_v4)) (fun t _ => flushed0_eq V c t) cover0

end Cert.KernelIdeal.KValue

end
-- ==== Proof.KV.Blocks1.lean ====
/-
  The cell's result array after its pipeline holds, row by row, the one-node cell of the specification.

  The pipeline runs over ten points. Point t reads rows 10000 t .. 10000 t + 9999 of the [100000,96] array of convolution
  rows and of the [100000,32] state, and the whole of the eleven weight arrays, and writes back rows
  10000 t .. 10000 t + 9999 of the [100000,42] result. The body stores two column bands into the block: the activated new
  state at columns 0 .. 31 and the read-out at columns 32 .. 41; together they cover it, so entry (p, q) of the block is
  the band's value at (p, q) resp. (p, q - 32), which is the one-node cell of row p of the blocks: of row 10000 t + p of the
  arrays. The ten row blocks tile the result (row r lies in block r / 10000), so the result array ends holding the cell of
  every node.
-/
import proofs.«109611_j74380243632619_2_alg».proof.Proof.KI.Region1
import proofs.«109611_j74380243632619_2_alg».proof.Proof.KV.Pay1
import Idealize.ShloMosaic.Lib.Pipeline.Value

noncomputable section

open scoped BigOperators

namespace Cert.KernelIdeal.KValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The zero offsets of a whole-block access, as the constant function. -/
theorem offsets_zero1 : (![0, 0] : Fin 2 → Nat) = fun _ => 0 := funext fun a => by fin_cases a <;> rfl

/-! ## One node's stored values, by column -/

/-- One node's stored values by column: the activated new state at columns 0 .. 31, the read-out at columns 32 .. 41. -/
def cellAt (W : Cert.Tgcn.Weights) (R : Cert.Tgcn.Row) (col : Nat) (hcol : col < 42) : EReal :=
  if h : col < 32 then Cert.Tgcn.rowHact W R ⟨col, h⟩ else Cert.Tgcn.rowYhat W R ⟨col - 32, by omega⟩

theorem cellAt_lt (W : Cert.Tgcn.Weights) (R : Cert.Tgcn.Row) (col : Nat) (hcol : col < 42) (h : col < 32) :
    cellAt W R col hcol = Cert.Tgcn.rowHact W R ⟨col, h⟩ := dif_pos h

theorem cellAt_ge (W : Cert.Tgcn.Weights) (R : Cert.Tgcn.Row) (col : Nat) (hcol : col < 42) (h : ¬col < 32) :
    cellAt W R col hcol = Cert.Tgcn.rowYhat W R ⟨col - 32, by omega⟩ := dif_neg h

theorem cellAt_congr {W : Cert.Tgcn.Weights} {R R' : Cert.Tgcn.Row} {col col' : Nat} (hR : R = R') (hc : col = col')
    (h : col < 42) (h' : col' < 42) : cellAt W R col h = cellAt W R' col' h' := by
  subst hR hc; rfl

/-- Row n of the arrays: the three 32-column groups of the [100000,96] array of convolution rows and the state row. -/
def rowG (hA : FVec Ideal S100000x32 .f32) (cv : FVec Ideal S100000x96 .f32) (n : Fin 100000) : Cert.Tgcn.Row :=
  { cz := fun k => cv (ix2 n ⟨k.val, by omega⟩), cr := fun k => cv (ix2 n ⟨32 + k.val, by omega⟩),
    ch := fun k => cv (ix2 n ⟨64 + k.val, by omega⟩), hh := fun k => hA (ix2 n k) }

/-- Row p of the blocks is row n of the arrays when the blocks' row p is the arrays' row n. -/
theorem row_eq_rowG (x1 : Vec Ideal S10000x32 .f32) (x0 : Vec Ideal S10000x96 .f32) (hA : FVec Ideal S100000x32 .f32)
    (cv : FVec Ideal S100000x96 .f32) (p : Fin 10000) (n : Fin 100000)
    (h1 : ∀ k : Fin 32, x1 (ix2 p k) = hA (ix2 n k)) (h0 : ∀ k : Fin 96, x0 (ix2 p k) = cv (ix2 n k)) :
    row x1 x0 p = rowG hA cv n := by
  unfold row rowG
  exact congr (congr (congr (congrArg Cert.Tgcn.Row.mk (funext fun k => h0 _)) (funext fun k => h0 _))
    (funext fun k => h0 _)) (funext fun k => h1 k)

/-! ## The body's output block at an entry -/

/-- What the body leaves in the output block, at entry (p, q): the cell of row p of the blocks at column q. An entry
    at a column below 32 is outside the read-out band, so it holds what the state band's store left; an entry at a
    column from 32 on is in the read-out band, whose store is the last one. -/
theorem out1_13_apply (x0 : Vec Ideal S10000x96 .f32) (x1 : Vec Ideal S10000x32 .f32) (x2 x3 : Vec Ideal S32x32 .f32)
    (x4 : Vec Ideal S1x32 .f32) (x5 x6 : Vec Ideal S32x32 .f32) (x7 : Vec Ideal S1x32 .f32) (x8 x9 : Vec Ideal S32x32 .f32)
    (x10 : Vec Ideal S1x32 .f32) (x11 : Vec Ideal S32x10 .f32) (x12 : Vec Ideal S1x10 .f32) (y : S10000x42.Idx) :
    out1_13 (F := Ideal) x0 x1 x2 x3 x4 x5 x6 x7 x8 x9 x10 x11 x12 y
      = cellAt (wts x2 x3 x4 x5 x6 x7 x8 x9 x10 x11 x12) (row x1 x0 (y 0)) (y 1).val (y 1).isLt := by
  obtain ⟨p, q, rfl⟩ : ∃ (p : Fin 10000) (q : Fin 42), y = ix2 p q := ⟨y 0, y 1, eq_ix2 y⟩
  show out1_13 (F := Ideal) x0 x1 x2 x3 x4 x5 x6 x7 x8 x9 x10 x11 x12 (ix2 p q)
      = cellAt (wts x2 x3 x4 x5 x6 x7 x8 x9 x10 x11 x12) (row x1 x0 p) q.val q.isLt
  unfold out1_13
  simp only [View.ld_unit_zero (S := S10000x96) offsets_zero1, View.ld_unit_zero (S := S10000x32) offsets_zero1,
    View.ld_unit_zero (S := S32x32) offsets_zero1, View.ld_unit_zero (S := S1x32) offsets_zero1,
    View.ld_unit_zero (S := S32x10) offsets_zero1, View.ld_unit_zero (S := S1x10) offsets_zero1]
  have hq : q.val < 42 := q.isLt
  by_cases h : q.val < 32
  · rw [cellAt_lt _ _ _ _ h]
    have hy : (ix2 p q : S10000x42.Idx) = r1_6.emb (ix2 p (⟨q.val, h⟩ : Fin 32)) := funext fun a => Fin.ext (by
      match a with
      | ⟨0, _⟩ => show p.val = 0 + 1 * p.val; omega
      | ⟨1, _⟩ => show q.val = 0 + 1 * q.val; omega)
    have hn : (ix2 p q : S10000x42.Idx) ∉ r1_7.set := by
      rw [Rect.mem_set_unit]
      intro hm
      have h1 : 32 ≤ q.val := (hm 1).1
      omega
    refine (View.canon_cons_of_not_mem (⟨r1_7, _⟩ : View.Piece (Elt Ideal) S10000x42 .f32) _ hn).trans ?_
    refine (congrArg (View.canon _) hy).trans ?_
    refine (View.canon_cons_emb r1_6 _ [] _).trans ?_
    exact pay1_apply x1 x0 x2 x3 x4 x5 x6 x7 x8 x9 x10 x11 x12 p ⟨q.val, h⟩
  · rw [cellAt_ge _ _ _ _ h]
    have hy : (ix2 p q : S10000x42.Idx) = r1_7.emb (ix2 p (⟨q.val - 32, by omega⟩ : Fin 10)) := funext fun a => Fin.ext (by
      match a with
      | ⟨0, _⟩ => show p.val = 0 + 1 * p.val; omega
      | ⟨1, _⟩ => show q.val = 32 + 1 * (q.val - 32); omega)
    refine (congrArg (View.canon _) hy).trans ?_
    refine (View.canon_cons_emb r1_7 _ _ _).trans ?_
    exact pay2_apply x1 x0 x2 x3 x4 x5 x6 x7 x8 x9 x10 x11 x12 p ⟨q.val - 32, by omega⟩

/-! ## The windows' blocks as parts of their arrays -/

/-- The row-blocked windows (the convolution rows, the state, the result) move by one row block per point. -/
theorem idx_rows1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_13.index t (0 : Fin 2) = t.val ∧ win1_13.index t (1 : Fin 2) = 0 :=
  (by decide +kernel : ∀ t : Fin grid1.N, _)

-- the TensorCore's buffer contents when the region is entered
variable (V : (c : Dev nD) → (b : Ref sig .tc) → Buf (Elt Ideal) ((c : Thread nD τ).loc b))

/-- The block of convolution rows at point t, at x, is the array at row 10000 t + x 0, column x 1. -/
theorem iblk1_0_apply (c : Dev nD) (t : Fin cfg1.N) (x : S10000x96.Idx) (i : S100000x96.Idx)
    (h0 : (i 0).val = t.val * 10000 + (x 0).val) (h1 : (i 1).val = (x 1).val) :
    (iblk1 V c 0 t : Vec Ideal S10000x96 .f32) x = (V c main_v51 : S100000x96.Idx → EReal) i := by
  obtain ⟨e0, e1, -, -, -, -⟩ := idx_rows1 t
  unfold iblk1
  show V c main_v51 (((cfg1.win 0).blk t).view.emb x) = V c main_v51 i
  refine congrArg (V c main_v51) (funext fun a => Fin.ext ?_)
  match a with
  | ⟨0, _⟩ => show win1_0.index t (0 : Fin 2) * 10000 + 1 * (x 0).val = (i 0).val; omega
  | ⟨1, _⟩ => show win1_0.index t (1 : Fin 2) * 96 + 1 * (x 1).val = (i 1).val; omega

/-- The state block at point t, at x, is the array at row 10000 t + x 0, column x 1. -/
theorem iblk1_1_apply (c : Dev nD) (t : Fin cfg1.N) (x : S10000x32.Idx) (i : S100000x32.Idx)
    (h0 : (i 0).val = t.val * 10000 + (x 0).val) (h1 : (i 1).val = (x 1).val) :
    (iblk1 V c 1 t : Vec Ideal S10000x32 .f32) x = (V c main_arg3 : S100000x32.Idx → EReal) i := by
  obtain ⟨-, -, e2, e3, -, -⟩ := idx_rows1 t
  unfold iblk1
  show V c main_arg3 (((cfg1.win 1).blk t).view.emb x) = V c main_arg3 i
  refine congrArg (V c main_arg3) (funext fun a => Fin.ext ?_)
  match a with
  | ⟨0, _⟩ => show win1_1.index t (0 : Fin 2) * 10000 + 1 * (x 0).val = (i 0).val; omega
  | ⟨1, _⟩ => show win1_1.index t (1 : Fin 2) * 32 + 1 * (x 1).val = (i 1).val; omega

/-- Window 2's block index is zero on both axes at every point: its block is its whole array. -/
theorem idx1_2 : ∀ t : Fin cfg1.N, win1_2.index t (0 : Fin 2) = 0 ∧ win1_2.index t (1 : Fin 2) = 0 :=
  (by decide +kernel : ∀ t : Fin grid1.N, _)

/-- So its block at any point is the array as the region finds it. -/
theorem iblk1_2_eq (c : Dev nD) (t : Fin cfg1.N) :
    (iblk1 V c 2 t : Vec Ideal S32x32 .f32) = (V c main_v52 : S32x32.Idx → EReal) := by
  obtain ⟨e0, e1⟩ := idx1_2 t
  funext x
  unfold iblk1
  show V c main_v52 (((cfg1.win 2).blk t).view.emb x) = V c main_v52 x
  refine congrArg (V c main_v52) (funext fun a => Fin.ext ?_)
  match a with
  | ⟨0, _⟩ => show win1_2.index t (0 : Fin 2) * 32 + 1 * (x 0).val = (x 0).val; omega
  | ⟨1, _⟩ => show win1_2.index t (1 : Fin 2) * 32 + 1 * (x 1).val = (x 1).val; omega

/-- Window 3's block index is zero on both axes at every point: its block is its whole array. -/
theorem idx1_3 : ∀ t : Fin cfg1.N, win1_3.index t (0 : Fin 2) = 0 ∧ win1_3.index t (1 : Fin 2) = 0 :=
  (by decide +kernel : ∀ t : Fin grid1.N, _)

/-- So its block at any point is the array as the region finds it. -/
theorem iblk1_3_eq (c : Dev nD) (t : Fin cfg1.N) :
    (iblk1 V c 3 t : Vec Ideal S32x32 .f32) = (V c main_v53 : S32x32.Idx → EReal) := by
  obtain ⟨e0, e1⟩ := idx1_3 t
  funext x
  unfold iblk1
  show V c main_v53 (((cfg1.win 3).blk t).view.emb x) = V c main_v53 x
  refine congrArg (V c main_v53) (funext fun a => Fin.ext ?_)
  match a with
  | ⟨0, _⟩ => show win1_3.index t (0 : Fin 2) * 32 + 1 * (x 0).val = (x 0).val; omega
  | ⟨1, _⟩ => show win1_3.index t (1 : Fin 2) * 32 + 1 * (x 1).val = (x 1).val; omega

/-- Window 4's block index is zero on both axes at every point: its block is its whole array. -/
theorem idx1_4 : ∀ t : Fin cfg1.N, win1_4.index t (0 : Fin 2) = 0 ∧ win1_4.index t (1 : Fin 2) = 0 :=
  (by decide +kernel : ∀ t : Fin grid1.N, _)

/-- So its block at any point is the array as the region finds it. -/
theorem iblk1_4_eq (c : Dev nD) (t : Fin cfg1.N) :
    (iblk1 V c 4 t : Vec Ideal S1x32 .f32) = (V c main_v58 : S1x32.Idx → EReal) := by
  obtain ⟨e0, e1⟩ := idx1_4 t
  funext x
  unfold iblk1
  show V c main_v58 (((cfg1.win 4).blk t).view.emb x) = V c main_v58 x
  refine congrArg (V c main_v58) (funext fun a => Fin.ext ?_)
  match a with
  | ⟨0, _⟩ => show win1_4.index t (0 : Fin 2) * 1 + 1 * (x 0).val = (x 0).val; omega
  | ⟨1, _⟩ => show win1_4.index t (1 : Fin 2) * 32 + 1 * (x 1).val = (x 1).val; omega

/-- Window 5's block index is zero on both axes at every point: its block is its whole array. -/
theorem idx1_5 : ∀ t : Fin cfg1.N, win1_5.index t (0 : Fin 2) = 0 ∧ win1_5.index t (1 : Fin 2) = 0 :=
  (by decide +kernel : ∀ t : Fin grid1.N, _)

/-- So its block at any point is the array as the region finds it. -/
theorem iblk1_5_eq (c : Dev nD) (t : Fin cfg1.N) :
    (iblk1 V c 5 t : Vec Ideal S32x32 .f32) = (V c main_v54 : S32x32.Idx → EReal) := by
  obtain ⟨e0, e1⟩ := idx1_5 t
  funext x
  unfold iblk1
  show V c main_v54 (((cfg1.win 5).blk t).view.emb x) = V c main_v54 x
  refine congrArg (V c main_v54) (funext fun a => Fin.ext ?_)
  match a with
  | ⟨0, _⟩ => show win1_5.index t (0 : Fin 2) * 32 + 1 * (x 0).val = (x 0).val; omega
  | ⟨1, _⟩ => show win1_5.index t (1 : Fin 2) * 32 + 1 * (x 1).val = (x 1).val; omega

/-- Window 6's block index is zero on both axes at every point: its block is its whole array. -/
theorem idx1_6 : ∀ t : Fin cfg1.N, win1_6.index t (0 : Fin 2) = 0 ∧ win1_6.index t (1 : Fin 2) = 0 :=
  (by decide +kernel : ∀ t : Fin grid1.N, _)

/-- So its block at any point is the array as the region finds it. -/
theorem iblk1_6_eq (c : Dev nD) (t : Fin cfg1.N) :
    (iblk1 V c 6 t : Vec Ideal S32x32 .f32) = (V c main_v55 : S32x32.Idx → EReal) := by
  obtain ⟨e0, e1⟩ := idx1_6 t
  funext x
  unfold iblk1
  show V c main_v55 (((cfg1.win 6).blk t).view.emb x) = V c main_v55 x
  refine congrArg (V c main_v55) (funext fun a => Fin.ext ?_)
  match a with
  | ⟨0, _⟩ => show win1_6.index t (0 : Fin 2) * 32 + 1 * (x 0).val = (x 0).val; omega
  | ⟨1, _⟩ => show win1_6.index t (1 : Fin 2) * 32 + 1 * (x 1).val = (x 1).val; omega

/-- Window 7's block index is zero on both axes at every point: its block is its whole array. -/
theorem idx1_7 : ∀ t : Fin cfg1.N, win1_7.index t (0 : Fin 2) = 0 ∧ win1_7.index t (1 : Fin 2) = 0 :=
  (by decide +kernel : ∀ t : Fin grid1.N, _)

/-- So its block at any point is the array as the region finds it. -/
theorem iblk1_7_eq (c : Dev nD) (t : Fin cfg1.N) :
    (iblk1 V c 7 t : Vec Ideal S1x32 .f32) = (V c main_v59 : S1x32.Idx → EReal) := by
  obtain ⟨e0, e1⟩ := idx1_7 t
  funext x
  unfold iblk1
  show V c main_v59 (((cfg1.win 7).blk t).view.emb x) = V c main_v59 x
  refine congrArg (V c main_v59) (funext fun a => Fin.ext ?_)
  match a with
  | ⟨0, _⟩ => show win1_7.index t (0 : Fin 2) * 1 + 1 * (x 0).val = (x 0).val; omega
  | ⟨1, _⟩ => show win1_7.index t (1 : Fin 2) * 32 + 1 * (x 1).val = (x 1).val; omega

/-- Window 8's block index is zero on both axes at every point: its block is its whole array. -/
theorem idx1_8 : ∀ t : Fin cfg1.N, win1_8.index t (0 : Fin 2) = 0 ∧ win1_8.index t (1 : Fin 2) = 0 :=
  (by decide +kernel : ∀ t : Fin grid1.N, _)

/-- So its block at any point is the array as the region finds it. -/
theorem iblk1_8_eq (c : Dev nD) (t : Fin cfg1.N) :
    (iblk1 V c 8 t : Vec Ideal S32x32 .f32) = (V c main_v56 : S32x32.Idx → EReal) := by
  obtain ⟨e0, e1⟩ := idx1_8 t
  funext x
  unfold iblk1
  show V c main_v56 (((cfg1.win 8).blk t).view.emb x) = V c main_v56 x
  refine congrArg (V c main_v56) (funext fun a => Fin.ext ?_)
  match a with
  | ⟨0, _⟩ => show win1_8.index t (0 : Fin 2) * 32 + 1 * (x 0).val = (x 0).val; omega
  | ⟨1, _⟩ => show win1_8.index t (1 : Fin 2) * 32 + 1 * (x 1).val = (x 1).val; omega

/-- Window 9's block index is zero on both axes at every point: its block is its whole array. -/
theorem idx1_9 : ∀ t : Fin cfg1.N, win1_9.index t (0 : Fin 2) = 0 ∧ win1_9.index t (1 : Fin 2) = 0 :=
  (by decide +kernel : ∀ t : Fin grid1.N, _)

/-- So its block at any point is the array as the region finds it. -/
theorem iblk1_9_eq (c : Dev nD) (t : Fin cfg1.N) :
    (iblk1 V c 9 t : Vec Ideal S32x32 .f32) = (V c main_v57 : S32x32.Idx → EReal) := by
  obtain ⟨e0, e1⟩ := idx1_9 t
  funext x
  unfold iblk1
  show V c main_v57 (((cfg1.win 9).blk t).view.emb x) = V c main_v57 x
  refine congrArg (V c main_v57) (funext fun a => Fin.ext ?_)
  match a with
  | ⟨0, _⟩ => show win1_9.index t (0 : Fin 2) * 32 + 1 * (x 0).val = (x 0).val; omega
  | ⟨1, _⟩ => show win1_9.index t (1 : Fin 2) * 32 + 1 * (x 1).val = (x 1).val; omega

/-- Window 10's block index is zero on both axes at every point: its block is its whole array. -/
theorem idx1_10 : ∀ t : Fin cfg1.N, win1_10.index t (0 : Fin 2) = 0 ∧ win1_10.index t (1 : Fin 2) = 0 :=
  (by decide +kernel : ∀ t : Fin grid1.N, _)

/-- So its block at any point is the array as the region finds it. -/
theorem iblk1_10_eq (c : Dev nD) (t : Fin cfg1.N) :
    (iblk1 V c 10 t : Vec Ideal S1x32 .f32) = (V c main_v60 : S1x32.Idx → EReal) := by
  obtain ⟨e0, e1⟩ := idx1_10 t
  funext x
  unfold iblk1
  show V c main_v60 (((cfg1.win 10).blk t).view.emb x) = V c main_v60 x
  refine congrArg (V c main_v60) (funext fun a => Fin.ext ?_)
  match a with
  | ⟨0, _⟩ => show win1_10.index t (0 : Fin 2) * 1 + 1 * (x 0).val = (x 0).val; omega
  | ⟨1, _⟩ => show win1_10.index t (1 : Fin 2) * 32 + 1 * (x 1).val = (x 1).val; omega

/-- Window 11's block index is zero on both axes at every point: its block is its whole array. -/
theorem idx1_11 : ∀ t : Fin cfg1.N, win1_11.index t (0 : Fin 2) = 0 ∧ win1_11.index t (1 : Fin 2) = 0 :=
  (by decide +kernel : ∀ t : Fin grid1.N, _)

/-- So its block at any point is the array as the region finds it. -/
theorem iblk1_11_eq (c : Dev nD) (t : Fin cfg1.N) :
    (iblk1 V c 11 t : Vec Ideal S32x10 .f32) = (V c main_arg16 : S32x10.Idx → EReal) := by
  obtain ⟨e0, e1⟩ := idx1_11 t
  funext x
  unfold iblk1
  show V c main_arg16 (((cfg1.win 11).blk t).view.emb x) = V c main_arg16 x
  refine congrArg (V c main_arg16) (funext fun a => Fin.ext ?_)
  match a with
  | ⟨0, _⟩ => show win1_11.index t (0 : Fin 2) * 32 + 1 * (x 0).val = (x 0).val; omega
  | ⟨1, _⟩ => show win1_11.index t (1 : Fin 2) * 10 + 1 * (x 1).val = (x 1).val; omega

/-- Window 12's block index is zero on both axes at every point: its block is its whole array. -/
theorem idx1_12 : ∀ t : Fin cfg1.N, win1_12.index t (0 : Fin 2) = 0 ∧ win1_12.index t (1 : Fin 2) = 0 :=
  (by decide +kernel : ∀ t : Fin grid1.N, _)

/-- So its block at any point is the array as the region finds it. -/
theorem iblk1_12_eq (c : Dev nD) (t : Fin cfg1.N) :
    (iblk1 V c 12 t : Vec Ideal S1x10 .f32) = (V c main_v61 : S1x10.Idx → EReal) := by
  obtain ⟨e0, e1⟩ := idx1_12 t
  funext x
  unfold iblk1
  show V c main_v61 (((cfg1.win 12).blk t).view.emb x) = V c main_v61 x
  refine congrArg (V c main_v61) (funext fun a => Fin.ext ?_)
  match a with
  | ⟨0, _⟩ => show win1_12.index t (0 : Fin 2) * 1 + 1 * (x 0).val = (x 0).val; omega
  | ⟨1, _⟩ => show win1_12.index t (1 : Fin 2) * 10 + 1 * (x 1).val = (x 1).val; omega

/-! ## From blocks to the array -/

/-- The result array as one function of the arrays: at (n, q) the cell of row n at column q. -/
def cellArray (W : Cert.Tgcn.Weights) (hA : FVec Ideal S100000x32 .f32) (cv : FVec Ideal S100000x96 .f32) :
    S100000x42.Idx → EReal :=
  fun i => cellAt W (rowG hA cv (i 0)) (i 1).val (i 1).isLt

/-- What point t writes back is block t of that function of the arrays as the region finds them. -/
theorem flushed1_eq (c : Dev nD) (t : Fin cfg1.N) :
    (dat1 V c).flushed 13 t = ((cfg1.win 13).blk t).view.read (Elt Ideal)
      (cellArray (wts (V c main_v52) (V c main_v53) (V c main_v58) (V c main_v54) (V c main_v55) (V c main_v59) (V c main_v56) (V c main_v57) (V c main_v60) (V c main_arg16) (V c main_v61)) (V c main_arg3) (V c main_v51)) := by
  show (cfg1.win 13).cut (grid1.coords t) ((dat1 V c).after 13 t) = _
  rw [after1_13]
  obtain ⟨-, -, -, -, e4, e5⟩ := idx_rows1 t
  funext y
  show out1_13 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) y
    = cellArray (wts (V c main_v52) (V c main_v53) (V c main_v58) (V c main_v54) (V c main_v55) (V c main_v59) (V c main_v56) (V c main_v57) (V c main_v60) (V c main_arg16) (V c main_v61)) (V c main_arg3) (V c main_v51) (((cfg1.win 13).blk t).view.emb y)
  refine (out1_13_apply _ _ _ _ _ _ _ _ _ _ _ _ _ y).trans ?_
  rw [iblk1_2_eq V c t, iblk1_3_eq V c t, iblk1_4_eq V c t, iblk1_5_eq V c t, iblk1_6_eq V c t, iblk1_7_eq V c t,
    iblk1_8_eq V c t, iblk1_9_eq V c t, iblk1_10_eq V c t, iblk1_11_eq V c t, iblk1_12_eq V c t]
  unfold cellArray
  have hr : (((cfg1.win 13).blk t).view.emb y 0).val = t.val * 10000 + (y 0).val := by
    show win1_13.index t (0 : Fin 2) * 10000 + 1 * (y 0).val = t.val * 10000 + (y 0).val
    omega
  have hc : (y 1).val = (((cfg1.win 13).blk t).view.emb y 1).val := by
    show (y 1).val = win1_13.index t (1 : Fin 2) * 42 + 1 * (y 1).val
    omega
  exact cellAt_congr (row_eq_rowG _ _ _ _ _ _ (fun k => iblk1_1_apply V c t _ _ hr rfl)
    (fun k => iblk1_0_apply V c t _ _ hr rfl)) hc _ _

/-- An entry of the result array is in point t's block iff each coordinate is in the block's range on its axis. -/
theorem mem_blk1 (t : Fin cfg1.N) (i : S100000x42.Idx) :
    i ∈ ((cfg1.win 13).blk t).view.set ↔ ∀ a : Fin 2, win1_13.index t a * S10000x42.size a ≤ (i a).val
      ∧ (i a).val < win1_13.index t a * S10000x42.size a + S10000x42.size a := by
  show i ∈ ((View.whole main_v62).slice (win1_13.rect t)).set ↔ _
  rw [View.set_slice_whole, Rect.mem_set_unit]
  exact Iff.rfl

/-- Every entry of the result array is in some point's block: row r is in block r / 10000. -/
theorem cover1 (i : S100000x42.Idx) :
    ∃ t : Fin cfg1.N, (cfg1.win 13).flush t = true ∧ i ∈ ((cfg1.win 13).blk t).view.set := by
  have hi0 : (i 0).val < 100000 := (i 0).isLt
  have hi1 : (i 1).val < 42 := (i 1).isLt
  have hN : grid1.N = 10 := N_1
  let t : Fin cfg1.N := ⟨(i 0).val / 10000, by show (i 0).val / 10000 < grid1.N; omega⟩
  obtain ⟨-, -, -, -, e4, e5⟩ := idx_rows1 t
  have ht : t.val = (i 0).val / 10000 := rfl
  refine ⟨t, flush1_13 t, ?_⟩
  rw [mem_blk1]
  intro a
  match a with
  | ⟨0, _⟩ => show win1_13.index t (0 : Fin 2) * 10000 ≤ (i 0).val ∧ (i 0).val < win1_13.index t (0 : Fin 2) * 10000 + 10000; omega
  | ⟨1, _⟩ => show win1_13.index t (1 : Fin 2) * 42 ≤ (i 1).val ∧ (i 1).val < win1_13.index t (1 : Fin 2) * 42 + 42; omega

/-- The result array after the pipeline: the cell of every node, from the arrays as the region finds them. -/
theorem final1 (c : Dev nD) : (dat1 V c).arrAt 13 cfg1.N
    = cellArray (wts (V c main_v52) (V c main_v53) (V c main_v58) (V c main_v54) (V c main_v55) (V c main_v59) (V c main_v56) (V c main_v57) (V c main_v60) (V c main_arg16) (V c main_v61)) (V c main_arg3) (V c main_v51) :=
  (dat1 V c).arrAt_eq_of_cover 13 (cellArray (wts (V c main_v52) (V c main_v53) (V c main_v58) (V c main_v54) (V c main_v55) (V c main_v59) (V c main_v56) (V c main_v57) (V c main_v60) (V c main_arg16) (V c main_v61)) (V c main_arg3) (V c main_v51))
    (fun t _ => flushed1_eq V c t) cover1

/-- Columns 0 .. 31 of the result: the activated new state of node n. -/
theorem final1_hact (c : Dev nD) (n : Fin 100000) (j : Fin 32) :
    (dat1 V c).arrAt 13 cfg1.N (ix2 n (⟨j.val, by omega⟩ : Fin 42))
      = Cert.Tgcn.rowHact (wts (V c main_v52) (V c main_v53) (V c main_v58) (V c main_v54) (V c main_v55) (V c main_v59) (V c main_v56) (V c main_v57) (V c main_v60) (V c main_arg16) (V c main_v61)) (rowG (V c main_arg3) (V c main_v51) n) j :=
  (congrFun (final1 V c) (ix2 n (⟨j.val, by omega⟩ : Fin 42))).trans
    (cellAt_lt _ _ _ _ j.isLt)

/-- Columns 32 .. 41 of the result: the read-out of node n. -/
theorem final1_yhat (c : Dev nD) (n : Fin 100000) (q : Fin 10) :
    (dat1 V c).arrAt 13 cfg1.N (ix2 n (⟨32 + q.val, by omega⟩ : Fin 42))
      = Cert.Tgcn.rowYhat (wts (V c main_v52) (V c main_v53) (V c main_v58) (V c main_v54) (V c main_v55) (V c main_v59) (V c main_v56) (V c main_v57) (V c main_v60) (V c main_arg16) (V c main_v61)) (rowG (V c main_arg3) (V c main_v51) n) q :=
  (congrFun (final1 V c) (ix2 n (⟨32 + q.val, by omega⟩ : Fin 42))).trans
    ((cellAt_ge _ _ _ _ (by show ¬32 + q.val < 32; omega)).trans
      (congrArg (Cert.Tgcn.rowYhat _ _) (Fin.ext (by show 32 + q.val - 32 = q.val; omega))))

end Cert.KernelIdeal.KValue

end
-- ==== Proof.KV.Final.lean ====
/-
  The idealized kernel program's two results, as whole arrays.

  Its first kernel leaves `x · [Wz | Wr | Wh]`; the host aggregates all 96 columns over the graph; its second kernel
  applies the cell node by node to the aggregated rows and the state rows and stores the activated state in columns
  0 … 31 and the read-out in columns 32 … 41 of one array, which the host then cuts apart.  Column group `g` of the
  aggregated array is gate `g`'s graph convolution, so node `n`'s rows are the specification's, and the two results
  are the specification's `hact` and `yhat`.
-/
import proofs.«109611_j74380243632619_2_alg».proof.Proof.KV.Plumb
import proofs.«109611_j74380243632619_2_alg».proof.Proof.KV.Agg
import proofs.«109611_j74380243632619_2_alg».proof.Proof.KV.Cols
import proofs.«109611_j74380243632619_2_alg».proof.Proof.KV.Blocks0
import proofs.«109611_j74380243632619_2_alg».proof.Proof.KV.Blocks1
import Idealize.ShloMosaic.Lib.ValueLayout

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Hand Cert.Tgcn

variable (m : (ℓ : Loc nD τ sig) → Buf (Elt Ideal) ℓ) (ρ : Dev nD → PrngReg) (c : Dev nD)

/-- The graph's data and the cell's arrays as this program's memory holds them on core `c`. -/
abbrev graphK : Graph :=
  graphOf (m ((c.tc : Thread nD τ).loc main_arg1)) (m ((c.tc : Thread nD τ).loc main_arg2))

abbrev paramsK : Params :=
  paramsOf (m ((c.tc : Thread nD τ).loc main_arg0)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14)) (m ((c.tc : Thread nD τ).loc main_arg15))
    (m ((c.tc : Thread nD τ).loc main_arg16)) (m ((c.tc : Thread nD τ).loc main_arg17))

/-- The first kernel leaves the joined projection. -/
theorem proj_eq : (V2 m ρ c main_v6 : S100000x96.Idx → EReal)
    = xwAll (Arg m c main_arg0) (joinW (Arg m c main_arg4) (Arg m c main_arg6) (Arg m c main_arg8)) := by
  rw [W2_v6, final0 (V1 m ρ) c, W1_arg0, W1_v4]
  rfl

/-- The host stretch between the kernels leaves the aggregation of it. -/
theorem agg_eq : (V3 m ρ c main_v51 : S100000x96.Idx → EReal) = (convJoined (Arg m c main_arg0) (Arg m c main_arg4) (Arg m c main_arg6) (Arg m c main_arg8) (Arg m c main_arg5) (Arg m c main_arg7) (Arg m c main_arg9) (Arg m c main_arg1) (Arg m c main_arg2)) := by
  have h6 : (W2 m ρ c (Proc.devRef .tc main_v6) : S100000x96.Idx → EReal)
      = xwAll (Arg m c main_arg0) (joinW (Arg m c main_arg4) (Arg m c main_arg6) (Arg m c main_arg8)) := proj_eq m ρ c
  have h1 : (W2 m ρ c (Proc.devRef .tc main_v1) : IVec S1600000 32) = rowW (Arg m c main_arg1) := W2_v1 m ρ c
  have h3 : (W2 m ρ c (Proc.devRef .tc main_v3) : IVec S1600000 32) = colW (Arg m c main_arg1) := W2_v3 m ρ c
  have h2 : W2 m ρ c (Proc.devRef .tc main_arg2) = (Arg m c main_arg2) := W2_arg2 m ρ c
  have h5 : (W2 m ρ c (Proc.devRef .tc main_v5) : S96.Idx → EReal) = joinB (Arg m c main_arg5) (Arg m c main_arg7) (Arg m c main_arg9) := W2_v5 m ρ c
  refine (hostOps1_v51 (W2 m ρ c)).trans ?_
  rw [h6, h1, h3, h2, h5]
  exact convAllW_eq _ _ _ _

/-- Node `n`'s rows, as the second kernel finds them, are the specification's. -/
theorem rowG_eq (n : Fin 100000) :
    rowG (Arg m c main_arg3) (convJoined (Arg m c main_arg0) (Arg m c main_arg4) (Arg m c main_arg6) (Arg m c main_arg8) (Arg m c main_arg5) (Arg m c main_arg7) (Arg m c main_arg9) (Arg m c main_arg1) (Arg m c main_arg2)) n = rowOf (graphK m c) (paramsK m c) n := by
  unfold rowG rowOf
  exact congr (congr (congr (congrArg Row.mk
    (funext fun k => convJoined_z (Arg m c main_arg0) (Arg m c main_arg4) (Arg m c main_arg6) (Arg m c main_arg8) (Arg m c main_arg5) (Arg m c main_arg7) (Arg m c main_arg9) (Arg m c main_arg1) (Arg m c main_arg2) n k))
    (funext fun k => convJoined_r (Arg m c main_arg0) (Arg m c main_arg4) (Arg m c main_arg6) (Arg m c main_arg8) (Arg m c main_arg5) (Arg m c main_arg7) (Arg m c main_arg9) (Arg m c main_arg1) (Arg m c main_arg2) n k))
    (funext fun k => convJoined_h (Arg m c main_arg0) (Arg m c main_arg4) (Arg m c main_arg6) (Arg m c main_arg8) (Arg m c main_arg5) (Arg m c main_arg7) (Arg m c main_arg9) (Arg m c main_arg1) (Arg m c main_arg2) n k)) rfl

/-- The program's second result is the specification's activated new state. -/
theorem hact_eq : (W5 m ρ c (Proc.devRef .tc main_v63) : S100000x32.Idx → EReal)
    = mat (hact (graphK m c) (paramsK m c)) := by
  funext i
  obtain ⟨n, j, rfl⟩ : ∃ (n : Fin 100000) (j : Fin 32), i = ix2 n j := ⟨i 0, i 1, eq_ix2 i⟩
  rw [mat_ix2, hact_eq_row, ← rowG_eq m c n, ← wts_eq (Arg m c main_arg0) (Arg m c main_arg4) (Arg m c main_arg6) (Arg m c main_arg8) (Arg m c main_arg5) (Arg m c main_arg7) (Arg m c main_arg9) (Arg m c main_arg3) (Arg m c main_arg10) (Arg m c main_arg12) (Arg m c main_arg14) (Arg m c main_arg11) (Arg m c main_arg13) (Arg m c main_arg15) (Arg m c main_arg16) (Arg m c main_arg17)]
  rw [W5_v63]
  refine (slice2_axis1_apply (n0 := 100000) (n1 := 42) (m := 32) 0 (V4 m ρ c main_v62) _ n j ⟨j.val, by omega⟩
    (Nat.zero_add _).symm).trans ?_
  rw [W4_v62]
  refine (final1_hact (V3 m ρ) c n j).trans ?_
  rw [W3_v52, W3_v53, W3_v58, W3_v54, W3_v55, W3_v59, W3_v56, W3_v57, W3_v60, W3_arg16, W3_v61, W3_arg3, agg_eq]

/-- The program's first result is the specification's read-out. -/
theorem yhat_eq : (W5 m ρ c (Proc.devRef .tc main_v64) : S100000x10.Idx → EReal)
    = mat (yhat (graphK m c) (paramsK m c)) := by
  funext i
  obtain ⟨n, q, rfl⟩ : ∃ (n : Fin 100000) (q : Fin 10), i = ix2 n q := ⟨i 0, i 1, eq_ix2 i⟩
  rw [mat_ix2, yhat_eq_row, ← rowG_eq m c n, ← wts_eq (Arg m c main_arg0) (Arg m c main_arg4) (Arg m c main_arg6) (Arg m c main_arg8) (Arg m c main_arg5) (Arg m c main_arg7) (Arg m c main_arg9) (Arg m c main_arg3) (Arg m c main_arg10) (Arg m c main_arg12) (Arg m c main_arg14) (Arg m c main_arg11) (Arg m c main_arg13) (Arg m c main_arg15) (Arg m c main_arg16) (Arg m c main_arg17)]
  rw [W5_v64]
  refine (slice2_axis1_apply (n0 := 100000) (n1 := 42) (m := 10) 32 (V4 m ρ c main_v62) _ n q ⟨32 + q.val, by omega⟩
    rfl).trans ?_
  rw [W4_v62]
  refine (final1_yhat (V3 m ρ) c n q).trans ?_
  rw [W3_v52, W3_v53, W3_v58, W3_v54, W3_v55, W3_v59, W3_v56, W3_v57, W3_v60, W3_arg16, W3_v61, W3_arg3, agg_eq]

/-- THE RUN, READ: every weakly fair execution of the program terminates, and every final state has the two results at
    the specification's read-out and activated state of the launch memory's arrays, and each argument array as launched. -/
theorem run : θ_run (defs (F := Ideal)) (onTc (τ := τ) (main (F := Ideal))) ⟨m, fun _ => 0, ρ⟩ (fun r => ∀ c : Dev nD,
      r.2.mem ((c.tc : Thread nD τ).loc main_v64) = mat (yhat (graphK m c) (paramsK m c))
      ∧ r.2.mem ((c.tc : Thread nD τ).loc main_v63) = mat (hact (graphK m c) (paramsK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_v64 (by decide))).trans (yhat_eq m ρ c),
     (h c _ (mem_uc main_v63 (by decide))).trans (hact_eq m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c)⟩)
    (run_all m ρ)

end Cert.KernelIdeal.KValue

end
-- ==== Proof.LibMidAxisRows.lean ====
/-
  Row statistics along the MIDDLE axis of a rank-3 vector, and the layout steps beside them, at the ideal values, for
  any extents a, b, c.

  A normalisation over the middle axis of an [a, b, c] vector takes a statistic of each line (p, ·, k) — its maximum,
  its sum — as a `vector.multi_reduction` over axis 1 into [a, c], and puts it back beside every entry of the line by a
  `vector.shape_cast` [a, c] → [a, 1, c] followed by a `vector.broadcast` [a, 1, c] → [a, b, c]. Read at (p, q, k):
  * `lift_mid`: the reduced index (p, k) with coordinate `q` put back on axis 1 is (p, q, k);
  * `multiReduction_add_mid`: the `<add>` reduction at (p, k) is `∑ q, src (p, q, k)`;
  * `multiReduction_maximumf_mid`: the `<maximumf>` reduction at (p, k) is the fold of `max`, from the accumulator's
    value, over `q ↦ src (p, q, k)`;
  * `keepdims_mid`: the cast and the broadcast read, at (p, q, k), the statistic at (p, k) — for `b = 1` too, and
    whatever `a` and `c` are;
  * `squeeze_mid` / `unsqueeze_mid`: a shape cast that drops or adds a unit middle axis keeps (p, k) beside (p, 0, k);
  * `transpose_021`: the last two axes swapped, read at (p, k, q), is the operand at (p, q, k);
  * `concat_axis1` (and `concat_axis1_of_eq`, the joined extent a name of its own): two matrices joined along their
    columns read, at (p, j), the first at (p, j) when `j` is below its width and the second at (p, j − width) otherwise.
  The reduction lemmas take the format and accumulator facts as hypotheses typed the way the operation's own
  arguments are (`acc = FKind.add.neutral φ hφ`), so a proof applies them by `refine (… ).trans ?_` to a printed term.
-/
import Idealize.ShloMosaic.Lib.Pipeline.Value
import Idealize.ShloMosaic.Lib.ValueIdx
import Idealize.ShloMosaic.PureOps.Ideal.Laws

noncomputable section

namespace Idealize.ShloMosaic.MidAxisRows

open Idealize.ShloMosaic Idealize.ShloMosaic.ValueIdx

variable {a b c : Nat}

/-- The reduced index (p, k) with coordinate `q` put back on the middle axis is (p, q, k). -/
theorem lift_mid (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext d; apply Fin.ext
  fin_cases d <;> rfl

/-- A float `vector.multi_reduction <add>` over the middle axis, at (p, k): the sum over q of the entries (p, q, k). -/
theorem multiReduction_add_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.add.neutral φ hφ) (p : Fin a) (k : Fin c) :
    multiReduction .add [1] (⟨2, ![a, c]⟩ : Shape) src acc h hφ hacc (ix2 p k) = ∑ q : Fin b, src (ix3 p q k) := by
  refine (Ideal.multiReduction_add_single src acc h hφ hacc (ix2 p k)).trans ?_
  exact Finset.sum_congr rfl fun q _ => congrArg src (lift_mid h p k q)

/-- A float `vector.multi_reduction <maximumf>` over the middle axis, at (p, k): the fold of `max` over the entries
    (p, q, k), q running, from the accumulator's value. -/
theorem multiReduction_maximumf_mid {φ : FTy} (src : FVec Ideal (⟨3, ![a, b, c]⟩ : Shape) φ) (acc : BitVec φ.bits)
    (h : (⟨3, ![a, b, c]⟩ : Shape).Reduces [1] (⟨2, ![a, c]⟩ : Shape)) (hφ : FKind.Formats φ)
    (hacc : acc = FKind.maximumf.neutral φ hφ) (p : Fin a) (k : Fin c) :
    multiReduction .maximumf [1] (⟨2, ![a, c]⟩ : Shape) src acc h hφ hacc (ix2 p k)
      = (Finset.univ : Finset (Fin b)).fold max (FloatOps.ofBits φ acc) (fun q => src (ix3 p q k)) := by
  refine (Ideal.multiReduction_maximumf_single src acc h hφ hacc (ix2 p k)).trans ?_
  have hf : (src ∘ h.lift (ix2 p k)) = fun q : Fin b => src (ix3 p q k) := funext fun q => congrArg src (lift_mid h p k q)
  exact congrArg (fun f => Finset.fold max (FloatOps.ofBits φ acc) f (Finset.univ : Finset (Fin b))) hf

/-- A line statistic put back on its line (keepdims): the cast to a unit middle axis and the broadcast along it read,
    at (p, q, k), the statistic at (p, k). -/
theorem keepdims_mid {α : Type} (R : (⟨2, ![a, c]⟩ : Shape).Idx → α)
    (h1 : (⟨2, ![a, c]⟩ : Shape).ShapeCasts (⟨3, ![a, 1, c]⟩ : Shape))
    (h2 : (⟨3, ![a, 1, c]⟩ : Shape).Broadcasts (⟨3, ![a, b, c]⟩ : Shape)) (p : Fin a) (q : Fin b) (k : Fin c) :
    broadcastTo (⟨3, ![a, b, c]⟩ : Shape) (shapeCast (⟨3, ![a, 1, c]⟩ : Shape) R h1) h2 (ix3 p q k) = R (ix2 p k) := by
  refine (broadcastTo_apply (shapeCast (⟨3, ![a, 1, c]⟩ : Shape) R h1) h2 (ix3 p q k) (ix3 p (0 : Fin 1) k) ?_).trans ?_
  · intro d
    match d with
    | ⟨0, _⟩ =>
      show p.val = if a = 1 then 0 else p.val
      split
      · have := p.isLt; omega
      · rfl
    | ⟨1, _⟩ => exact (if_pos rfl).symm
    | ⟨2, _⟩ =>
      show k.val = if c = 1 then 0 else k.val
      split
      · have := k.isLt; omega
      · rfl
  · refine shapeCast_apply R h1 (ix3 p (0 : Fin 1) k) (ix2 p k) ?_
    rw [Shape.rowMajor_val_two, Shape.rowMajor_val_three]
    show p.val * c + k.val = (p.val * 1 + 0) * c + k.val
    rw [Nat.mul_one, Nat.add_zero]

/-- A shape cast that drops a unit middle axis reads, at (p, k), the operand at (p, 0, k). -/
theorem squeeze_mid {α : Type} (x : (⟨3, ![a, 1, c]⟩ : Shape).Idx → α)
    (h : (⟨3, ![a, 1, c]⟩ : Shape).ShapeCasts (⟨2, ![a, c]⟩ : Shape)) (p : Fin a) (k : Fin c) :
    shapeCast (⟨2, ![a, c]⟩ : Shape) x h (ix2 p k) = x (ix3 p (0 : Fin 1) k) := by
  refine shapeCast_apply x h (ix2 p k) (ix3 p (0 : Fin 1) k) ?_
  rw [Shape.rowMajor_val_two, Shape.rowMajor_val_three]
  show (p.val * 1 + 0) * c + k.val = p.val * c + k.val
  rw [Nat.mul_one, Nat.add_zero]

/-- A shape cast that adds a unit middle axis reads, at (p, 0, k), the operand at (p, k). -/
theorem unsqueeze_mid {α : Type} (y : (⟨2, ![a, c]⟩ : Shape).Idx → α)
    (h : (⟨2, ![a, c]⟩ : Shape).ShapeCasts (⟨3, ![a, 1, c]⟩ : Shape)) (p : Fin a) (k : Fin c) :
    shapeCast (⟨3, ![a, 1, c]⟩ : Shape) y h (ix3 p (0 : Fin 1) k) = y (ix2 p k) := by
  refine shapeCast_apply y h (ix3 p (0 : Fin 1) k) (ix2 p k) ?_
  rw [Shape.rowMajor_val_two, Shape.rowMajor_val_three]
  show p.val * c + k.val = (p.val * 1 + 0) * c + k.val
  rw [Nat.mul_one, Nat.add_zero]

/-- A stack of matrices, each transposed (the last two axes swapped), reads, at (p, k, q), the operand at (p, q, k). -/
theorem transpose_021 {α : Type} (x : (⟨3, ![a, b, c]⟩ : Shape).Idx → α)
    (h : (⟨3, ![a, b, c]⟩ : Shape).Transposes [0, 2, 1] (⟨3, ![a, c, b]⟩ : Shape)) (p : Fin a) (k : Fin c) (q : Fin b) :
    transpose (⟨3, ![a, c, b]⟩ : Shape) [0, 2, 1] x h (ix3 p k q) = x (ix3 p q k) :=
  transpose_apply _ x h _ _ fun d => match d with | ⟨0, _⟩ => rfl | ⟨1, _⟩ => rfl | ⟨2, _⟩ => rfl

/-- Two matrices with the same rows joined along their columns, the joined width named `n`: at (p, j) the first at
    (p, j) when `j` is below its width `b1`, the second at (p, j − b1) otherwise. -/
theorem concat_axis1_of_eq {α : Type} {b1 b2 n : Nat} (hn : n = b1 + b2) (x : (⟨2, ![a, b1]⟩ : Shape).Idx → α)
    (y : (⟨2, ![a, b2]⟩ : Shape).Idx → α)
    (h : Shape.Concatenates [(⟨2, ![a, b1]⟩ : Shape), (⟨2, ![a, b2]⟩ : Shape)] (⟨2, ![a, n]⟩ : Shape) 1) (p : Fin a)
    (j : Fin n) :
    concatenate (⟨2, ![a, n]⟩ : Shape) 1 [⟨(⟨2, ![a, b1]⟩ : Shape), x⟩, ⟨(⟨2, ![a, b2]⟩ : Shape), y⟩] h (ix2 p j)
      = if hj : j.val < b1 then x (ix2 p ⟨j.val, hj⟩) else y (ix2 p ⟨j.val - b1, by have := j.isLt; omega⟩) := by
  by_cases hj : j.val < b1
  · rw [dif_pos hj]
    refine concatenate_pair_apply_left 1 x y h (ix2 p j) rfl (ix2 p ⟨j.val, hj⟩) ?_
    intro d
    match d with
    | ⟨0, _⟩ => rfl
    | ⟨1, _⟩ => rfl
  · rw [dif_neg hj]
    refine concatenate_pair_apply_right 1 x y h (ix2 p j) rfl rfl (ix2 p ⟨j.val - b1, by have := j.isLt; omega⟩) ?_ ?_
    · intro d hd
      match d, hd with
      | ⟨0, _⟩, _ => rfl
      | ⟨1, _⟩, hd => exact absurd rfl hd
    · show j.val - b1 + b1 = j.val
      omega

/-- Two matrices with the same rows joined along their columns: at (p, j) the first at (p, j) when `j` is below its
    width `b1`, the second at (p, j − b1) otherwise. -/
theorem concat_axis1 {α : Type} {b1 b2 : Nat} (x : (⟨2, ![a, b1]⟩ : Shape).Idx → α) (y : (⟨2, ![a, b2]⟩ : Shape).Idx → α)
    (h : Shape.Concatenates [(⟨2, ![a, b1]⟩ : Shape), (⟨2, ![a, b2]⟩ : Shape)] (⟨2, ![a, b1 + b2]⟩ : Shape) 1) (p : Fin a)
    (j : Fin (b1 + b2)) :
    concatenate (⟨2, ![a, b1 + b2]⟩ : Shape) 1 [⟨(⟨2, ![a, b1]⟩ : Shape), x⟩, ⟨(⟨2, ![a, b2]⟩ : Shape), y⟩] h (ix2 p j)
      = if hj : j.val < b1 then x (ix2 p ⟨j.val, hj⟩) else y (ix2 p ⟨j.val - b1, by omega⟩) :=
  concat_axis1_of_eq rfl x y h p j

end Idealize.ShloMosaic.MidAxisRows

end
-- ==== Proof.LibPadSum.lean ====
/-
  Finite sums over zero-padded index ranges and over ranges cut into blocks, in any commutative additive monoid.

    * `sum_fin_split`: a sum over `N = a + b` indices is the sum over the first `a` plus the sum over the last `b`;
    * `sum_fin_of_tail_zero`: a sum over `Fin N` whose terms vanish from index `n ≤ N` on (a contraction over an axis
      padded with zeros from `n` to `N`) is the sum of its first `n` terms;
    * `sum_range_mul_succ`: a sum over the first `m (k + 1)` naturals is the sum over the first `m k` plus the block of
      `m` terms at positions `m k + l` (a contraction accumulated block by block).
  Nothing but commutativity and associativity of `+` is used, so the lemmas hold on the extended reals.
-/
import Mathlib.Algebra.BigOperators.Fin
import Mathlib.Algebra.BigOperators.Intervals

open scoped BigOperators

namespace Cert.Interact

/-- A sum over `N = a + b` indices is the sum over the first `a` plus the sum over the last `b`. -/
theorem sum_fin_split {M : Type*} [AddCommMonoid M] {a b N : Nat} (h : N = a + b) (g : Fin N → M) :
    ∑ c : Fin N, g c
      = (∑ c : Fin a, g ⟨c.val, by have := c.isLt; omega⟩) + ∑ j : Fin b, g ⟨a + j.val, by have := j.isLt; omega⟩ := by
  subst h
  rw [Fin.sum_univ_add]
  rfl

/-- A sum whose terms vanish from index `n` on is the sum of its first `n` terms. -/
theorem sum_fin_of_tail_zero {M : Type*} [AddCommMonoid M] {n N : Nat} (h : n ≤ N) (f : Fin N → M)
    (hf : ∀ i : Fin N, n ≤ i.val → f i = 0) :
    ∑ i : Fin N, f i = ∑ i : Fin n, f (Fin.castLE h i) := by
  obtain ⟨d, rfl⟩ := Nat.exists_eq_add_of_le h
  rw [sum_fin_split rfl f]
  have tail : ∑ j : Fin d, f ⟨n + j.val, by have := j.isLt; omega⟩ = 0 :=
    Finset.sum_eq_zero fun j _ => hf _ (Nat.le_add_right n j.val)
  rw [tail, add_zero]
  rfl

/-- One more block of `m` terms: the sum over the first `m (k + 1)` naturals is the sum over the first `m k` plus the
    `m` terms at positions `m k + l`. -/
theorem sum_range_mul_succ {M : Type*} [AddCommMonoid M] (m k : ℕ) (h : ℕ → M) :
    ∑ κ ∈ Finset.range (m * (k + 1)), h κ
      = (∑ κ ∈ Finset.range (m * k), h κ) + ∑ l : Fin m, h (m * k + l.val) := by
  rw [Nat.mul_succ, Finset.sum_range_add, Finset.sum_range (fun x => h (m * k + x))]

end Cert.Interact
-- ==== Proof.Ref.Stages.lean ====
/-
  The operation shapes of the reference program, each read at an index, over variables.

  Every statement is about one small composite of host operations applied to arbitrary arrays: a bias vector laid
  along a row and repeated down the rows, a scalar constant repeated everywhere, a matrix product whose left factor is
  two matrices joined along their columns, and the logistic function spelt as a quotient.
-/
import Idealize.ShloMosaic.Lib.IdealHost
import Idealize.ShloMosaic.Lib.Pipeline.Value
import proofs.«109611_j74380243632619_2_alg».proof.Proof.LibColumnBroadcast
import proofs.«109611_j74380243632619_2_alg».proof.Proof.LibMidAxisRows
import proofs.«109611_j74380243632619_2_alg».proof.Proof.LibPlainMatmul
import proofs.«109611_j74380243632619_2_alg».proof.Proof.LibPadSum

noncomputable section

open scoped BigOperators

namespace Cert.ReferenceIdeal.RefValue

open Idealize.ShloMosaic Idealize.ShloMosaic.ValueIdx

/-- A vector laid along a row [c] -> [1, c] and repeated down the rows [1, c] -> [n, c]: entry (p, q) is the
    vector's entry q. -/
theorem rowBroadcast_apply {α : Type} {n c : ℕ} (v : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2))
    (p : Fin n) (q : Fin c) :
    broadcastInDim ⟨2, ![n, c]⟩ ![0, 1] h2 (broadcastInDim ⟨2, ![1, c]⟩ ![1] h1 v) (ix2 p q) = v (ix1 q) := by
  refine (broadcastInDim_apply _ h2 _ (ix2 p q) (ix2 (0 : Fin 1) q) fun a => ?_).trans
    (broadcastInDim_apply _ h1 v (ix2 (0 : Fin 1) q) (ix1 q) fun a => ?_)
  · match a with
    | ⟨0, _⟩ =>
      show (0 : ℕ) = if (1 : ℕ) = 1 then 0 else p.val
      rw [if_pos rfl]
    | ⟨1, _⟩ =>
      show q.val = if c = 1 then 0 else q.val
      split
      · have := q.isLt; omega
      · rfl
  · match a with
    | ⟨0, _⟩ =>
      show q.val = if c = 1 then 0 else q.val
      split
      · have := q.isLt; omega
      · rfl

/-- A scalar constant repeated over any shape reads, everywhere, the number its word denotes. -/
theorem splat_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-- The plain matrix product at an entry, for dimension numbers that are the plain ones. -/
theorem dot_apply {M K N : ℕ} (d : DotDims ⟨2, ![M, K]⟩ ⟨2, ![K, N]⟩ ⟨2, ![M, N]⟩) (hd : d = DotDims.plain M K N)
    (x : FVec Ideal ⟨2, ![M, K]⟩ .f32) (W : FVec Ideal ⟨2, ![K, N]⟩ .f32) (p : Fin M) (q : Fin N) :
    Host.dotGeneral d none x W (ix2 p q) = ∑ l : Fin K, x (ix2 p l) * W (ix2 l q) := by
  subst hd
  exact PlainMatmul.plain_dotGeneral_apply M K N none .single x W p q

/-- The product of two matrices joined along their columns with a 64-row matrix: the first block meets the first 32
    rows, the second block the last 32. -/
theorem concat_dot_apply {M N : ℕ} (a b : FVec Ideal ⟨2, ![M, 32]⟩ .f32) (W : FVec Ideal ⟨2, ![64, N]⟩ .f32)
    (h : Shape.Concatenates [(⟨2, ![M, 32]⟩ : Shape), (⟨2, ![M, 32]⟩ : Shape)] (⟨2, ![M, 64]⟩ : Shape) 1)
    (d : DotDims ⟨2, ![M, 64]⟩ ⟨2, ![64, N]⟩ ⟨2, ![M, N]⟩) (hd : d = DotDims.plain M 64 N) (p : Fin M) (q : Fin N) :
    Host.dotGeneral d none
        (concatenate (⟨2, ![M, 64]⟩ : Shape) 1 [⟨(⟨2, ![M, 32]⟩ : Shape), a⟩, ⟨(⟨2, ![M, 32]⟩ : Shape), b⟩] h) W (ix2 p q)
      = (∑ k : Fin 32, a (ix2 p k) * W (ix2 (⟨k.val, by omega⟩ : Fin 64) q))
        + ∑ k : Fin 32, b (ix2 p k) * W (ix2 (⟨32 + k.val, by omega⟩ : Fin 64) q) := by
  refine (dot_apply d hd _ W p q).trans ?_
  refine (Cert.Interact.sum_fin_split (show 64 = 32 + 32 from rfl) _).trans ?_
  refine congrArg₂ (· + ·) (Finset.sum_congr rfl fun k _ => ?_) (Finset.sum_congr rfl fun k _ => ?_)
  · refine congrArg (· * W (ix2 (⟨k.val, by omega⟩ : Fin 64) q)) ?_
    refine (MidAxisRows.concat_axis1_of_eq (show 64 = 32 + 32 from rfl) a b h p ⟨k.val, by omega⟩).trans ?_
    exact dif_pos k.isLt
  · refine congrArg (· * W (ix2 (⟨32 + k.val, by omega⟩ : Fin 64) q)) ?_
    refine (MidAxisRows.concat_axis1_of_eq (show 64 = 32 + 32 from rfl) a b h p ⟨32 + k.val, by omega⟩).trans ?_
    have hk : ¬ (32 + k.val < 32) := by omega
    refine (dif_neg hk).trans ?_
    exact congrArg b (congrArg (ix2 p) (Fin.ext (by show 32 + k.val - 32 = k.val; omega)))

/-- The logistic function spelt as the quotient 1 / (1 + exp (-x)) with both ones the single-precision word of 1.0. -/
theorem logistic_word (x : EReal) :
    Ideal.div (Ideal.ofBits .f32 0x3F800000#32) (Ideal.ofBits .f32 0x3F800000#32 + Ideal.exp (-x)) = Ideal.logistic x := by
  rw [Ideal.ofBits_one_f32]
  rfl

end Cert.ReferenceIdeal.RefValue

end
-- ==== Proof.Ref.Conv.lean ====
/-
  One graph convolution of the reference program, read at an index.

  The reference computes, for projected features xw, a per-edge weight vector and a per-node vector dis,
      segment_sum(norm[:, None] * xw[row], col) + (dis * dis)[:, None] * xw + b.
  At node n and channel j this is the sum, over the edges whose target word reads n, of the edge's weight times the
  gathered row's entry, plus dis(n) * dis(n) * xw(n, j), plus b(j): the specification's convolution of the graph data
  read off the edge list.
-/
import proofs.«109611_j74380243632619_2_alg».proof.Proof.Ref.Stages
import proofs.«109611_j74380243632619_2_alg».proof.Proof.LibRowGatherScatter
import proofs.«109611_j74380243632619_2_alg».proof.Proof.Gen.ReferenceIdeal
import proofs.«109611_j74380243632619_2_alg».proof.Proof.Params

noncomputable section

open scoped BigOperators

namespace Cert.ReferenceIdeal.RefValue

open Cert.ReferenceIdeal Cert.ReferenceIdeal.Gen Idealize.ShloMosaic Idealize.ShloMosaic.ValueIdx

/-- A matrix's function of coordinates, applied. -/
theorem fun2_apply {a b : ℕ} (v : FVec Ideal (⟨2, ![a, b]⟩ : Shape) .f32) (p : Fin a) (q : Fin b) :
    Cert.Tgcn.fun2 v p q = v (ix2 p q) := rfl

/-- A vector's function of its position, applied. -/
theorem fun1_apply {a : ℕ} (v : FVec Ideal (⟨1, ![a]⟩ : Shape) .f32) (p : Fin a) :
    Cert.Tgcn.fun1 v p = v (ix1 p) := rfl

/-- The segment sum of the weighted gathered rows, at node n and channel j: the sum over the edges whose target word
    reads n of the gathered row's entry times the edge's weight. -/
theorem seg_apply (colcol rowwrap : IVec S1600000x1 32) (normv : FVec Ideal S1600000 .f32)
    (xw : FVec Ideal S100000x32 .f32) (n : Fin 100000) (j : Fin 32) :
    Host.scatterAdd scatter_S100000x32_S1600000x1_S1600000x32_1_0_0_1 (broadcastInDim S100000x32 ![] bcast_S_S100000x32 (constant S_ .f32 0x00000000#32)) colcol (mulf (broadcastInDim S1600000x32 ![0, 1] bcast_S1600000x1_S1600000x32_0_1 (broadcastInDim S1600000x1 ![0] bcast_S1600000_S1600000x1_0 normv)) (Host.gather gather_S100000x32_S1600000x1_S1600000x32_1_0_n_n_0_1_132 xw rowwrap)) (ix2 n j)
      = ∑ e ∈ Finset.univ.filter (fun e : Fin 1600000 => (colcol (ix2 e 0)).toInt = (n.val : ℤ)),
          xw (ix2 (⟨min (rowwrap (ix2 e 0)).toInt.toNat (100000 - 1), by omega⟩ : Fin 100000) j) * normv (ix1 e) := by
  refine (RowGatherScatter.scatterAdd_rows_apply scatter_S100000x32_S1600000x1_S1600000x32_1_0_0_1 rfl rfl rfl rfl _ colcol _ n j).trans ?_
  rw [splat_apply, Ideal.ofBits_zero_f32, zero_add]
  refine Finset.sum_congr rfl fun e _ => ?_
  rw [mulf_apply, Cert.Lib.broadcastInDim_column_apply,
    RowGatherScatter.gather_rows_apply (by omega) gather_S100000x32_S1600000x1_S1600000x32_1_0_n_n_0_1_132 rfl rfl rfl rfl rfl rfl rfl]
  exact mul_comm _ _

/-- The convolution's term, as a function of the target column, the wrapped source column, the edge weights, the
    per-node vector, the projected features and the bias. -/
def convT (colcol rowwrap : IVec S1600000x1 32) (normv : FVec Ideal S1600000 .f32) (disv : FVec Ideal S100000 .f32)
    (xw : FVec Ideal S100000x32 .f32) (b : FVec Ideal S32 .f32) : FVec Ideal S100000x32 .f32 :=
  addf (addf (Host.scatterAdd scatter_S100000x32_S1600000x1_S1600000x32_1_0_0_1 (broadcastInDim S100000x32 ![] bcast_S_S100000x32 (constant S_ .f32 0x00000000#32)) colcol (mulf (broadcastInDim S1600000x32 ![0, 1] bcast_S1600000x1_S1600000x32_0_1 (broadcastInDim S1600000x1 ![0] bcast_S1600000_S1600000x1_0 normv)) (Host.gather gather_S100000x32_S1600000x1_S1600000x32_1_0_n_n_0_1_132 xw rowwrap))) (mulf (broadcastInDim S100000x32 ![0, 1] bcast_S100000x1_S100000x32_0_1 (broadcastInDim S100000x1 ![0] bcast_S100000_S100000x1_0 (mulf disv disv))) xw)) (broadcastInDim S100000x32 ![0, 1] bcast_S1x32_S100000x32_0_1 (broadcastInDim S1x32 ![1] bcast_S32_S1x32_1 b))

/-- The convolution's term at node n, channel j. -/
theorem convT_apply (colcol rowwrap : IVec S1600000x1 32) (normv : FVec Ideal S1600000 .f32)
    (disv : FVec Ideal S100000 .f32) (xw : FVec Ideal S100000x32 .f32) (b : FVec Ideal S32 .f32)
    (n : Fin 100000) (j : Fin 32) :
    convT colcol rowwrap normv disv xw b (ix2 n j) =
      ((∑ e ∈ Finset.univ.filter (fun e : Fin 1600000 => (colcol (ix2 e 0)).toInt = (n.val : ℤ)),
          xw (ix2 (⟨min (rowwrap (ix2 e 0)).toInt.toNat (100000 - 1), by omega⟩ : Fin 100000) j) * normv (ix1 e))
        + disv (ix1 n) * disv (ix1 n) * xw (ix2 n j)) + b (ix1 j) := by
  unfold convT
  rw [addf_apply, addf_apply, mulf_apply, rowBroadcast_apply, Cert.Lib.broadcastInDim_column_apply, mulf_apply,
    seg_apply]

open Cert.Tgcn in
/-- The convolution's term over the graph data read off the edge list is the specification's convolution. -/
theorem fun2_convT (ei : EdgeList) (ew : EdgeWeights) (xw : FVec Ideal S100000x32 .f32) (b : FVec Ideal S32 .f32) :
    fun2 (convT (column (colW ei)) (wrap (rowW ei)) (normV ei ew) (dis ei ew) xw b)
      = conv (graphOf ei ew) (fun2 xw) (fun1 b) := by
  funext n j
  rw [fun2_apply, convT_apply]
  simp only [conv, graphOf, fun2, fun1]
  rfl

end Cert.ReferenceIdeal.RefValue

end
-- ==== Proof.Ref.Tail.lean ====
/-
  The gates, the new state, its activation and the read-out of the reference program, over variables.

  Each definition spells one composite of the reference's operations as a function of the arrays it is applied to; each
  theorem reads it, entry by entry, as the specification's function of the same name.
-/
import proofs.«109611_j74380243632619_2_alg».proof.Proof.Ref.Conv

noncomputable section

open scoped BigOperators

namespace Cert.ReferenceIdeal.RefValue

open Cert.ReferenceIdeal Cert.ReferenceIdeal.Gen Idealize.ShloMosaic Idealize.ShloMosaic.ValueIdx Cert.Tgcn

/-- The host's exponential, negation and hyperbolic tangent at an index. -/
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl
theorem hostTanh_apply {s : Shape} (a : FVec Ideal s .f32) (i : s.Idx) : Host.tanh a i = Ideal.tanh (a i) := rfl

/-- The feature projection x · W. -/
def projT (x : FVec Ideal S100000x64 .f32) (W : FVec Ideal S64x32 .f32) : FVec Ideal S100000x32 .f32 :=
  Host.dotGeneral dot_S100000x64_S64x32_S100000x32_1_0_0_1_n_n none x W

theorem fun2_projT (x : FVec Ideal S100000x64 .f32) (W : FVec Ideal S64x32 .f32) :
    fun2 (projT x W) = proj (fun2 x) (fun2 W) := by
  funext n j
  rw [fun2_apply]
  unfold projT
  rw [dot_apply dot_S100000x64_S64x32_S100000x32_1_0_0_1_n_n rfl]
  simp only [proj, fun2]

/-- The convolution of the projected features over the graph read off the edge list. -/
def cT (ei : EdgeList) (ew : EdgeWeights) (x : FVec Ideal S100000x64 .f32) (W : FVec Ideal S64x32 .f32)
    (b : FVec Ideal S32 .f32) : FVec Ideal S100000x32 .f32 :=
  convT (column (colW ei)) (wrap (rowW ei)) (normV ei ew) (dis ei ew) (projT x W) b

theorem fun2_cT (ei : EdgeList) (ew : EdgeWeights) (x : FVec Ideal S100000x64 .f32) (W : FVec Ideal S64x32 .f32)
    (b : FVec Ideal S32 .f32) :
    fun2 (cT ei ew x W b) = conv (graphOf ei ew) (proj (fun2 x) (fun2 W)) (fun1 b) := by
  unfold cT
  rw [fun2_convT, fun2_projT]

/-- A gate's affine map on the concatenation [c, u]. -/
def gateT (c u : FVec Ideal S100000x32 .f32) (LW : FVec Ideal S64x32 .f32) (Lb : FVec Ideal S32 .f32) :
    FVec Ideal S100000x32 .f32 :=
  addf (Host.dotGeneral dot_S100000x64_S64x32_S100000x32_1_0_0_1_n_n none (concatenate S100000x64 1 [⟨S100000x32, c⟩, ⟨S100000x32, u⟩] concatenates_S100000x32_S100000x32_S100000x64_d1) LW) (broadcastInDim S100000x32 ![0, 1] bcast_S1x32_S100000x32_0_1 (broadcastInDim S1x32 ![1] bcast_S32_S1x32_1 Lb))

theorem fun2_gateT (c u : FVec Ideal S100000x32 .f32) (LW : FVec Ideal S64x32 .f32) (Lb : FVec Ideal S32 .f32) :
    fun2 (gateT c u LW Lb) = lin (fun2 c) (fun2 u) (fun2 LW) (fun1 Lb) := by
  funext n j
  rw [fun2_apply]
  unfold gateT
  rw [addf_apply, rowBroadcast_apply,
    concat_dot_apply c u LW concatenates_S100000x32_S100000x32_S100000x64_d1
      dot_S100000x64_S64x32_S100000x32_1_0_0_1_n_n rfl]
  simp only [lin, lo, hi, fun2, fun1]

/-- The logistic function as the reference spells it, 1 / (1 + exp (-v)). -/
def sigT (v : FVec Ideal S100000x32 .f32) : FVec Ideal S100000x32 .f32 :=
  Host.divf (broadcastInDim S100000x32 ![] bcast_S_S100000x32 (constant S_ .f32 0x3F800000#32)) (addf (broadcastInDim S100000x32 ![] bcast_S_S100000x32 (constant S_ .f32 0x3F800000#32)) (Host.exp (Host.negf v)))

theorem sigT_apply (v : FVec Ideal S100000x32 .f32) (i : S100000x32.Idx) : sigT v i = Ideal.logistic (v i) := by
  unfold sigT
  rw [hostDivf_apply, addf_apply, splat_apply, hostExp_apply, hostNegf_apply]
  exact logistic_word (v i)

/-- A logistic gate: the update gate and the reset gate have this form. -/
def ZT (ei : EdgeList) (ew : EdgeWeights) (x : FVec Ideal S100000x64 .f32) (h : FVec Ideal S100000x32 .f32)
    (W : FVec Ideal S64x32 .f32) (b : FVec Ideal S32 .f32) (LW : FVec Ideal S64x32 .f32) (Lb : FVec Ideal S32 .f32) :
    FVec Ideal S100000x32 .f32 :=
  sigT (gateT (cT ei ew x W b) h LW Lb)

theorem fun2_ZT (ei : EdgeList) (ew : EdgeWeights) (x : FVec Ideal S100000x64 .f32) (h : FVec Ideal S100000x32 .f32)
    (W : FVec Ideal S64x32 .f32) (b : FVec Ideal S32 .f32) (LW : FVec Ideal S64x32 .f32) (Lb : FVec Ideal S32 .f32) :
    fun2 (ZT ei ew x h W b LW Lb) = fun n j =>
      Ideal.logistic (lin (conv (graphOf ei ew) (proj (fun2 x) (fun2 W)) (fun1 b)) (fun2 h) (fun2 LW) (fun1 Lb) n j) := by
  funext n j
  have hg := congrFun (congrFun (fun2_gateT (cT ei ew x W b) h LW Lb) n) j
  rw [fun2_apply] at hg
  rw [fun2_apply]
  unfold ZT
  rw [sigT_apply, hg, fun2_cT]

/-- The candidate state, given the reset gate's array. -/
def HtT (ei : EdgeList) (ew : EdgeWeights) (x : FVec Ideal S100000x64 .f32) (h : FVec Ideal S100000x32 .f32)
    (W : FVec Ideal S64x32 .f32) (b : FVec Ideal S32 .f32) (LW : FVec Ideal S64x32 .f32) (Lb : FVec Ideal S32 .f32)
    (Rv : FVec Ideal S100000x32 .f32) : FVec Ideal S100000x32 .f32 :=
  Host.tanh (gateT (cT ei ew x W b) (mulf h Rv) LW Lb)

theorem fun2_mulf (a b : FVec Ideal S100000x32 .f32) : fun2 (mulf a b) = fun n k => fun2 a n k * fun2 b n k := rfl

theorem fun2_HtT (ei : EdgeList) (ew : EdgeWeights) (x : FVec Ideal S100000x64 .f32) (h : FVec Ideal S100000x32 .f32)
    (W : FVec Ideal S64x32 .f32) (b : FVec Ideal S32 .f32) (LW : FVec Ideal S64x32 .f32) (Lb : FVec Ideal S32 .f32)
    (Rv : FVec Ideal S100000x32 .f32) :
    fun2 (HtT ei ew x h W b LW Lb Rv) = fun n j =>
      Ideal.tanh (lin (conv (graphOf ei ew) (proj (fun2 x) (fun2 W)) (fun1 b)) (fun n k => fun2 h n k * fun2 Rv n k)
        (fun2 LW) (fun1 Lb) n j) := by
  funext n j
  have hg := congrFun (congrFun (fun2_gateT (cT ei ew x W b) (mulf h Rv) LW Lb) n) j
  rw [fun2_apply] at hg
  rw [fun2_apply]
  unfold HtT
  rw [hostTanh_apply, hg, fun2_cT, fun2_mulf]

/-- The new state Z · h + (1 − Z) · H̃. -/
def hnewT (Zv h Htv : FVec Ideal S100000x32 .f32) : FVec Ideal S100000x32 .f32 :=
  addf (mulf Zv h) (mulf (subf (broadcastInDim S100000x32 ![] bcast_S_S100000x32 (constant S_ .f32 0x3F800000#32)) Zv) Htv)

theorem hnewT_apply (Zv h Htv : FVec Ideal S100000x32 .f32) (i : S100000x32.Idx) :
    hnewT Zv h Htv i = Zv i * h i + (one - Zv i) * Htv i := by
  unfold hnewT
  rw [addf_apply, mulf_apply, mulf_apply, subf_apply, splat_apply]

/-- The Cauchy activation u / (u · u + 1). -/
def hactT (u : FVec Ideal S100000x32 .f32) : FVec Ideal S100000x32 .f32 :=
  Host.divf u (addf (mulf u u) (broadcastInDim S100000x32 ![] bcast_S_S100000x32 (constant S_ .f32 0x3F800000#32)))

theorem hactT_apply (u : FVec Ideal S100000x32 .f32) (i : S100000x32.Idx) :
    hactT u i = Ideal.div (u i) (u i * u i + one) := by
  unfold hactT
  rw [hostDivf_apply, addf_apply, mulf_apply, splat_apply]

/-- The read-out a · lin_W + lin_b. -/
def yhatT (a : FVec Ideal S100000x32 .f32) (linW : FVec Ideal S32x10 .f32) (linb : FVec Ideal S10 .f32) :
    FVec Ideal S100000x10 .f32 :=
  addf (Host.dotGeneral dot_S100000x32_S32x10_S100000x10_1_0_0_1_n_n none a linW) (broadcastInDim S100000x10 ![0, 1] bcast_S1x10_S100000x10_0_1 (broadcastInDim S1x10 ![1] bcast_S10_S1x10_1 linb))

theorem yhatT_apply (a : FVec Ideal S100000x32 .f32) (linW : FVec Ideal S32x10 .f32) (linb : FVec Ideal S10 .f32)
    (n : Fin 100000) (c : Fin 10) :
    yhatT a linW linb (ix2 n c) = (∑ k : Fin 32, a (ix2 n k) * linW (ix2 k c)) + linb (ix1 c) := by
  unfold yhatT
  rw [addf_apply, rowBroadcast_apply, dot_apply dot_S100000x32_S32x10_S100000x10_1_0_0_1_n_n rfl]

section Whole

variable (ei : EdgeList) (ew : EdgeWeights) (x : FVec Ideal S100000x64 .f32) (h : FVec Ideal S100000x32 .f32)
  (Wz : FVec Ideal S64x32 .f32) (bz : FVec Ideal S32 .f32) (Wr : FVec Ideal S64x32 .f32) (br : FVec Ideal S32 .f32)
  (Wh : FVec Ideal S64x32 .f32) (bh : FVec Ideal S32 .f32) (LzW : FVec Ideal S64x32 .f32) (Lzb : FVec Ideal S32 .f32)
  (LrW : FVec Ideal S64x32 .f32) (Lrb : FVec Ideal S32 .f32) (LhW : FVec Ideal S64x32 .f32) (Lhb : FVec Ideal S32 .f32)
  (linW : FVec Ideal S32x10 .f32) (linb : FVec Ideal S10 .f32)

/-- The new state's term, from the arguments. -/
def hnewAll : FVec Ideal S100000x32 .f32 :=
  hnewT (ZT ei ew x h Wz bz LzW Lzb) h (HtT ei ew x h Wh bh LhW Lhb (ZT ei ew x h Wr br LrW Lrb))

local notation "G" => graphOf ei ew
local notation "P" => paramsOf x h Wz bz Wr br Wh bh LzW Lzb LrW Lrb LhW Lhb linW linb

theorem fun2_Z : fun2 (ZT ei ew x h Wz bz LzW Lzb) = Z G P := by
  rw [fun2_ZT]
  funext n j
  simp only [Z, paramsOf]

theorem fun2_R : fun2 (ZT ei ew x h Wr br LrW Lrb) = R G P := by
  rw [fun2_ZT]
  funext n j
  simp only [R, paramsOf]

theorem fun2_Ht : fun2 (HtT ei ew x h Wh bh LhW Lhb (ZT ei ew x h Wr br LrW Lrb)) = Ht G P := by
  rw [fun2_HtT, fun2_R ei ew x h Wz bz Wr br Wh bh LzW Lzb LrW Lrb LhW Lhb linW linb]
  funext n j
  simp only [Ht, paramsOf]

theorem fun2_hnewAll : fun2 (hnewAll ei ew x h Wz bz Wr br Wh bh LzW Lzb LrW Lrb LhW Lhb) = hnew G P := by
  funext n j
  have hZ := congrFun (congrFun (fun2_Z ei ew x h Wz bz Wr br Wh bh LzW Lzb LrW Lrb LhW Lhb linW linb) n) j
  have hH := congrFun (congrFun (fun2_Ht ei ew x h Wz bz Wr br Wh bh LzW Lzb LrW Lrb LhW Lhb linW linb) n) j
  rw [fun2_apply] at hZ hH
  rw [fun2_apply]
  unfold hnewAll
  rw [hnewT_apply, hZ, hH]
  simp only [hnew, paramsOf, fun2]

theorem fun2_hact : fun2 (hactT (hnewAll ei ew x h Wz bz Wr br Wh bh LzW Lzb LrW Lrb LhW Lhb)) = hact G P := by
  funext n j
  have hN := congrFun (congrFun (fun2_hnewAll ei ew x h Wz bz Wr br Wh bh LzW Lzb LrW Lrb LhW Lhb linW linb) n) j
  rw [fun2_apply] at hN
  rw [fun2_apply, hactT_apply, hN]
  simp only [hact]

theorem fun2_yhat : fun2 (yhatT (hactT (hnewAll ei ew x h Wz bz Wr br Wh bh LzW Lzb LrW Lrb LhW Lhb)) linW linb) = yhat G P := by
  funext n c
  have hA : ∀ k : Fin 32, hactT (hnewAll ei ew x h Wz bz Wr br Wh bh LzW Lzb LrW Lrb LhW Lhb) (ix2 n k) = hact G P n k := fun k => by
    have hk := congrFun (congrFun (fun2_hact ei ew x h Wz bz Wr br Wh bh LzW Lzb LrW Lrb LhW Lhb linW linb) n) k
    rw [fun2_apply] at hk
    exact hk
  rw [fun2_apply, yhatT_apply]
  simp only [hA, yhat, paramsOf, fun2, fun1]

/-- An array is the matrix of its function of coordinates. -/
theorem eq_mat_fun2 {a b : ℕ} (v : FVec Ideal (⟨2, ![a, b]⟩ : Shape) .f32) : v = mat (fun2 v) :=
  funext fun i => congrArg v (eq_ix2 i)

end Whole

end Cert.ReferenceIdeal.RefValue

end
-- ==== Proof.Ref.Run.lean ====
/-
  The reference program's run, its two results read as the specification's functions.

  The generated run gives each result buffer as the composed term of the launch contents of the arguments.  That
  term is, by unfolding names only, the composite of the gates over those arguments; the composites were read entry by
  entry as the specification's new state, its activation and the read-out.
-/
import proofs.«109611_j74380243632619_2_alg».proof.Proof.Ref.Tail
import proofs.«109611_j74380243632619_2_alg».proof.Proof.Gen.ReferenceIdeal.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Tgcn

variable (V0 : Valuation τ sig (Elt Ideal))

/-! The named intermediate terms, as the graph's arrays and the feature projections. -/

theorem v1_eq : Value.res_main_v1 V0 = rowW (V0 (Proc.devRef .tc main_arg1)) := rfl
theorem v3_eq : Value.res_main_v3 V0 = colW (V0 (Proc.devRef .tc main_arg1)) := rfl
theorem v10_eq : Value.res_main_v10 V0 = dis (V0 (Proc.devRef .tc main_arg1)) (V0 (Proc.devRef .tc main_arg2)) := rfl
theorem v65_eq : Value.res_main_v65 V0 = dis (V0 (Proc.devRef .tc main_arg1)) (V0 (Proc.devRef .tc main_arg2)) := rfl
theorem v120_eq : Value.res_main_v120 V0 = dis (V0 (Proc.devRef .tc main_arg1)) (V0 (Proc.devRef .tc main_arg2)) := rfl
theorem v4_eq : Value.res_main_v4 V0 = projT (V0 (Proc.devRef .tc main_arg0)) (V0 (Proc.devRef .tc main_arg4)) := rfl
theorem v59_eq : Value.res_main_v59 V0 = projT (V0 (Proc.devRef .tc main_arg0)) (V0 (Proc.devRef .tc main_arg6)) := rfl
theorem v114_eq : Value.res_main_v114 V0 = projT (V0 (Proc.devRef .tc main_arg0)) (V0 (Proc.devRef .tc main_arg8)) := rfl

/-- The update gate's composed term. -/
theorem v58_eq : Value.res_main_v58 V0 = ZT (V0 (Proc.devRef .tc main_arg1)) (V0 (Proc.devRef .tc main_arg2)) (V0 (Proc.devRef .tc main_arg0)) (V0 (Proc.devRef .tc main_arg3)) (V0 (Proc.devRef .tc main_arg4)) (V0 (Proc.devRef .tc main_arg5)) (V0 (Proc.devRef .tc main_arg10)) (V0 (Proc.devRef .tc main_arg11)) := by
  unfold Value.res_main_v58
  rw [v1_eq, v3_eq, v10_eq, v4_eq]
  rfl

/-- The concatenation feeding the candidate state: the third convolution beside the state gated by the reset gate. -/
theorem v159_eq : Value.res_main_v159 V0 =
    concatenate S100000x64 1 [⟨S100000x32, cT (V0 (Proc.devRef .tc main_arg1)) (V0 (Proc.devRef .tc main_arg2)) (V0 (Proc.devRef .tc main_arg0)) (V0 (Proc.devRef .tc main_arg8)) (V0 (Proc.devRef .tc main_arg9))⟩, ⟨S100000x32, mulf (V0 (Proc.devRef .tc main_arg3)) (ZT (V0 (Proc.devRef .tc main_arg1)) (V0 (Proc.devRef .tc main_arg2)) (V0 (Proc.devRef .tc main_arg0)) (V0 (Proc.devRef .tc main_arg3)) (V0 (Proc.devRef .tc main_arg6)) (V0 (Proc.devRef .tc main_arg7)) (V0 (Proc.devRef .tc main_arg12)) (V0 (Proc.devRef .tc main_arg13)))⟩] concatenates_S100000x32_S100000x32_S100000x64_d1 := by
  unfold Value.res_main_v159
  rw [v1_eq, v3_eq, v120_eq, v65_eq, v114_eq, v59_eq]
  rfl

/-- The new state's composed term is the composite of the gates over the launch contents of the arguments. -/
theorem v169_eq : Value.res_main_v169 V0 = hnewAll (V0 (Proc.devRef .tc main_arg1)) (V0 (Proc.devRef .tc main_arg2)) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold Value.res_main_v169
  rw [v58_eq, v159_eq]
  rfl

/-- The second result's term is the matrix of the specification's activated state. -/
theorem hact_eq :
    hactT (Value.res_main_v169 V0) = mat (hact (graphOf (V0 (Proc.devRef .tc main_arg1)) (V0 (Proc.devRef .tc main_arg2))) (paramsOf (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)))) := by
  rw [v169_eq]
  exact (eq_mat_fun2 _).trans (congrArg mat (fun2_hact (V0 (Proc.devRef .tc main_arg1)) (V0 (Proc.devRef .tc main_arg2)) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))))

/-- The first result's term is the matrix of the specification's read-out. -/
theorem yhat_eq :
    yhatT (hactT (Value.res_main_v169 V0)) (V0 (Proc.devRef .tc main_arg16)) (V0 (Proc.devRef .tc main_arg17)) = mat (yhat (graphOf (V0 (Proc.devRef .tc main_arg1)) (V0 (Proc.devRef .tc main_arg2))) (paramsOf (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)))) := by
  rw [v169_eq]
  exact (eq_mat_fun2 _).trans (congrArg mat (fun2_yhat (V0 (Proc.devRef .tc main_arg1)) (V0 (Proc.devRef .tc main_arg2)) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))))

/-- Every weakly fair execution of the reference terminates with its two results the specification's read-out and
    activated state of the graph data and the arrays in its arguments, and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v177) = mat (yhat (graphOf (m ((c.tc : Thread nD τ).loc main_arg1)) (m ((c.tc : Thread nD τ).loc main_arg2))) (paramsOf (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))))
      ∧ r.2.mem ((c.tc : Thread nD τ).loc main_v173) = mat (hact (graphOf (m ((c.tc : Thread nD τ).loc main_arg1)) (m ((c.tc : Thread nD τ).loc main_arg2))) (paramsOf (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c).1.trans (yhat_eq (launchContents m c)),
      (h c).2.1.trans (hact_eq (launchContents m c)), (h c).2.2⟩) (Value.run m ρ)

/-- The reference runs and leaves its arguments unchanged. -/
theorem frame (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2.2) (run m ρ)

end Cert.ReferenceIdeal.RefValue

end
-- ==== Proof.lean ====
/-
  One step of a gated graph-convolutional recurrent cell — three graph convolutions over a weighted graph with self
  loops feeding an update gate, a reset gate and a candidate state, the Cauchy activation `u / (u · u + 1)` of the
  new state, and a linear read-out — computed two ways.

  The kernel program multiplies the node features by the three gates' weights laid side by side in one tiled matrix
  product, aggregates all 96 columns over the graph on the host, and applies the cell node by node in a second tiled
  kernel that stores the activated state and the read-out in one array.  The reference computes each gate's
  convolution separately and each gate's affine map as one product with the concatenation `[conv, h]`.

  On the extended reals the two agree entry by entry: a product with matrices laid side by side is the products side
  by side; the aggregation acts on every column alike; a contraction over a concatenation is the sum of the two
  contractions; the logistic function is `1 / (1 + e^(-x))` by definition; and multiplication commutes.  None of this
  needs the entries to be finite.  Both results are the functions `Cert.Tgcn.yhat` and `Cert.Tgcn.hact` of the graph's
  data and the cell's arrays.

  The three programs run to the end without a fault and leave their arguments unchanged; for the two kernel programs
  this is the run of their two kernels through the tiling pipeline, for the reference the run of its host operations.
-/
import proofs.«109611_j74380243632619_2_alg».proof.Defs
import proofs.«109611_j74380243632619_2_alg».proof.Proof.Gen.Kernel
import proofs.«109611_j74380243632619_2_alg».proof.Proof.Gen.KernelIdeal
import proofs.«109611_j74380243632619_2_alg».proof.Proof.Gen.ReferenceIdeal
import proofs.«109611_j74380243632619_2_alg».proof.Proof.Gen.Pre_finite_inputs
import proofs.«109611_j74380243632619_2_alg».proof.Proof.K.Run
import proofs.«109611_j74380243632619_2_alg».proof.Proof.KI.Run
import proofs.«109611_j74380243632619_2_alg».proof.Proof.KV.Final
import proofs.«109611_j74380243632619_2_alg».proof.Proof.Ref.Run

noncomputable section

namespace Cert.Proof

open Idealize.ShloMosaic Idealize.SL.Sem

/-- The kernel program runs and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference. -/
theorem frame_reference : Cert.frame_ReferenceIdeal := fun m ρ _ => Cert.ReferenceIdeal.RefValue.frame m ρ

/-- The idealization rewrote no operation. -/
theorem preserves : Cert.preserves_Kernel_KernelIdeal := trivial

/-- From memories that agree on the arguments both programs end with the specification's read-out and activated
    state of those arguments. -/
theorem algebraic : Cert.algebraic_KernelIdeal_ReferenceIdeal := by
  intro m ρ m' ρ' _ hagree
  refine ⟨fun c => Cert.Tgcn.mat (Cert.Tgcn.yhat (Cert.KernelIdeal.KValue.graphK m c) (Cert.KernelIdeal.KValue.paramsK m c)),
    fun c => Cert.Tgcn.mat (Cert.Tgcn.hact (Cert.KernelIdeal.KValue.graphK m c) (Cert.KernelIdeal.KValue.paramsK m c)),
    Cert.KernelIdeal.KValue.run m ρ, ?_⟩
  refine (θ_run Cert.ReferenceIdeal.defs _ _).mono (fun r h c => ?_) (Cert.ReferenceIdeal.RefValue.run m' ρ')
  obtain ⟨h0, h1, hargs⟩ := h c
  obtain ⟨e0, e1, e2, e3, e4, e5, e6, e7, e8, e9, e10, e11, e12, e13, e14, e15, e16, e17⟩ := hagree c
  refine ⟨h0.trans ?_, h1.trans ?_, hargs⟩
  · rw [e0, e1, e2, e3, e4, e5, e6, e7, e8, e9, e10, e11, e12, e13, e14, e15, e16, e17]
  · rw [e0, e1, e2, e3, e4, e5, e6, e7, e8, e9, e10, e11, e12, e13, e14, e15, e16, e17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
